-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1024x256 : Shape := ⟨2, ![1024, 256]⟩
abbrev S1024 : Shape := ⟨1, ![1024]⟩
abbrev S256 : Shape := ⟨1, ![256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S1024 .f32) (main_arg8 : FVec F S1024 .f32) (main_arg9 : FVec F S1024 .f32) (main_arg10 : FVec F S256 .f32) (main_arg11 : FVec F S256 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S1024x256 .f32) (main_arg5 : FVec F S1024 .f32) (main_arg6 : FVec F S1024 .f32) (main_arg7 : FVec F S1024 .f32) (main_arg8 : FVec F S1024 .f32) (main_arg9 : FVec F S1024 .f32) (main_arg10 : FVec F S256 .f32) (main_arg11 : FVec F S256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x256 .f32) (main_arg1 : FVec F S32768x256 .f32) (main_arg2 : FVec F S32768x256 .f32) (main_arg3 : FVec F S1024x256 .f32) (main_arg4 : FVec F S1024x256 .f32) (main_arg5 : FVec F S1024 .f32) (main_arg6 : FVec F S1024 .f32) (main_arg7 : FVec F S1024 .f32) (main_arg8 : FVec F S1024 .f32) (main_arg9 : FVec F S1024 .f32) (main_arg10 : FVec F S256 .f32) (main_arg11 : FVec F S256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_arg9 main_arg10 main_arg11 main_v13 main_v16
-- ==== Kernel.lean ====
abbrev S32768x256 : Shape := ⟨2, ![32768, 256]⟩
abbrev S1024x256 : Shape := ⟨2, ![1024, 256]⟩
abbrev S1024 : Shape := ⟨1, ![1024]⟩
abbrev S256 : Shape := ⟨1, ![256]⟩
abbrev S256x1024 : Shape := ⟨2, ![256, 1024]⟩
abbrev S1x1024 : Shape := ⟨2, ![1, 1024]⟩
abbrev S1x256 : Shape := ⟨2, ![1, 256]⟩
abbrev S16x1024 : Shape := ⟨2, ![16, 1024]⟩
abbrev S8x1024 : Shape := ⟨2, ![8, 1024]⟩
abbrev S1024x1024 : Shape := ⟨2, ![1024, 1024]⟩
abbrev S_ : Shape := ⟨0, ![]⟩
abbrev S16x256 : Shape := ⟨2, ![16, 256]⟩
abbrev S8x256 : Shape := ⟨2, ![8, 256]⟩

abbrev nBuf : Space → Nat
  | .hbm => 96
  | .vmem => 45
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S256, .f32⟩
  | .hbm, ⟨11, _⟩ => ⟨S256, .f32⟩
  | .hbm, ⟨12, _⟩ => ⟨S256x1024, .f32⟩
  | .hbm, ⟨13, _⟩ => ⟨S256x1024, .bf16⟩
  | .hbm, ⟨14, _⟩ => ⟨S256x1024, .f32⟩
  | .hbm, ⟨15, _⟩ => ⟨S256x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x256, .f32⟩
  | .hbm, ⟨22, _⟩ => ⟨S1x256, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S16x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S32768x256, .f32⟩
  | .hbm, ⟨70, _⟩ => ⟨S32768x256, .f32⟩
  | .hbm, ⟨71, _⟩ => ⟨S16x256, .f32⟩
  | .hbm, ⟨72, _⟩ => ⟨S16x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S_, .f32⟩
  | .hbm, ⟨80, _⟩ => ⟨S1x256, .f32⟩
  | .hbm, ⟨81, _⟩ => ⟨S1x256, .f32⟩
  | .hbm, ⟨82, _⟩ => ⟨S_, .f32⟩
  | .hbm, ⟨83, _⟩ => ⟨S1x256, .f32⟩
  | .hbm, ⟨84, _⟩ => ⟨S1x256, .f32⟩
  | .hbm, ⟨85, _⟩ => ⟨S1x256, .f32⟩
  | .hbm, ⟨86, _⟩ => ⟨S1x256, .f32⟩
  | .hbm, ⟨87, _⟩ => ⟨S_, .f32⟩
  | .hbm, ⟨88, _⟩ => ⟨S1x256, .f32⟩
  | .hbm, ⟨89, _⟩ => ⟨S1x256, .f32⟩
  | .hbm, ⟨90, _⟩ => ⟨S1x256, .f32⟩
  | .hbm, ⟨91, _⟩ => ⟨S1x256, .f32⟩
  | .hbm, ⟨92, _⟩ => ⟨S1x256, .f32⟩
  | .hbm, ⟨93, _⟩ => ⟨S1x256, .f32⟩
  | .hbm, ⟨94, _⟩ => ⟨S32768x256, .f32⟩
  | .hbm, ⟨95, _⟩ => ⟨S32768x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x1024, .bf16⟩
  | .local _ .vmem, ⟨5, _⟩ => ⟨S256x1024, .bf16⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S8x256, .f32⟩
  | .local _ .vmem, ⟨32, _⟩ => ⟨S8x256, .f32⟩
  | .local _ .vmem, ⟨33, _⟩ => ⟨S8x256, .f32⟩
  | .local _ .vmem, ⟨34, _⟩ => ⟨S8x256, .f32⟩
  | .local _ .vmem, ⟨35, _⟩ => ⟨S1024x256, .f32⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | .local _ .vmem, ⟨39, _⟩ => ⟨S1x256, .f32⟩
  | .local _ .vmem, ⟨40, _⟩ => ⟨S1x256, .f32⟩
  | .local _ .vmem, ⟨41, _⟩ => ⟨S1024x256, .f32⟩
  | .local _ .vmem, ⟨42, _⟩ => ⟨S1024x256, .f32⟩
  | .local _ .vmem, ⟨43, _⟩ => ⟨S1024x256, .f32⟩
  | .local _ .vmem, ⟨44, _⟩ => ⟨S1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48_0 : Ref sig .tc := ⟨.hbm, 69, rfl⟩
abbrev main_v48_1 : Ref sig .tc := ⟨.hbm, 70, rfl⟩
abbrev main_v48_2 : Ref sig .tc := ⟨.hbm, 71, rfl⟩
abbrev main_v48_3 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67_0 : Ref sig .tc := ⟨.hbm, 94, rfl⟩
abbrev main_v67_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg13_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg4_1 : Ref sig .tc := ⟨.vmem, 42, rfl⟩
abbrev cc2_stg5_0 : Ref sig .tc := ⟨.vmem, 43, rfl⟩
abbrev cc2_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc1_sem13_0 : DmaSem sig := 33
abbrev cc1_sem13_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem3_0 : DmaSem sig := 40
abbrev cc2_sem4_0 : DmaSem sig := 41
abbrev cc2_sem4_1 : DmaSem sig := 42
abbrev cc2_sem5_0 : DmaSem sig := 43
abbrev cc2_sem5_1 : DmaSem sig := 44

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_11 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1024x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1024x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S8x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S8x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S1024x256_S256x1024_1_0 : S1024x256.Transposes [1, 0] S256x1024
  bitsLt_bf16_f32 : FTy.bits .bf16 < FTy.bits .f32
  shapeCasts_S1024_S1x1024 : S1024.ShapeCasts S1x1024
  shapeCasts_S256_S1x256 : S256.ShapeCasts S1x256
  inb_S8x1024_S8x1024_0_0 : ∀ a, (![0, 0] : Fin 2 → Nat) a + S8x1024.size a ≤ S8x1024.size a
  h_S8x1024 : 0 < S8x1024.numel
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S1024x1024_S1024 : S1024x1024.Reduces [0] S1024
  shapeCasts_S8x1024_S8x1024 : S8x1024.ShapeCasts S8x1024
  shapeCasts_S1x1024_S1x1024 : S1x1024.ShapeCasts S1x1024
  broadcasts_S1x1024_S8x1024 : S1x1024.Broadcasts S8x1024
  slices_S16x1024_S1x1024_0_0 : S16x1024.Slices ![0, 0] S1x1024
  slices_S16x1024_S1x1024_8_0 : S16x1024.Slices ![8, 0] S1x1024
  bcast_S_S1x1024 : S_.BroadcastsInDim S1x1024 (![] : Fin 0 → Fin S1x1024.rank)
  inb_S8x256_S8x256_0_0 : ∀ a, (![0, 0] : Fin 2 → Nat) a + S8x256.size a ≤ S8x256.size a
  h_S8x256 : 0 < S8x256.numel
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  reduces_S1024x256_S256 : S1024x256.Reduces [0] S256
  shapeCasts_S8x256_S8x256 : S8x256.ShapeCasts S8x256
  shapeCasts_S1x256_S1x256 : S1x256.ShapeCasts S1x256
  broadcasts_S1x256_S8x256 : S1x256.Broadcasts S8x256
  slices_S16x256_S1x256_0_0 : S16x256.Slices ![0, 0] S1x256
  slices_S16x256_S1x256_8_0 : S16x256.Slices ![8, 0] S1x256
  bcast_S_S1x256 : S_.BroadcastsInDim S1x256 (![] : Fin 0 → Fin S1x256.rank)
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  broadcasts_S1x256_S1024x256 : S1x256.Broadcasts S1024x256
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S16x1024.size a
  hwx0_4 : ∀ i : grid0.Coords, EltTy.bits .f32 = 32 ∨ (Rect.block (s := S16x1024) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S16x1024.size a
  hwx0_5 : ∀ i : grid0.Coords, EltTy.bits .f32 = 32 ∨ (Rect.block (s := S16x1024) S8x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S16x1024.size a
  hwx0_6 : ∀ i : grid0.Coords, EltTy.bits .f32 = 32 ∨ (Rect.block (s := S16x1024) S8x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x1024.size a ≤ S16x1024.size a
  hwx0_7 : ∀ i : grid0.Coords, EltTy.bits .f32 = 32 ∨ (Rect.block (s := S16x1024) S8x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S32768x256.size a
  hwx1_0 : ∀ i : grid1.Coords, EltTy.bits .f32 = 32 ∨ (Rect.block (s := S32768x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S32768x256.size a
  hwx1_1 : ∀ i : grid1.Coords, EltTy.bits .f32 = 32 ∨ (Rect.block (s := S32768x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S32768x256.size a
  hwx1_2 : ∀ i : grid1.Coords, EltTy.bits .f32 = 32 ∨ (Rect.block (s := S32768x256) S1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .bf16 = 32 ∨ (Rect.block (s := S256x1024) S256x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S256x1024.size a
  hwx1_4 : ∀ i : grid1.Coords, EltTy.bits .bf16 = 32 ∨ (Rect.block (s := S256x1024) S256x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x256.size a ≤ S32768x256.size a
  hwx1_10 : ∀ i : grid1.Coords, EltTy.bits .f32 = 32 ∨ (Rect.block (s := S32768x256) S1024x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1024x256.size a ≤ S32768x256.size a
  hwx1_11 : ∀ i : grid1.Coords, EltTy.bits .f32 = 32 ∨ (Rect.block (s := S32768x256) S1024x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S8x256.size a ≤ S16x256.size a
  hwx1_12 : ∀ i : grid1.Coords, EltTy.bits .f32 = 32 ∨ (Rect.block (s := S16x256) S8x256.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S8x256.size a ≤ S16x256.size a
  hwx1_13 : ∀ i : grid1.Coords, EltTy.bits .f32 = 32 ∨ (Rect.block (s := S16x256) S8x256.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S32768x256.size a
  hwx2_0 : ∀ i : grid2.Coords, EltTy.bits .f32 = 32 ∨ (Rect.block (s := S32768x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S32768x256.size a
  hwx2_1 : ∀ i : grid2.Coords, EltTy.bits .f32 = 32 ∨ (Rect.block (s := S32768x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S32768x256.size a
  hwx2_4 : ∀ i : grid2.Coords, EltTy.bits .f32 = 32 ∨ (Rect.block (s := S32768x256) S1024x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S32768x256.size a
  hwx2_5 : ∀ i : grid2.Coords, EltTy.bits .f32 = 32 ∨ (Rect.block (s := S32768x256) S1024x256.size (cc2_transform_5 i) (hinb2_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S8x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S8x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S8x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_3) S8x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v4) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v48_0) S1024x256.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v48_1) S1024x256.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v48_2) S8x256.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v48_3) S8x256.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v48_0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48_1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67_0) S1024x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v67_1) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32768x256 : Shape := ⟨2, ![32768, 256]⟩
abbrev S1024x256 : Shape := ⟨2, ![1024, 256]⟩
abbrev S1024 : Shape := ⟨1, ![1024]⟩
abbrev S256 : Shape := ⟨1, ![256]⟩
abbrev S256x1024 : Shape := ⟨2, ![256, 1024]⟩
abbrev S32768x1024 : Shape := ⟨2, ![32768, 1024]⟩
abbrev S_ : Shape := ⟨0, ![]⟩
abbrev S1x1024 : Shape := ⟨2, ![1, 1024]⟩
abbrev S1x256 : Shape := ⟨2, ![1, 256]⟩

abbrev nBuf : Space → Nat
  | .hbm => 180
  | .vmem => 0
  | .smem => 0
  | _ => 0

abbrev hbmTy0_0 (i : Nat) : BufTy := match i % 128 with
  | 0 => ⟨S32768x256, .f32⟩
  | 1 => ⟨S32768x256, .f32⟩
  | 2 => ⟨S32768x256, .f32⟩
  | 3 => ⟨S1024x256, .f32⟩
  | 4 => ⟨S1024x256, .f32⟩
  | 5 => ⟨S1024, .f32⟩
  | 6 => ⟨S1024, .f32⟩
  | 7 => ⟨S1024, .f32⟩
  | 8 => ⟨S1024, .f32⟩
  | 9 => ⟨S1024, .f32⟩
  | 10 => ⟨S256, .f32⟩
  | 11 => ⟨S256, .f32⟩
  | 12 => ⟨S256x1024, .f32⟩
  | 13 => ⟨S32768x1024, .f32⟩
  | 14 => ⟨S256x1024, .f32⟩
  | 15 => ⟨S32768x1024, .f32⟩
  | 16 => ⟨S_, .f32⟩
  | 17 => ⟨S1024, .f32⟩
  | 18 => ⟨S_, .f32⟩
  | 19 => ⟨S1024, .f32⟩
  | 20 => ⟨S1024, .f32⟩
  | 21 => ⟨S_, .i32⟩
  | 22 => ⟨S_, .f32⟩
  | 23 => ⟨S1024, .f32⟩
  | 24 => ⟨S1x1024, .f32⟩
  | 25 => ⟨S_, .f32⟩
  | 26 => ⟨S1x1024, .f32⟩
  | 27 => ⟨S1x1024, .f32⟩
  | 28 => ⟨S32768x1024, .f32⟩
  | 29 => ⟨S32768x1024, .f32⟩
  | 30 => ⟨S32768x1024, .f32⟩
  | 31 => ⟨S_, .f32⟩
  | 32 => ⟨S_, .f32⟩
  | 33 => ⟨S_, .f32⟩
  | 34 => ⟨S_, .f32⟩
  | 35 => ⟨S1024, .f32⟩
  | 36 => ⟨S1024, .f32⟩
  | 37 => ⟨S1024, .f32⟩
  | 38 => ⟨S_, .f32⟩
  | 39 => ⟨S_, .i1⟩
  | 40 => ⟨S_, .f32⟩
  | 41 => ⟨S_, .f32⟩
  | 42 => ⟨S1024, .f32⟩
  | 43 => ⟨S1024, .f32⟩
  | 44 => ⟨S1x1024, .f32⟩
  | 45 => ⟨S32768x1024, .f32⟩
  | 46 => ⟨S32768x1024, .f32⟩
  | 47 => ⟨S_, .f32⟩
  | 48 => ⟨S1024, .f32⟩
  | 49 => ⟨S1024, .f32⟩
  | 50 => ⟨S1024, .f32⟩
  | 51 => ⟨S1024, .f32⟩
  | 52 => ⟨S1x1024, .f32⟩
  | 53 => ⟨S32768x1024, .f32⟩
  | 54 => ⟨S32768x1024, .f32⟩
  | 55 => ⟨S1x1024, .f32⟩
  | 56 => ⟨S32768x1024, .f32⟩
  | 57 => ⟨S32768x1024, .f32⟩
  | 58 => ⟨S_, .f32⟩
  | 59 => ⟨S1024, .f32⟩
  | 60 => ⟨S_, .f32⟩
  | 61 => ⟨S1024, .f32⟩
  | 62 => ⟨S1024, .f32⟩
  | 63 => ⟨S_, .i32⟩
  | 64 => ⟨S_, .f32⟩
  | 65 => ⟨S1024, .f32⟩
  | 66 => ⟨S1x1024, .f32⟩
  | 67 => ⟨S_, .f32⟩
  | 68 => ⟨S1x1024, .f32⟩
  | 69 => ⟨S1x1024, .f32⟩
  | 70 => ⟨S32768x1024, .f32⟩
  | 71 => ⟨S32768x1024, .f32⟩
  | 72 => ⟨S32768x1024, .f32⟩
  | 73 => ⟨S_, .f32⟩
  | 74 => ⟨S_, .f32⟩
  | 75 => ⟨S_, .f32⟩
  | 76 => ⟨S_, .f32⟩
  | 77 => ⟨S1024, .f32⟩
  | 78 => ⟨S1024, .f32⟩
  | 79 => ⟨S1024, .f32⟩
  | 80 => ⟨S_, .f32⟩
  | 81 => ⟨S_, .i1⟩
  | 82 => ⟨S_, .f32⟩
  | 83 => ⟨S_, .f32⟩
  | 84 => ⟨S1024, .f32⟩
  | 85 => ⟨S1024, .f32⟩
  | 86 => ⟨S1x1024, .f32⟩
  | 87 => ⟨S32768x1024, .f32⟩
  | 88 => ⟨S32768x1024, .f32⟩
  | 89 => ⟨S_, .f32⟩
  | 90 => ⟨S1024, .f32⟩
  | 91 => ⟨S1024, .f32⟩
  | 92 => ⟨S1024, .f32⟩
  | 93 => ⟨S1024, .f32⟩
  | 94 => ⟨S1x1024, .f32⟩
  | 95 => ⟨S32768x1024, .f32⟩
  | 96 => ⟨S32768x1024, .f32⟩
  | 97 => ⟨S1x1024, .f32⟩
  | 98 => ⟨S32768x1024, .f32⟩
  | 99 => ⟨S32768x1024, .f32⟩
  | 100 => ⟨S32768x1024, .f32⟩
  | 101 => ⟨S1x1024, .f32⟩
  | 102 => ⟨S32768x1024, .f32⟩
  | 103 => ⟨S32768x1024, .f32⟩
  | 104 => ⟨S32768x256, .f32⟩
  | 105 => ⟨S32768x256, .f32⟩
  | 106 => ⟨S32768x256, .f32⟩
  | 107 => ⟨S32768x256, .f32⟩
  | 108 => ⟨S32768x256, .f32⟩
  | 109 => ⟨S32768x256, .f32⟩
  | 110 => ⟨S_, .f32⟩
  | 111 => ⟨S32768x256, .f32⟩
  | 112 => ⟨S32768x256, .f32⟩
  | 113 => ⟨S_, .f32⟩
  | 114 => ⟨S32768x256, .f32⟩
  | 115 => ⟨S32768x256, .f32⟩
  | 116 => ⟨S32768x256, .f32⟩
  | 117 => ⟨S32768x256, .f32⟩
  | 118 => ⟨S_, .f32⟩
  | 119 => ⟨S32768x256, .f32⟩
  | 120 => ⟨S32768x256, .f32⟩
  | 121 => ⟨S_, .f32⟩
  | 122 => ⟨S32768x256, .f32⟩
  | 123 => ⟨S32768x256, .f32⟩
  | 124 => ⟨S32768x256, .f32⟩
  | 125 => ⟨S32768x256, .f32⟩
  | 126 => ⟨S_, .f32⟩
  | 127 => ⟨S32768x256, .f32⟩
  | _ => ⟨S32768x256, .f32⟩

abbrev hbmTy0_1 (i : Nat) : BufTy := match i % 128 with
  | 0 => ⟨S32768x256, .f32⟩
  | 1 => ⟨S_, .f32⟩
  | 2 => ⟨S32768x256, .f32⟩
  | 3 => ⟨S32768x256, .f32⟩
  | 4 => ⟨S32768x256, .f32⟩
  | 5 => ⟨S32768x256, .f32⟩
  | 6 => ⟨S32768x256, .f32⟩
  | 7 => ⟨S32768x256, .f32⟩
  | 8 => ⟨S_, .f32⟩
  | 9 => ⟨S256, .f32⟩
  | 10 => ⟨S_, .f32⟩
  | 11 => ⟨S256, .f32⟩
  | 12 => ⟨S256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S32768x256, .f32⟩
  | 21 => ⟨S32768x256, .f32⟩
  | 22 => ⟨S32768x256, .f32⟩
  | 23 => ⟨S_, .f32⟩
  | 24 => ⟨S_, .f32⟩
  | 25 => ⟨S_, .f32⟩
  | 26 => ⟨S_, .f32⟩
  | 27 => ⟨S256, .f32⟩
  | 28 => ⟨S256, .f32⟩
  | 29 => ⟨S256, .f32⟩
  | 30 => ⟨S_, .f32⟩
  | 31 => ⟨S_, .i1⟩
  | 32 => ⟨S_, .f32⟩
  | 33 => ⟨S_, .f32⟩
  | 34 => ⟨S256, .f32⟩
  | 35 => ⟨S256, .f32⟩
  | 36 => ⟨S1x256, .f32⟩
  | 37 => ⟨S32768x256, .f32⟩
  | 38 => ⟨S32768x256, .f32⟩
  | 39 => ⟨S_, .f32⟩
  | 40 => ⟨S256, .f32⟩
  | 41 => ⟨S256, .f32⟩
  | 42 => ⟨S256, .f32⟩
  | 43 => ⟨S256, .f32⟩
  | 44 => ⟨S1x256, .f32⟩
  | 45 => ⟨S32768x256, .f32⟩
  | 46 => ⟨S32768x256, .f32⟩
  | 47 => ⟨S1x256, .f32⟩
  | 48 => ⟨S32768x256, .f32⟩
  | 49 => ⟨S32768x256, .f32⟩
  | 50 => ⟨S32768x256, .f32⟩
  | 51 => ⟨S32768x256, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_2 : Ref sig .tc := ⟨.hbm, 58, rfl⟩
abbrev main_v21 : Ref sig .tc := ⟨.hbm, 59, rfl⟩
abbrev main_cst_3 : Ref sig .tc := ⟨.hbm, 60, rfl⟩
abbrev main_v22 : Ref sig .tc := ⟨.hbm, 61, rfl⟩
abbrev main_v23 : Ref sig .tc := ⟨.hbm, 62, rfl⟩
abbrev main_c_4 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_cst_1 : Ref sig .tc := ⟨.hbm, 74, rfl⟩
abbrev main_call1_v8 : Ref sig .tc := ⟨.hbm, 75, rfl⟩
abbrev main_call1_cst_2 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_cst_3 : Ref sig .tc := ⟨.hbm, 80, rfl⟩
abbrev main_call1_v12 : Ref sig .tc := ⟨.hbm, 81, rfl⟩
abbrev main_call1_cst_4 : Ref sig .tc := ⟨.hbm, 82, rfl⟩
abbrev main_call1_call0_v0 : Ref sig .tc := ⟨.hbm, 83, rfl⟩
abbrev main_call1_call0_v1 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_5 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_6 : Ref sig .tc := ⟨.hbm, 110, rfl⟩
abbrev main_v48 : Ref sig .tc := ⟨.hbm, 111, rfl⟩
abbrev main_v49 : Ref sig .tc := ⟨.hbm, 112, rfl⟩
abbrev main_cst_7 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_cst_8 : Ref sig .tc := ⟨.hbm, 118, rfl⟩
abbrev main_v54 : Ref sig .tc := ⟨.hbm, 119, rfl⟩
abbrev main_v55 : Ref sig .tc := ⟨.hbm, 120, rfl⟩
abbrev main_cst_9 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_cst_10 : Ref sig .tc := ⟨.hbm, 126, rfl⟩
abbrev main_v60 : Ref sig .tc := ⟨.hbm, 127, rfl⟩
abbrev main_v61 : Ref sig .tc := ⟨.hbm, 128, rfl⟩
abbrev main_cst_11 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_cst_12 : Ref sig .tc := ⟨.hbm, 136, rfl⟩
abbrev main_v68 : Ref sig .tc := ⟨.hbm, 137, rfl⟩
abbrev main_cst_13 : Ref sig .tc := ⟨.hbm, 138, rfl⟩
abbrev main_v69 : Ref sig .tc := ⟨.hbm, 139, rfl⟩
abbrev main_v70 : Ref sig .tc := ⟨.hbm, 140, rfl⟩
abbrev main_c_14 : Ref sig .tc := ⟨.hbm, 141, rfl⟩
abbrev main_call2_cst : Ref sig .tc := ⟨.hbm, 142, rfl⟩
abbrev main_call2_v0 : Ref sig .tc := ⟨.hbm, 143, rfl⟩
abbrev main_call2_v1 : Ref sig .tc := ⟨.hbm, 144, rfl⟩
abbrev main_call2_cst_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_cst_1 : Ref sig .tc := ⟨.hbm, 152, rfl⟩
abbrev main_call2_v8 : Ref sig .tc := ⟨.hbm, 153, rfl⟩
abbrev main_call2_cst_2 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_cst_3 : Ref sig .tc := ⟨.hbm, 158, rfl⟩
abbrev main_call2_v12 : Ref sig .tc := ⟨.hbm, 159, rfl⟩
abbrev main_call2_cst_4 : Ref sig .tc := ⟨.hbm, 160, rfl⟩
abbrev main_call2_call0_v0 : Ref sig .tc := ⟨.hbm, 161, rfl⟩
abbrev main_call2_call0_v1 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_cst_15 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩

abbrev nD : Nat := 1
abbrev τ : Topo := Topo.v7x

variable {F : FTy → Type} [FloatOps F]

class Facts₀ : Prop where
  transposes_S1024x256_S256x1024_1_0 : S1024x256.Transposes [1, 0] S256x1024
  reducesTo_S32768x1024_S1024_d0 : S32768x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S32768x1024_0_1 : S1x1024.BroadcastsInDim S32768x1024 (![0, 1] : Fin 2 → Fin S32768x1024.rank)
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  bcast_S_S32768x256 : S_.BroadcastsInDim S32768x256 (![] : Fin 0 → Fin S32768x256.rank)
  reducesTo_S32768x256_S256_d0 : S32768x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S32768x256_0_1 : S1x256.BroadcastsInDim S32768x256 (![0, 1] : Fin 2 → Fin S32768x256.rank)
  dot_S32768x256_S256x1024_S32768x1024_1_0_0_1_n_n_wf : DotDims.WF S32768x256 S256x1024 S32768x1024 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf

class Facts : Prop extends Facts₀ where

variable [Facts]
-- ==== Proof.Spec.lean ====
/-
  The mathematics of both programs, as plain functions on the extended reals.

  An LSTM cell whose two gate pre-activations x·W_ihᵀ and h·W_hhᵀ are each batch-normalised over the batch axis
  (mean and biased variance of every column, over all 32768 rows), summed with the bias, split into four blocks of
  256 columns (forget, input, output, cell), activated, combined into the new cell state f·c + i·g, which is
  batch-normalised again; the new hidden state is o·tanh of it.

  Two spellings of one batch normalisation appear.  The reference's: the column mean μ = (Σ v)/n, the variance as the
  mean of the squared deviations Σ (v − μ)²/n, and (v − μ)·(γ/√(var + ε)) + β.  The tiled one: the column sums of v and
  of v² gathered tile by tile (two halves of 16 tiles of 1024 rows each, the halves added afterwards), the variance as
  (Σ v²)/n − μ², and v·s + (β − μ·s) with s = γ/√(var + ε).  Matrices are curried functions of a row and a column.
-/
import Idealize.ShloMosaic.PureOps.Ideal
import Idealize.ShloMosaic.PureOps.Ideal.Laws
import Idealize.ShloMosaic.Lib.ValueIdx

noncomputable section

namespace Cert.LstmBn

open Idealize.ShloMosaic

/-- The number of rows, 32768, as the float both programs divide by. -/
def nB : EReal := Ideal.ofBits .f32 0x47000000#32
/-- The ε under the square root: the float nearest 1e-5. -/
def eps : EReal := Ideal.ofBits .f32 0x3727C5AC#32

/-- Row p of tile i of half q: the halves hold 16 tiles of 1024 consecutive rows each. -/
def tileRow (q : Fin 2) (i : Fin 16) (p : Fin 1024) : Fin 32768 :=
  ⟨(q.val * 16 + i.val) * 1024 + p.val, by have := q.isLt; have := i.isLt; have := p.isLt; omega⟩

/-- Row p of tile t of the 32 tiles of 1024 consecutive rows. -/
def tileRow32 (t : Fin 32) (p : Fin 1024) : Fin 32768 :=
  ⟨t.val * 1024 + p.val, by have := t.isLt; have := p.isLt; omega⟩

/-- A two-axis array as a function of its row and its column. -/
def curry2 {a b : ℕ} (A : (⟨2, ![a, b]⟩ : Shape).Idx → EReal) : Fin a → Fin b → EReal := fun r k => A (ValueIdx.ix2 r k)
/-- A [1, b] array as a function of its column. -/
def row1 {b : ℕ} (A : (⟨2, ![1, b]⟩ : Shape).Idx → EReal) : Fin b → EReal := fun j => A (ValueIdx.ix2 (0 : Fin 1) j)
/-- A one-axis array as a function of its position. -/
def vec1 {b : ℕ} (A : (⟨1, ![b]⟩ : Shape).Idx → EReal) : Fin b → EReal := fun j => A (ValueIdx.ix1 j)

/-- x · wt for a 256 × 1024 right operand (the transposed weights): entry (r, j) is Σ_k x(r,k)·wt(k,j). -/
def projK (X : Fin 32768 → Fin 256 → EReal) (Wt : Fin 256 → Fin 1024 → EReal) : Fin 32768 → Fin 1024 → EReal :=
  fun r j => ∑ k : Fin 256, X r k * Wt k j

/-- x · wᵀ: entry (r, j) is the inner product of row r of x with row j of w. -/
def proj (X : Fin 32768 → Fin 256 → EReal) (W : Fin 1024 → Fin 256 → EReal) : Fin 32768 → Fin 1024 → EReal :=
  fun r j => ∑ k : Fin 256, X r k * W j k

/-! ## The reference's batch normalisation -/

section
variable {n : ℕ}

/-- The column mean. -/
def mean (V : Fin 32768 → Fin n → EReal) (j : Fin n) : EReal := Ideal.div (∑ r : Fin 32768, V r j) nB

/-- The column variance as the mean of the squared deviations from the mean. -/
def var (V : Fin 32768 → Fin n → EReal) (j : Fin n) : EReal :=
  Ideal.div (∑ r : Fin 32768, (V r j - mean V j) * (V r j - mean V j)) nB

/-- (v − μ)·(γ/√(var + ε)) + β. -/
def bn (V : Fin 32768 → Fin n → EReal) (γ β : Fin n → EReal) : Fin 32768 → Fin n → EReal :=
  fun r j => (V r j - mean V j) * Ideal.div (γ j) (Ideal.sqrt (var V j + eps)) + β j

/-! ## The tiled batch normalisation -/

/-- The sum of column j over the rows of half q, tile by tile. -/
def halfSum (V : Fin 32768 → Fin n → EReal) (q : Fin 2) (j : Fin n) : EReal :=
  ∑ i : Fin 16, ∑ p : Fin 1024, V (tileRow q i p) j

/-- The mean from the two halves' sums. -/
def meanT (V : Fin 32768 → Fin n → EReal) (j : Fin n) : EReal := Ideal.div (halfSum V 0 j + halfSum V 1 j) nB

/-- The variance as the mean of the squares minus the square of the mean. -/
def varT (V : Fin 32768 → Fin n → EReal) (j : Fin n) : EReal :=
  Ideal.div (halfSum (fun r j => V r j * V r j) 0 j + halfSum (fun r j => V r j * V r j) 1 j) nB - meanT V j * meanT V j

/-- The scale γ/√(var + ε). -/
def scaleT (V : Fin 32768 → Fin n → EReal) (γ : Fin n → EReal) (j : Fin n) : EReal :=
  Ideal.div (γ j) (Ideal.sqrt (varT V j + eps))

/-- The shift β − μ·s. -/
def shiftT (V : Fin 32768 → Fin n → EReal) (γ β : Fin n → EReal) (j : Fin n) : EReal :=
  β j - meanT V j * scaleT V γ j

/-- v·s + (β − μ·s). -/
def bnT (V : Fin 32768 → Fin n → EReal) (γ β : Fin n → EReal) : Fin 32768 → Fin n → EReal :=
  fun r j => V r j * scaleT V γ j + shiftT V γ β j

end

/-! ## The cell -/

/-- Column j of block b (of four blocks of 256 columns). -/
def blockCol (b : Fin 4) (j : Fin 256) : Fin 1024 := ⟨b.val * 256 + j.val, by have := b.isLt; have := j.isLt; omega⟩

/-- The unnormalised new cell state from the gate pre-activations G and the old cell state C:
    σ(forget)·c + σ(input)·tanh(cell). -/
def cellRaw (G : Fin 32768 → Fin 1024 → EReal) (C : Fin 32768 → Fin 256 → EReal) : Fin 32768 → Fin 256 → EReal :=
  fun r j => Ideal.logistic (G r (blockCol 0 j)) * C r j + Ideal.logistic (G r (blockCol 1 j)) * Ideal.tanh (G r (blockCol 3 j))

/-- The output gate σ(output). -/
def outGate (G : Fin 32768 → Fin 1024 → EReal) : Fin 32768 → Fin 256 → EReal :=
  fun r j => Ideal.logistic (G r (blockCol 2 j))

/-- Gate pre-activations from two projections, each scaled and shifted column by column, plus the bias:
    (ih·sI + bI) + (hh·sH + bH) + b. -/
def gatesOf (IH HH : Fin 32768 → Fin 1024 → EReal) (sI bI sH bH b : Fin 1024 → EReal) : Fin 32768 → Fin 1024 → EReal :=
  fun r j => ((IH r j * sI j + bI j) + (HH r j * sH j + bH j)) + b j

/-- The reference's gate pre-activations: bn(x·W_ihᵀ) + bn(h·W_hhᵀ) + b. -/
def gatesRef (X H : Fin 32768 → Fin 256 → EReal) (Wih Whh : Fin 1024 → Fin 256 → EReal)
    (b gih bih ghh bhh : Fin 1024 → EReal) : Fin 32768 → Fin 1024 → EReal :=
  fun r j => (bn (proj X Wih) gih bih r j + bn (proj H Whh) ghh bhh r j) + b j

/-- The tiled programme's gate pre-activations. -/
def gatesT (X H : Fin 32768 → Fin 256 → EReal) (Wih Whh : Fin 1024 → Fin 256 → EReal)
    (b gih bih ghh bhh : Fin 1024 → EReal) : Fin 32768 → Fin 1024 → EReal :=
  fun r j => (bnT (proj X Wih) gih bih r j + bnT (proj H Whh) ghh bhh r j) + b j

/-- The reference's new cell state. -/
def cNextRef (X C H : Fin 32768 → Fin 256 → EReal) (Wih Whh : Fin 1024 → Fin 256 → EReal)
    (b gih bih ghh bhh : Fin 1024 → EReal) (gc bc : Fin 256 → EReal) : Fin 32768 → Fin 256 → EReal :=
  bn (cellRaw (gatesRef X H Wih Whh b gih bih ghh bhh) C) gc bc

/-- The reference's new hidden state. -/
def hNextRef (X C H : Fin 32768 → Fin 256 → EReal) (Wih Whh : Fin 1024 → Fin 256 → EReal)
    (b gih bih ghh bhh : Fin 1024 → EReal) (gc bc : Fin 256 → EReal) : Fin 32768 → Fin 256 → EReal :=
  fun r j => outGate (gatesRef X H Wih Whh b gih bih ghh bhh) r j * Ideal.tanh (cNextRef X C H Wih Whh b gih bih ghh bhh gc bc r j)

/-- The tiled programme's new cell state. -/
def cNextT (X C H : Fin 32768 → Fin 256 → EReal) (Wih Whh : Fin 1024 → Fin 256 → EReal)
    (b gih bih ghh bhh : Fin 1024 → EReal) (gc bc : Fin 256 → EReal) : Fin 32768 → Fin 256 → EReal :=
  bnT (cellRaw (gatesT X H Wih Whh b gih bih ghh bhh) C) gc bc

/-- The tiled programme's new hidden state. -/
def hNextT (X C H : Fin 32768 → Fin 256 → EReal) (Wih Whh : Fin 1024 → Fin 256 → EReal)
    (b gih bih ghh bhh : Fin 1024 → EReal) (gc bc : Fin 256 → EReal) : Fin 32768 → Fin 256 → EReal :=
  fun r j => outGate (gatesT X H Wih Whh b gih bih ghh bhh) r j * Ideal.tanh (cNextT X C H Wih Whh b gih bih ghh bhh gc bc r j)

end Cert.LstmBn

end
-- ==== Proof.Glue.lean ====
/-
  The host operations between the three passes, read entry by entry on the extended reals.

  Before the first pass the two weight matrices are transposed (their rounding to a narrower format is the identity
  here) and the seven parameter vectors become one-row matrices.  After the first pass the per-half accumulator rows 0
  and 8 of each of the four statistics arrays are added and divided by the number of rows, giving the column means of
  each projection and of its square, and from them each projection's scale γ/√(E v² − (E v)² + ε) and shift
  β − (E v)·scale.  After the second pass the same is done for the new cell state.  Every statement is for ANY contents
  W at the stretch's entry; a buffer no operation of the stretch writes keeps its contents.
-/
import proofs.«101494_j46059229282552_2_alg».proof.Proof.Gen.KernelIdeal.Launch
import proofs.«101494_j46059229282552_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Glue

open Cert.KernelIdeal Cert.KernelIdeal.Gen Cert.LstmBn
open Idealize.ShloMosaic Idealize.ShloMosaic.ValueIdx Idealize.ShloMosaic.StableHlo

/-- Rows 0 and 8 of a [16, n] statistics array added and divided by the number of rows. -/
def halves {n : ℕ} (A : (⟨2, ![16, n]⟩ : Shape).Idx → EReal) (j : Fin n) : EReal :=
  Ideal.div (A (ix2 (0 : Fin 16) j) + A (ix2 (8 : Fin 16) j)) nB

/-- γ/√(E v² − (E v)² + ε) from the two means. -/
def scaleOf (g m1 m2 : EReal) : EReal := Ideal.div g (Ideal.sqrt ((m2 - m1 * m1) + eps))

/-- The one-row slice from row 0 of a [16, n] array. -/
theorem slice0_apply {n : ℕ} (A : (⟨2, ![16, n]⟩ : Shape).Idx → EReal) (h : (⟨2, ![16, n]⟩ : Shape).Slices ![0, 0] ⟨2, ![1, n]⟩) (j : Fin n) :
    extractStridedSlice ⟨2, ![1, n]⟩ ![0, 0] A h (ix2 (0 : Fin 1) j) = A (ix2 (0 : Fin 16) j) :=
  extractStridedSlice_apply _ A h _ _ fun a => match a with | ⟨0, _⟩ => rfl | ⟨1, _⟩ => (Nat.zero_add _).symm

/-- The one-row slice from row 8 of a [16, n] array. -/
theorem slice8_apply {n : ℕ} (A : (⟨2, ![16, n]⟩ : Shape).Idx → EReal) (h : (⟨2, ![16, n]⟩ : Shape).Slices ![8, 0] ⟨2, ![1, n]⟩) (j : Fin n) :
    extractStridedSlice ⟨2, ![1, n]⟩ ![8, 0] A h (ix2 (0 : Fin 1) j) = A (ix2 (8 : Fin 16) j) :=
  extractStridedSlice_apply _ A h _ _ fun a => match a with | ⟨0, _⟩ => rfl | ⟨1, _⟩ => (Nat.zero_add _).symm

variable (W : Valuation τ sig (Elt Ideal))

/-! ## Before the first pass -/

/-- The transposed input-projection weights at (k, j) are the weights at (j, k). -/
theorem wihT_apply (k : Fin 256) (j : Fin 1024) :
    StableHlo.after (hostOps0 (F := Ideal)) W (Proc.devRef .tc main_v1) (ix2 k j) = W (Proc.devRef .tc main_arg3) (ix2 j k) := by
  after_results
  exact transpose_ix2_apply _ _ k j

/-- The transposed hidden-projection weights at (k, j) are the weights at (j, k). -/
theorem whhT_apply (k : Fin 256) (j : Fin 1024) :
    StableHlo.after (hostOps0 (F := Ideal)) W (Proc.devRef .tc main_v3) (ix2 k j) = W (Proc.devRef .tc main_arg4) (ix2 j k) := by
  after_results
  exact transpose_ix2_apply _ _ k j

/-- A parameter vector as a one-row matrix reads the vector. -/
theorem row_v4_apply (j : Fin 1024) :
    StableHlo.after (hostOps0 (F := Ideal)) W (Proc.devRef .tc main_v4) (ix2 (0 : Fin 1) j) = W (Proc.devRef .tc main_arg5) (ix1 j) := by
  after_results
  exact shapeCast_a_1a_apply _ _ 0 j

/-- A parameter vector as a one-row matrix reads the vector. -/
theorem row_v5_apply (j : Fin 1024) :
    StableHlo.after (hostOps0 (F := Ideal)) W (Proc.devRef .tc main_v5) (ix2 (0 : Fin 1) j) = W (Proc.devRef .tc main_arg6) (ix1 j) := by
  after_results
  exact shapeCast_a_1a_apply _ _ 0 j

/-- A parameter vector as a one-row matrix reads the vector. -/
theorem row_v6_apply (j : Fin 1024) :
    StableHlo.after (hostOps0 (F := Ideal)) W (Proc.devRef .tc main_v6) (ix2 (0 : Fin 1) j) = W (Proc.devRef .tc main_arg7) (ix1 j) := by
  after_results
  exact shapeCast_a_1a_apply _ _ 0 j

/-- A parameter vector as a one-row matrix reads the vector. -/
theorem row_v7_apply (j : Fin 1024) :
    StableHlo.after (hostOps0 (F := Ideal)) W (Proc.devRef .tc main_v7) (ix2 (0 : Fin 1) j) = W (Proc.devRef .tc main_arg8) (ix1 j) := by
  after_results
  exact shapeCast_a_1a_apply _ _ 0 j

/-- A parameter vector as a one-row matrix reads the vector. -/
theorem row_v8_apply (j : Fin 1024) :
    StableHlo.after (hostOps0 (F := Ideal)) W (Proc.devRef .tc main_v8) (ix2 (0 : Fin 1) j) = W (Proc.devRef .tc main_arg9) (ix1 j) := by
  after_results
  exact shapeCast_a_1a_apply _ _ 0 j

/-- A parameter vector as a one-row matrix reads the vector. -/
theorem row_v9_apply (j : Fin 256) :
    StableHlo.after (hostOps0 (F := Ideal)) W (Proc.devRef .tc main_v9) (ix2 (0 : Fin 1) j) = W (Proc.devRef .tc main_arg10) (ix1 j) := by
  after_results
  exact shapeCast_a_1a_apply _ _ 0 j

/-- A parameter vector as a one-row matrix reads the vector. -/
theorem row_v10_apply (j : Fin 256) :
    StableHlo.after (hostOps0 (F := Ideal)) W (Proc.devRef .tc main_v10) (ix2 (0 : Fin 1) j) = W (Proc.devRef .tc main_arg11) (ix1 j) := by
  after_results
  exact shapeCast_a_1a_apply _ _ 0 j

theorem keep0_arg0 : StableHlo.after (hostOps0 (F := Ideal)) W (Proc.devRef .tc main_arg0) = W (Proc.devRef .tc main_arg0) := by
  after_results_simp

theorem keep0_arg1 : StableHlo.after (hostOps0 (F := Ideal)) W (Proc.devRef .tc main_arg1) = W (Proc.devRef .tc main_arg1) := by
  after_results_simp

theorem keep0_arg2 : StableHlo.after (hostOps0 (F := Ideal)) W (Proc.devRef .tc main_arg2) = W (Proc.devRef .tc main_arg2) := by
  after_results_simp

/-! ## Between the first and the second pass -/

/-- The first projection's scale. -/
theorem scale_ih_apply (j : Fin 1024) :
    StableHlo.after (hostOps1 (F := Ideal)) W (Proc.devRef .tc main_v33) (ix2 (0 : Fin 1) j)
      = scaleOf (W (Proc.devRef .tc main_v5) (ix2 (0 : Fin 1) j)) (halves (W (Proc.devRef .tc main_v11_0)) j) (halves (W (Proc.devRef .tc main_v11_1)) j) := by
  after_results_simp
  simp only [Host.divf, Host.sqrt, addf, subf, mulf, constant, slice0_apply, slice8_apply, Ideal.hostDivf_def, Ideal.hostUnary_sqrt_def,
    Ideal.addf_def, Ideal.subf_def, Ideal.mulf_def, Ideal.ofBits_def]
  rfl

/-- The first projection's shift. -/
theorem shift_ih_apply (j : Fin 1024) :
    StableHlo.after (hostOps1 (F := Ideal)) W (Proc.devRef .tc main_v35) (ix2 (0 : Fin 1) j)
      = @id EReal (W (Proc.devRef .tc main_v6) (ix2 (0 : Fin 1) j)) - halves (W (Proc.devRef .tc main_v11_0)) j
          * scaleOf (W (Proc.devRef .tc main_v5) (ix2 (0 : Fin 1) j)) (halves (W (Proc.devRef .tc main_v11_0)) j) (halves (W (Proc.devRef .tc main_v11_1)) j) := by
  after_results_simp
  simp only [Host.divf, Host.sqrt, addf, subf, mulf, constant, slice0_apply, slice8_apply, Ideal.hostDivf_def, Ideal.hostUnary_sqrt_def,
    Ideal.addf_def, Ideal.subf_def, Ideal.mulf_def, Ideal.ofBits_def]
  rfl

/-- The second projection's scale. -/
theorem scale_hh_apply (j : Fin 1024) :
    StableHlo.after (hostOps1 (F := Ideal)) W (Proc.devRef .tc main_v45) (ix2 (0 : Fin 1) j)
      = scaleOf (W (Proc.devRef .tc main_v7) (ix2 (0 : Fin 1) j)) (halves (W (Proc.devRef .tc main_v11_2)) j) (halves (W (Proc.devRef .tc main_v11_3)) j) := by
  after_results_simp
  simp only [Host.divf, Host.sqrt, addf, subf, mulf, constant, slice0_apply, slice8_apply, Ideal.hostDivf_def, Ideal.hostUnary_sqrt_def,
    Ideal.addf_def, Ideal.subf_def, Ideal.mulf_def, Ideal.ofBits_def]
  rfl

/-- The second projection's shift. -/
theorem shift_hh_apply (j : Fin 1024) :
    StableHlo.after (hostOps1 (F := Ideal)) W (Proc.devRef .tc main_v47) (ix2 (0 : Fin 1) j)
      = @id EReal (W (Proc.devRef .tc main_v8) (ix2 (0 : Fin 1) j)) - halves (W (Proc.devRef .tc main_v11_2)) j
          * scaleOf (W (Proc.devRef .tc main_v7) (ix2 (0 : Fin 1) j)) (halves (W (Proc.devRef .tc main_v11_2)) j) (halves (W (Proc.devRef .tc main_v11_3)) j) := by
  after_results_simp
  simp only [Host.divf, Host.sqrt, addf, subf, mulf, constant, slice0_apply, slice8_apply, Ideal.hostDivf_def, Ideal.hostUnary_sqrt_def,
    Ideal.addf_def, Ideal.subf_def, Ideal.mulf_def, Ideal.ofBits_def]
  rfl

theorem keep1_arg0 : StableHlo.after (hostOps1 (F := Ideal)) W (Proc.devRef .tc main_arg0) = W (Proc.devRef .tc main_arg0) := by
  after_results_simp

theorem keep1_arg1 : StableHlo.after (hostOps1 (F := Ideal)) W (Proc.devRef .tc main_arg1) = W (Proc.devRef .tc main_arg1) := by
  after_results_simp

theorem keep1_arg2 : StableHlo.after (hostOps1 (F := Ideal)) W (Proc.devRef .tc main_arg2) = W (Proc.devRef .tc main_arg2) := by
  after_results_simp

theorem keep1_v1 : StableHlo.after (hostOps1 (F := Ideal)) W (Proc.devRef .tc main_v1) = W (Proc.devRef .tc main_v1) := by
  after_results_simp

theorem keep1_v3 : StableHlo.after (hostOps1 (F := Ideal)) W (Proc.devRef .tc main_v3) = W (Proc.devRef .tc main_v3) := by
  after_results_simp

theorem keep1_v4 : StableHlo.after (hostOps1 (F := Ideal)) W (Proc.devRef .tc main_v4) = W (Proc.devRef .tc main_v4) := by
  after_results_simp

theorem keep1_v9 : StableHlo.after (hostOps1 (F := Ideal)) W (Proc.devRef .tc main_v9) = W (Proc.devRef .tc main_v9) := by
  after_results_simp

theorem keep1_v10 : StableHlo.after (hostOps1 (F := Ideal)) W (Proc.devRef .tc main_v10) = W (Proc.devRef .tc main_v10) := by
  after_results_simp

/-! ## Between the second and the third pass -/

/-- The cell state's scale. -/
theorem scale_c_apply (j : Fin 256) :
    StableHlo.after (hostOps2 (F := Ideal)) W (Proc.devRef .tc main_v64) (ix2 (0 : Fin 1) j)
      = scaleOf (W (Proc.devRef .tc main_v9) (ix2 (0 : Fin 1) j)) (halves (W (Proc.devRef .tc main_v48_2)) j) (halves (W (Proc.devRef .tc main_v48_3)) j) := by
  after_results_simp
  simp only [Host.divf, Host.sqrt, addf, subf, mulf, constant, slice0_apply, slice8_apply, Ideal.hostDivf_def, Ideal.hostUnary_sqrt_def,
    Ideal.addf_def, Ideal.subf_def, Ideal.mulf_def, Ideal.ofBits_def]
  rfl

/-- The cell state's shift. -/
theorem shift_c_apply (j : Fin 256) :
    StableHlo.after (hostOps2 (F := Ideal)) W (Proc.devRef .tc main_v66) (ix2 (0 : Fin 1) j)
      = @id EReal (W (Proc.devRef .tc main_v10) (ix2 (0 : Fin 1) j)) - halves (W (Proc.devRef .tc main_v48_2)) j
          * scaleOf (W (Proc.devRef .tc main_v9) (ix2 (0 : Fin 1) j)) (halves (W (Proc.devRef .tc main_v48_2)) j) (halves (W (Proc.devRef .tc main_v48_3)) j) := by
  after_results_simp
  simp only [Host.divf, Host.sqrt, addf, subf, mulf, constant, slice0_apply, slice8_apply, Ideal.hostDivf_def, Ideal.hostUnary_sqrt_def,
    Ideal.addf_def, Ideal.subf_def, Ideal.mulf_def, Ideal.ofBits_def]
  rfl

theorem keep2_v48_0 : StableHlo.after (hostOps2 (F := Ideal)) W (Proc.devRef .tc main_v48_0) = W (Proc.devRef .tc main_v48_0) := by
  after_results_simp

theorem keep2_v48_1 : StableHlo.after (hostOps2 (F := Ideal)) W (Proc.devRef .tc main_v48_1) = W (Proc.devRef .tc main_v48_1) := by
  after_results_simp

end Cert.KernelIdeal.Glue

end
-- ==== Proof.Chain.lean ====
/-
  How the buffers the three passes and the host stretches read are connected through the run.

  The run alternates host stretches and passes.  Through a host stretch a buffer no operation writes keeps its
  contents, and a buffer an operation computes holds that operation's value of the stretch's entry contents.  Through
  a pass a buffer that is none of its arrays keeps its contents, an input array keeps its contents, and an output
  array holds what the pass leaves.  Following each buffer back from where it is read to the launch:
  the activations and the old cell state reach every pass as launched; the weights reach the first two passes
  transposed; the parameter vectors reach the stretches that use them as one-row matrices; the scale and shift rows the
  second and third passes read are the stretch's functions of the parameters and of the statistics the pass before
  left; the third pass reads the two arrays the second leaves; the results are what the third pass leaves.
-/
import proofs.«101494_j46059229282552_2_alg».proof.Proof.Gen.KernelIdeal.Frame
import proofs.«101494_j46059229282552_2_alg».proof.Proof.Glue

set_option maxRecDepth 16384

noncomputable section

namespace Cert.KernelIdeal.Chain

open Cert.KernelIdeal Cert.KernelIdeal.Gen Cert.LstmBn
open Idealize.ShloMosaic Idealize.ShloMosaic.TcCoe Idealize.ShloMosaic.ValueIdx Idealize.ShloMosaic.StableHlo

variable (m : (ℓ : Loc nD τ sig) → Buf (Elt Ideal) ℓ) (ρ : Dev nD → PrngReg) (c : Dev nD)

/-! ## At the first pass's entry -/

/-- The activations reach the first pass as launched. -/
theorem arg0_V1 : V1 m ρ c main_arg0 = m ((c : Thread nD τ).loc main_arg0) :=
  Glue.keep0_arg0 (W0 m ρ c)

/-- The old hidden state reaches the first pass as launched. -/
theorem arg2_V1 : V1 m ρ c main_arg2 = m ((c : Thread nD τ).loc main_arg2) :=
  Glue.keep0_arg2 (W0 m ρ c)

/-- The first pass reads the input-projection weights transposed. -/
theorem v1_V1 (k : Fin 256) (j : Fin 1024) : V1 m ρ c main_v1 (ix2 k j) = m ((c : Thread nD τ).loc main_arg3) (ix2 j k) :=
  Glue.wihT_apply (W0 m ρ c) k j

/-- The first pass reads the hidden-projection weights transposed. -/
theorem v3_V1 (k : Fin 256) (j : Fin 1024) : V1 m ρ c main_v3 (ix2 k j) = m ((c : Thread nD τ).loc main_arg4) (ix2 j k) :=
  Glue.whhT_apply (W0 m ρ c) k j

/-! ## At the first pass's exit -/

/-- The one-row matrix of parameter vector 6 is no array of the first pass: it leaves it as the first stretch made it. -/
theorem v5_W2 (j : Fin 1024) : W2 m ρ c (Proc.devRef .tc main_v5) (ix2 (0 : Fin 1) j) = m ((c : Thread nD τ).loc main_arg6) (ix1 j) := by
  rw [W2_of_ne m ρ c main_v5 (by decide)]
  exact Glue.row_v5_apply (W0 m ρ c) j

/-- The one-row matrix of parameter vector 7 is no array of the first pass: it leaves it as the first stretch made it. -/
theorem v6_W2 (j : Fin 1024) : W2 m ρ c (Proc.devRef .tc main_v6) (ix2 (0 : Fin 1) j) = m ((c : Thread nD τ).loc main_arg7) (ix1 j) := by
  rw [W2_of_ne m ρ c main_v6 (by decide)]
  exact Glue.row_v6_apply (W0 m ρ c) j

/-- The one-row matrix of parameter vector 8 is no array of the first pass: it leaves it as the first stretch made it. -/
theorem v7_W2 (j : Fin 1024) : W2 m ρ c (Proc.devRef .tc main_v7) (ix2 (0 : Fin 1) j) = m ((c : Thread nD τ).loc main_arg8) (ix1 j) := by
  rw [W2_of_ne m ρ c main_v7 (by decide)]
  exact Glue.row_v7_apply (W0 m ρ c) j

/-- The one-row matrix of parameter vector 9 is no array of the first pass: it leaves it as the first stretch made it. -/
theorem v8_W2 (j : Fin 1024) : W2 m ρ c (Proc.devRef .tc main_v8) (ix2 (0 : Fin 1) j) = m ((c : Thread nD τ).loc main_arg9) (ix1 j) := by
  rw [W2_of_ne m ρ c main_v8 (by decide)]
  exact Glue.row_v8_apply (W0 m ρ c) j

/-- The first pass's statistics array 0 at its exit is what the pass leaves. -/
theorem v11_0_W2 : W2 m ρ c (Proc.devRef .tc main_v11_0) = (dat0 (F := Ideal) (V1 m ρ) c).arrAt 4 cfg0.N :=
  W2_arr m ρ c 4

/-- The first pass's statistics array 1 at its exit is what the pass leaves. -/
theorem v11_1_W2 : W2 m ρ c (Proc.devRef .tc main_v11_1) = (dat0 (F := Ideal) (V1 m ρ) c).arrAt 5 cfg0.N :=
  W2_arr m ρ c 5

/-- The first pass's statistics array 2 at its exit is what the pass leaves. -/
theorem v11_2_W2 : W2 m ρ c (Proc.devRef .tc main_v11_2) = (dat0 (F := Ideal) (V1 m ρ) c).arrAt 6 cfg0.N :=
  W2_arr m ρ c 6

/-- The first pass's statistics array 3 at its exit is what the pass leaves. -/
theorem v11_3_W2 : W2 m ρ c (Proc.devRef .tc main_v11_3) = (dat0 (F := Ideal) (V1 m ρ) c).arrAt 7 cfg0.N :=
  W2_arr m ρ c 7

/-! ## At the second pass's entry -/

/-- The activations reach the second pass as launched: an input array of the first pass, written by no stretch. -/
theorem arg0_V3 : V3 m ρ c main_arg0 = m ((c : Thread nD τ).loc main_arg0) :=
  calc V3 m ρ c main_arg0
    _ = W2 m ρ c (Proc.devRef .tc main_arg0) := Glue.keep1_arg0 (W2 m ρ c)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := arg0_V1 m ρ c

/-- The old hidden state reaches the second pass as launched. -/
theorem arg2_V3 : V3 m ρ c main_arg2 = m ((c : Thread nD τ).loc main_arg2) :=
  calc V3 m ρ c main_arg2
    _ = W2 m ρ c (Proc.devRef .tc main_arg2) := Glue.keep1_arg2 (W2 m ρ c)
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := arg2_V1 m ρ c

/-- The old cell state reaches the second pass as launched: no array of the first pass, written by no stretch. -/
theorem arg1_V3 : V3 m ρ c main_arg1 = m ((c : Thread nD τ).loc main_arg1) :=
  calc V3 m ρ c main_arg1
    _ = W2 m ρ c (Proc.devRef .tc main_arg1) := Glue.keep1_arg1 (W2 m ρ c)
    _ = W1 m ρ c (Proc.devRef .tc main_arg1) := W2_of_ne m ρ c main_arg1 (by decide)
    _ = m ((c : Thread nD τ).loc main_arg1) := Glue.keep0_arg1 (W0 m ρ c)

/-- The transposed input-projection weights reach the second pass as the first stretch made them. -/
theorem v1_V3_eq : V3 m ρ c main_v1 = V1 m ρ c main_v1 :=
  calc V3 m ρ c main_v1
    _ = W2 m ρ c (Proc.devRef .tc main_v1) := Glue.keep1_v1 (W2 m ρ c)
    _ = W1 m ρ c (Proc.devRef .tc main_v1) := (W2_arr m ρ c 2).trans (((dat0 (V1 m ρ) c).arrAt_in 2 rfl _).trans (A_eq0 (V1 m ρ) c 2))

/-- The second pass reads the input-projection weights transposed. -/
theorem v1_V3 (k : Fin 256) (j : Fin 1024) : V3 m ρ c main_v1 (ix2 k j) = m ((c : Thread nD τ).loc main_arg3) (ix2 j k) := by
  rw [v1_V3_eq m ρ c]
  exact v1_V1 m ρ c k j

/-- The transposed hidden-projection weights reach the second pass as the first stretch made them. -/
theorem v3_V3_eq : V3 m ρ c main_v3 = V1 m ρ c main_v3 :=
  calc V3 m ρ c main_v3
    _ = W2 m ρ c (Proc.devRef .tc main_v3) := Glue.keep1_v3 (W2 m ρ c)
    _ = W1 m ρ c (Proc.devRef .tc main_v3) := (W2_arr m ρ c 3).trans (((dat0 (V1 m ρ) c).arrAt_in 3 rfl _).trans (A_eq0 (V1 m ρ) c 3))

/-- The second pass reads the hidden-projection weights transposed. -/
theorem v3_V3 (k : Fin 256) (j : Fin 1024) : V3 m ρ c main_v3 (ix2 k j) = m ((c : Thread nD τ).loc main_arg4) (ix2 j k) := by
  rw [v3_V3_eq m ρ c]
  exact v3_V1 m ρ c k j

/-- The bias reaches the second pass as a one-row matrix. -/
theorem v4_V3 (j : Fin 1024) : V3 m ρ c main_v4 (ix2 (0 : Fin 1) j) = m ((c : Thread nD τ).loc main_arg5) (ix1 j) := by
  have h : V3 m ρ c main_v4 = W1 m ρ c (Proc.devRef .tc main_v4) :=
    (Glue.keep1_v4 (W2 m ρ c)).trans (W2_of_ne m ρ c main_v4 (by decide))
  rw [h]
  exact Glue.row_v4_apply (W0 m ρ c) j

/-- The first projection's scale row, from its parameter and the first pass's statistics. -/
theorem v33_V3 (j : Fin 1024) :
    V3 m ρ c main_v33 (ix2 (0 : Fin 1) j)
      = Glue.scaleOf (m ((c : Thread nD τ).loc main_arg6) (ix1 j)) (Glue.halves ((dat0 (F := Ideal) (V1 m ρ) c).arrAt 4 cfg0.N) j) (Glue.halves ((dat0 (F := Ideal) (V1 m ρ) c).arrAt 5 cfg0.N) j) := by
  have h := Glue.scale_ih_apply (W2 m ρ c) j
  rw [v5_W2 m ρ c j, v11_0_W2 m ρ c, v11_1_W2 m ρ c] at h
  exact h

/-- The first projection's shift row. -/
theorem v35_V3 (j : Fin 1024) :
    V3 m ρ c main_v35 (ix2 (0 : Fin 1) j)
      = HSub.hSub (α := EReal) (β := EReal) (m ((c : Thread nD τ).loc main_arg7) (ix1 j)) (Glue.halves ((dat0 (F := Ideal) (V1 m ρ) c).arrAt 4 cfg0.N) j
          * Glue.scaleOf (m ((c : Thread nD τ).loc main_arg6) (ix1 j)) (Glue.halves ((dat0 (F := Ideal) (V1 m ρ) c).arrAt 4 cfg0.N) j) (Glue.halves ((dat0 (F := Ideal) (V1 m ρ) c).arrAt 5 cfg0.N) j)) := by
  have h := Glue.shift_ih_apply (W2 m ρ c) j
  rw [v5_W2 m ρ c j, v6_W2 m ρ c j, v11_0_W2 m ρ c, v11_1_W2 m ρ c] at h
  exact h

/-- The second projection's scale row. -/
theorem v45_V3 (j : Fin 1024) :
    V3 m ρ c main_v45 (ix2 (0 : Fin 1) j)
      = Glue.scaleOf (m ((c : Thread nD τ).loc main_arg8) (ix1 j)) (Glue.halves ((dat0 (F := Ideal) (V1 m ρ) c).arrAt 6 cfg0.N) j) (Glue.halves ((dat0 (F := Ideal) (V1 m ρ) c).arrAt 7 cfg0.N) j) := by
  have h := Glue.scale_hh_apply (W2 m ρ c) j
  rw [v7_W2 m ρ c j, v11_2_W2 m ρ c, v11_3_W2 m ρ c] at h
  exact h

/-- The second projection's shift row. -/
theorem v47_V3 (j : Fin 1024) :
    V3 m ρ c main_v47 (ix2 (0 : Fin 1) j)
      = HSub.hSub (α := EReal) (β := EReal) (m ((c : Thread nD τ).loc main_arg9) (ix1 j)) (Glue.halves ((dat0 (F := Ideal) (V1 m ρ) c).arrAt 6 cfg0.N) j
          * Glue.scaleOf (m ((c : Thread nD τ).loc main_arg8) (ix1 j)) (Glue.halves ((dat0 (F := Ideal) (V1 m ρ) c).arrAt 6 cfg0.N) j) (Glue.halves ((dat0 (F := Ideal) (V1 m ρ) c).arrAt 7 cfg0.N) j)) := by
  have h := Glue.shift_hh_apply (W2 m ρ c) j
  rw [v7_W2 m ρ c j, v8_W2 m ρ c j, v11_2_W2 m ρ c, v11_3_W2 m ρ c] at h
  exact h

/-! ## At the second pass's exit -/

/-- The one-row matrix of parameter vector 10 is an array of neither of the first two passes and no stretch before the
    third writes it: it leaves the second pass as the first stretch made it. -/
theorem v9_W4 (j : Fin 256) : W4 m ρ c (Proc.devRef .tc main_v9) (ix2 (0 : Fin 1) j) = m ((c : Thread nD τ).loc main_arg10) (ix1 j) := by
  have h : W4 m ρ c (Proc.devRef .tc main_v9) = W1 m ρ c (Proc.devRef .tc main_v9) :=
    calc W4 m ρ c (Proc.devRef .tc main_v9)
      _ = W3 m ρ c (Proc.devRef .tc main_v9) := W4_of_ne m ρ c main_v9 (by decide)
      _ = W2 m ρ c (Proc.devRef .tc main_v9) := Glue.keep1_v9 (W2 m ρ c)
      _ = W1 m ρ c (Proc.devRef .tc main_v9) := W2_of_ne m ρ c main_v9 (by decide)
  rw [h]
  exact Glue.row_v9_apply (W0 m ρ c) j

/-- The one-row matrix of parameter vector 11 is an array of neither of the first two passes and no stretch before the
    third writes it: it leaves the second pass as the first stretch made it. -/
theorem v10_W4 (j : Fin 256) : W4 m ρ c (Proc.devRef .tc main_v10) (ix2 (0 : Fin 1) j) = m ((c : Thread nD τ).loc main_arg11) (ix1 j) := by
  have h : W4 m ρ c (Proc.devRef .tc main_v10) = W1 m ρ c (Proc.devRef .tc main_v10) :=
    calc W4 m ρ c (Proc.devRef .tc main_v10)
      _ = W3 m ρ c (Proc.devRef .tc main_v10) := W4_of_ne m ρ c main_v10 (by decide)
      _ = W2 m ρ c (Proc.devRef .tc main_v10) := Glue.keep1_v10 (W2 m ρ c)
      _ = W1 m ρ c (Proc.devRef .tc main_v10) := W2_of_ne m ρ c main_v10 (by decide)
  rw [h]
  exact Glue.row_v10_apply (W0 m ρ c) j

/-- The second pass's output array 0 at its exit is what the pass leaves. -/
theorem v48_0_W4 : W4 m ρ c (Proc.devRef .tc main_v48_0) = (dat1 (F := Ideal) (V3 m ρ) c).arrAt 10 cfg1.N :=
  W4_arr m ρ c 10

/-- The second pass's output array 1 at its exit is what the pass leaves. -/
theorem v48_1_W4 : W4 m ρ c (Proc.devRef .tc main_v48_1) = (dat1 (F := Ideal) (V3 m ρ) c).arrAt 11 cfg1.N :=
  W4_arr m ρ c 11

/-- The second pass's output array 2 at its exit is what the pass leaves. -/
theorem v48_2_W4 : W4 m ρ c (Proc.devRef .tc main_v48_2) = (dat1 (F := Ideal) (V3 m ρ) c).arrAt 12 cfg1.N :=
  W4_arr m ρ c 12

/-- The second pass's output array 3 at its exit is what the pass leaves. -/
theorem v48_3_W4 : W4 m ρ c (Proc.devRef .tc main_v48_3) = (dat1 (F := Ideal) (V3 m ρ) c).arrAt 13 cfg1.N :=
  W4_arr m ρ c 13

/-! ## At the third pass's entry -/

/-- The third pass reads the second pass's first output as that pass leaves it: the stretch between them does not write it. -/
theorem v48_0_V5 : V5 m ρ c main_v48_0 = (dat1 (F := Ideal) (V3 m ρ) c).arrAt 10 cfg1.N :=
  (Glue.keep2_v48_0 (W4 m ρ c)).trans (v48_0_W4 m ρ c)

/-- The third pass reads the second pass's second output as that pass leaves it. -/
theorem v48_1_V5 : V5 m ρ c main_v48_1 = (dat1 (F := Ideal) (V3 m ρ) c).arrAt 11 cfg1.N :=
  (Glue.keep2_v48_1 (W4 m ρ c)).trans (v48_1_W4 m ρ c)

/-- The cell state's scale row, from its parameter and the second pass's statistics. -/
theorem v64_V5 (j : Fin 256) :
    V5 m ρ c main_v64 (ix2 (0 : Fin 1) j)
      = Glue.scaleOf (m ((c : Thread nD τ).loc main_arg10) (ix1 j)) (Glue.halves ((dat1 (F := Ideal) (V3 m ρ) c).arrAt 12 cfg1.N) j) (Glue.halves ((dat1 (F := Ideal) (V3 m ρ) c).arrAt 13 cfg1.N) j) := by
  have h := Glue.scale_c_apply (W4 m ρ c) j
  rw [v9_W4 m ρ c j, v48_2_W4 m ρ c, v48_3_W4 m ρ c] at h
  exact h

/-- The cell state's shift row. -/
theorem v66_V5 (j : Fin 256) :
    V5 m ρ c main_v66 (ix2 (0 : Fin 1) j)
      = HSub.hSub (α := EReal) (β := EReal) (m ((c : Thread nD τ).loc main_arg11) (ix1 j)) (Glue.halves ((dat1 (F := Ideal) (V3 m ρ) c).arrAt 12 cfg1.N) j
          * Glue.scaleOf (m ((c : Thread nD τ).loc main_arg10) (ix1 j)) (Glue.halves ((dat1 (F := Ideal) (V3 m ρ) c).arrAt 12 cfg1.N) j) (Glue.halves ((dat1 (F := Ideal) (V3 m ρ) c).arrAt 13 cfg1.N) j)) := by
  have h := Glue.shift_c_apply (W4 m ρ c) j
  rw [v9_W4 m ρ c j, v10_W4 m ρ c j, v48_2_W4 m ρ c, v48_3_W4 m ρ c] at h
  exact h

/-! ## At the return -/

/-- The third pass's first output at the return is what the pass leaves. -/
theorem v67_0_W6 : W6 m ρ c (Proc.devRef .tc main_v67_0) = (dat2 (F := Ideal) (V5 m ρ) c).arrAt 4 cfg2.N :=
  W6_arr m ρ c 4

/-- The third pass's second output at the return is what the pass leaves. -/
theorem v67_1_W6 : W6 m ρ c (Proc.devRef .tc main_v67_1) = (dat2 (F := Ideal) (V5 m ρ) c).arrAt 5 cfg2.N :=
  W6_arr m ρ c 5

end Cert.KernelIdeal.Chain

end
-- ==== Proof.Stats.lean ====
/-
  From the accumulated half sums to the tiled batch normalisation's mean, scale and shift.

  A [16, n] statistics array whose rows 0 and 8 hold the two halves' column sums of v gives, added and divided by the
  number of rows, the tiled mean of v; with the same for v² it gives the tiled variance, hence the scale γ/√(var + ε)
  and the shift β − mean·scale, exactly as the specification spells them.
-/
import proofs.«101494_j46059229282552_2_alg».proof.Proof.Spec
import proofs.«101494_j46059229282552_2_alg».proof.Proof.Glue

noncomputable section

namespace Cert.KernelIdeal.Stats

open Cert.LstmBn Cert.KernelIdeal.Glue
open Idealize.ShloMosaic Idealize.ShloMosaic.ValueIdx

variable {n : ℕ} (V : Fin 32768 → Fin n → EReal) (γ β : Fin n → EReal) (j : Fin n)
  (A B : (⟨2, ![16, n]⟩ : Shape).Idx → EReal)

/-- Rows 0 and 8 holding the two halves' sums of v: the halves' mean is the tiled mean. -/
theorem halves_mean (hA0 : A (ix2 (0 : Fin 16) j) = halfSum V 0 j) (hA8 : A (ix2 (8 : Fin 16) j) = halfSum V 1 j) :
    halves A j = meanT V j := by
  unfold halves meanT; rw [hA0, hA8]

/-- With the sums of v² beside them: the scale. -/
theorem scale_eq (hA0 : A (ix2 (0 : Fin 16) j) = halfSum V 0 j) (hA8 : A (ix2 (8 : Fin 16) j) = halfSum V 1 j)
    (hB0 : B (ix2 (0 : Fin 16) j) = halfSum (fun r j => V r j * V r j) 0 j)
    (hB8 : B (ix2 (8 : Fin 16) j) = halfSum (fun r j => V r j * V r j) 1 j) (g : EReal) (hg : g = γ j) :
    scaleOf g (halves A j) (halves B j) = scaleT V γ j := by
  rw [halves_mean V j A hA0 hA8, hg]
  unfold scaleOf scaleT varT halves; rw [hB0, hB8]

/-- And the shift. -/
theorem shift_eq (hA0 : A (ix2 (0 : Fin 16) j) = halfSum V 0 j) (hA8 : A (ix2 (8 : Fin 16) j) = halfSum V 1 j)
    (hB0 : B (ix2 (0 : Fin 16) j) = halfSum (fun r j => V r j * V r j) 0 j)
    (hB8 : B (ix2 (8 : Fin 16) j) = halfSum (fun r j => V r j * V r j) 1 j) (g b : EReal) (hg : g = γ j) (hb : b = β j) :
    b - halves A j * scaleOf g (halves A j) (halves B j) = shiftT V γ β j := by
  rw [scale_eq V γ j A B hA0 hA8 hB0 hB8 g hg, halves_mean V j A hA0 hA8, hb]
  rfl

end Cert.KernelIdeal.Stats

end
-- ==== Proof.Region0.Pieces.lean ====
/-
  What each case of the statistics body leaves in each of its four accumulators, as the body's arithmetic.

  The body keeps four [8, 1024] accumulators.  At the first tile of a half it zeroes them; at every tile it adds, to
  every row of each accumulator, one [1, 1024] row of column sums of the tile: of x·W_ih, of its squares, of h·W_hh,
  of its squares.  So after a later tile an accumulator holds the payload "what it held + the tile's column sums", and
  after a first tile the same payload over the zero block it has just stored and read back.
-/
import proofs.«101494_j46059229282552_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Region0

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

variable (c : Dev nD) (i : grid0.Coords)
  (a2 : Memref sig .tc .vmem S1024x256 .f32) (h2 : a2.IsWhole) (a3 : Memref sig .tc .vmem S1024x256 .f32) (h3 : a3.IsWhole)
  (a4 : Memref sig .tc .vmem S256x1024 .bf16) (h4 : a4.IsWhole) (a5 : Memref sig .tc .vmem S256x1024 .bf16) (h5 : a5.IsWhole)
  (a6 : Memref sig .tc .vmem S8x1024 .f32) (h6 : a6.IsWhole) (a7 : Memref sig .tc .vmem S8x1024 .f32) (h7 : a7.IsWhole)
  (a8 : Memref sig .tc .vmem S8x1024 .f32) (h8 : a8.IsWhole) (a9 : Memref sig .tc .vmem S8x1024 .f32) (h9 : a9.IsWhole)
  (x0 x1 : Vec F S1024x256 .f32) (x2 x3 : Vec F S256x1024 .bf16)

/-! ## A later tile of a half: one covering store per accumulator, onto what the tile before left -/

section Later
variable (hc : ¬cond0_0 i) (xo4 xo5 xo6 xo7 : Vec F S8x1024 .f32)

/-- The sum of x·W_ih: what it held plus the tile's column sums. -/
theorem later_sum_ih :
    out0_B_4 c i a2 h2 a3 h3 a4 h4 a5 h5 a6 h6 a7 h7 a8 h8 a9 h9 hc x0 x1 x2 x3 xo4 xo5 xo6 xo7 = k0_pay11 x0 x2 xo4 := by
  unfold out0_B_4
  rw [View.read_writes_eq_canon _ _ _ (cover0_B_4 c i a2 h2 a3 h3 a4 h4 a5 h5 a6 h6 a7 h7 a8 h8 a9 h9 hc x0 x1 x2 x3 xo4 xo5 xo6 xo7)]
  unfold kernelRun0_B
  dsimp only
  try sl_unfold_words
  rw [View.canon_unit_zero hz]
  simp only [View.readAt_eq_ld, h2.read_unread, h4.read_unread, h6.read_unread, View.ld_unit_zero (S := S1024x256) hz,
    View.ld_unit_zero (S := S256x1024) hz, View.ld_unit_zero (S := S8x1024) hz]

/-- The sum of the squares of x·W_ih. -/
theorem later_sumsq_ih :
    out0_B_5 c i a2 h2 a3 h3 a4 h4 a5 h5 a6 h6 a7 h7 a8 h8 a9 h9 hc x0 x1 x2 x3 xo4 xo5 xo6 xo7 = k0_pay12 x0 x2 xo5 := by
  unfold out0_B_5
  rw [View.read_writes_eq_canon _ _ _ (cover0_B_5 c i a2 h2 a3 h3 a4 h4 a5 h5 a6 h6 a7 h7 a8 h8 a9 h9 hc x0 x1 x2 x3 xo4 xo5 xo6 xo7)]
  unfold kernelRun0_B
  dsimp only
  try sl_unfold_words
  rw [View.canon_unit_zero hz]
  simp only [View.readAt_eq_ld, h2.read_unread, h4.read_unread, h7.read_unread, View.ld_unit_zero (S := S1024x256) hz,
    View.ld_unit_zero (S := S256x1024) hz, View.ld_unit_zero (S := S8x1024) hz]

/-- The sum of h·W_hh. -/
theorem later_sum_hh :
    out0_B_6 c i a2 h2 a3 h3 a4 h4 a5 h5 a6 h6 a7 h7 a8 h8 a9 h9 hc x0 x1 x2 x3 xo4 xo5 xo6 xo7 = k0_pay1 (k0_pay9 x1 x3) xo6 := by
  unfold out0_B_6
  rw [View.read_writes_eq_canon _ _ _ (cover0_B_6 c i a2 h2 a3 h3 a4 h4 a5 h5 a6 h6 a7 h7 a8 h8 a9 h9 hc x0 x1 x2 x3 xo4 xo5 xo6 xo7)]
  unfold kernelRun0_B
  dsimp only
  try sl_unfold_words
  rw [View.canon_unit_zero hz]
  simp only [View.readAt_eq_ld, h3.read_unread, h5.read_unread, h8.read_unread, View.ld_unit_zero (S := S1024x256) hz,
    View.ld_unit_zero (S := S256x1024) hz, View.ld_unit_zero (S := S8x1024) hz]

/-- The sum of the squares of h·W_hh. -/
theorem later_sumsq_hh :
    out0_B_7 c i a2 h2 a3 h3 a4 h4 a5 h5 a6 h6 a7 h7 a8 h8 a9 h9 hc x0 x1 x2 x3 xo4 xo5 xo6 xo7 = k0_pay2 (k0_pay10 x1 x3) xo7 := by
  unfold out0_B_7
  rw [View.read_writes_eq_canon _ _ _ (cover0_B_7 c i a2 h2 a3 h3 a4 h4 a5 h5 a6 h6 a7 h7 a8 h8 a9 h9 hc x0 x1 x2 x3 xo4 xo5 xo6 xo7)]
  unfold kernelRun0_B
  dsimp only
  try sl_unfold_words
  rw [View.canon_unit_zero hz]
  simp only [View.readAt_eq_ld, h3.read_unread, h5.read_unread, h9.read_unread, View.ld_unit_zero (S := S1024x256) hz,
    View.ld_unit_zero (S := S256x1024) hz, View.ld_unit_zero (S := S8x1024) hz]

end Later

/-! ## The first tile of a half: the zero block stored and read back, then the same covering store -/

section First
variable (hc : cond0_0 i)

/-- The sum of x·W_ih over the zero block. -/
theorem first_sum_ih :
    out0_A_4 c i a2 h2 a3 h3 a4 h4 a5 h5 a6 h6 a7 h7 a8 h8 a9 h9 hc x0 x1 x2 x3 = k0_pay11 x0 x2 (k0_pay3 (F := F)) := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  try sl_unfold_words
  rw [View.canon_cons_unit_zero (S := S8x1024) hz, View.readCov_unit_zero (S := S8x1024) _ hz]
  simp only [View.readAt_eq_ld, h2.read_unread, h4.read_unread, View.ld_unit_zero (S := S1024x256) hz,
    View.ld_unit_zero (S := S256x1024) hz]

/-- The sum of the squares of x·W_ih over the zero block. -/
theorem first_sumsq_ih :
    out0_A_5 c i a2 h2 a3 h3 a4 h4 a5 h5 a6 h6 a7 h7 a8 h8 a9 h9 hc x0 x1 x2 x3 = k0_pay12 x0 x2 (k0_pay4 (F := F)) := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  try sl_unfold_words
  rw [View.canon_cons_unit_zero (S := S8x1024) hz, View.readCov_unit_zero (S := S8x1024) _ hz]
  simp only [View.readAt_eq_ld, h2.read_unread, h4.read_unread, View.ld_unit_zero (S := S1024x256) hz,
    View.ld_unit_zero (S := S256x1024) hz]

/-- The sum of h·W_hh over the zero block. -/
theorem first_sum_hh :
    out0_A_6 c i a2 h2 a3 h3 a4 h4 a5 h5 a6 h6 a7 h7 a8 h8 a9 h9 hc x0 x1 x2 x3 = k0_pay1 (k0_pay9 x1 x3) (k0_pay5 (F := F)) := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  try sl_unfold_words
  rw [View.canon_cons_unit_zero (S := S8x1024) hz, View.readCov_unit_zero (S := S8x1024) _ hz]
  simp only [View.readAt_eq_ld, h3.read_unread, h5.read_unread, View.ld_unit_zero (S := S1024x256) hz,
    View.ld_unit_zero (S := S256x1024) hz]

/-- The sum of the squares of h·W_hh over the zero block. -/
theorem first_sumsq_hh :
    out0_A_7 c i a2 h2 a3 h3 a4 h4 a5 h5 a6 h6 a7 h7 a8 h8 a9 h9 hc x0 x1 x2 x3 = k0_pay2 (k0_pay10 x1 x3) (k0_pay6 (F := F)) := by
  unfold out0_A_7
  rw [View.read_writes_eq_canon _ _ _ (cover0_A_7 c i a2 h2 a3 h3 a4 h4 a5 h5 a6 h6 a7 h7 a8 h8 a9 h9 hc x0 x1 x2 x3)]
  unfold kernelRun0_A
  dsimp only
  try sl_unfold_words
  rw [View.canon_cons_unit_zero (S := S8x1024) hz, View.readCov_unit_zero (S := S8x1024) _ hz]
  simp only [View.readAt_eq_ld, h3.read_unread, h5.read_unread, View.ld_unit_zero (S := S1024x256) hz,
    View.ld_unit_zero (S := S256x1024) hz]

end First

end Cert.KernelIdeal.Region0

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibFirstAxisSum.lean ====
/-
  A sum of an [a, b] array along its FIRST axis, read at a coordinate: started from the neutral element it is, at
  column q, the plain sum over k < a of the array at (k, q).
-/
import Idealize.ShloMosaic.PureOps.Ideal.Laws
import Idealize.ShloMosaic.Lib.ValueIdx

noncomputable section

namespace Cert.AxisSums

open Idealize.ShloMosaic Idealize.ShloMosaic.ValueIdx

/-- The source index above column q with k on the summed first axis is (k, q). -/
theorem lift_first {a b : ℕ} (h : (⟨2, ![a, b]⟩ : Shape).Reduces [0] ⟨1, ![b]⟩) (q : Fin b) (k : Fin a) :
    h.lift (ix1 q) k = ix2 k q := by
  funext d; apply Fin.ext
  show h.liftVal (ix1 q) k.val d = (ix2 k q d).val
  unfold Shape.Reduces.liftVal
  match d with
  | ⟨0, _⟩ => rfl
  | ⟨1, _⟩ => rfl

/-- A sum of an [a, b] array along its first axis, from the neutral element, at q: the sum over k of the array at
    (k, q). -/
theorem sum_first_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] (⟨1, ![b]⟩ : Shape) src acc h hφ hacc (ix1 q) = ∑ k : Fin a, src (ix2 k q) :=
  (Ideal.multiReduction_add_single src acc h hφ hacc (ix1 q)).trans
    (Finset.sum_congr rfl fun k _ => congrArg src (lift_first h q k))

end Cert.AxisSums

end
-- ==== Proof.Region0.Payload.lean ====
/-
  The statistics body's arithmetic at an entry, over the extended reals.

  A tile is 1024 rows x of 256 entries and the weights w are 256 x 1024.  The tile's product is
  (x·w)(p, j) = Σ_k x(p, k)·w(k, j); the rounding of x to the weights' format is the identity here.  Each accumulator
  update adds to row u, column j of an [8, 1024] accumulator the column sum Σ_p (x·w)(p, j) of the product, or
  Σ_p (x·w)(p, j)² of its squares — the same addend on all eight rows.
-/
import proofs.«101494_j46059229282552_2_alg».proof.Proof.Gen.KernelIdeal.Skeleton
import proofs.«101494_j46059229282552_2_alg».proof.Proof.LibPlainDot
import proofs.«101494_j46059229282552_2_alg».proof.Proof.LibFirstAxisSum
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.KernelIdeal.Region0

open Cert.KernelIdeal Cert.KernelIdeal.Gen

/-- The tile's product Σ_k x(p, k)·w(k, j), the quantity all four statistics are taken of. -/
def tileDot (x : Vec Ideal S1024x256 .f32) (w : Vec Ideal S256x1024 .bf16) (p : Fin 1024) (j : Fin 1024) : EReal :=
  ∑ k : Fin 256, x (ix2 p k) * w (ix2 k j)

/-- The product the body forms from the x-tile and W_ih, at an entry. -/
theorem pay7_apply (x : Vec Ideal S1024x256 .f32) (w : Vec Ideal S256x1024 .bf16) (p j : Fin 1024) :
    k0_pay7 (F := Ideal) x w (ix2 p j) = tileDot x w p j := by
  unfold k0_pay7
  refine (Cert.LibPlainDot.matmul_zero_apply dot_S1024x256_S256x1024_S1024x1024_1_0_0_1_n_n rfl rfl rfl rfl
    (fun _ _ => rfl) (fun _ _ => rfl) none _ _ p j).trans ?_
  unfold tileDot
  refine Finset.sum_congr rfl fun k _ => ?_
  rw [shapeCast_self]
  rfl

/-- The product the body forms from the h-tile and W_hh, at an entry: the same expression. -/
theorem pay8_apply (x : Vec Ideal S1024x256 .f32) (w : Vec Ideal S256x1024 .bf16) (p j : Fin 1024) :
    k0_pay8 (F := Ideal) x w (ix2 p j) = tileDot x w p j := by
  unfold k0_pay8
  refine (Cert.LibPlainDot.matmul_zero_apply dot_S1024x256_S256x1024_S1024x1024_1_0_0_1_n_n rfl rfl rfl rfl
    (fun _ _ => rfl) (fun _ _ => rfl) none _ _ p j).trans ?_
  unfold tileDot
  refine Finset.sum_congr rfl fun k _ => ?_
  rw [shapeCast_self]
  rfl

/-- A [1024, 1024] array summed along its rows, laid out as one row and spread over eight rows, added to an
    accumulator: at (u, j) the accumulator's entry plus the column sum. -/
theorem acc_add_colsum (src : FVec Ideal S1024x1024 .f32) (acc : Vec Ideal S8x1024 .f32) (u : Fin 8) (j : Fin 1024) :
    addf (F := Ideal) (shapeCast S8x1024 acc shapeCasts_S8x1024_S8x1024)
        (broadcastTo S8x1024
          (shapeCast S1x1024
            (shapeCast S1x1024
              (multiReduction (F := Ideal) .add [0] S1024 src 0x00000000#32 reduces_S1024x1024_S1024 (.inl rfl) rfl)
              shapeCasts_S1024_S1x1024)
            shapeCasts_S1x1024_S1x1024)
          broadcasts_S1x1024_S8x1024) (ix2 u j)
      = acc (ix2 u j) + ∑ p : Fin 1024, src (ix2 p j) := by
  rw [addf_apply, shapeCast_self, shapeCast_self]
  refine congrArg (acc (ix2 u j) + ·) ?_
  refine (broadcastTo_1b_ab_apply _ broadcasts_S1x1024_S8x1024 u j).trans ?_
  refine (shapeCast_a_1a_apply _ shapeCasts_S1024_S1x1024 (0 : Fin 1) j).trans ?_
  exact Cert.AxisSums.sum_first_apply src 0x00000000#32 reduces_S1024x1024_S1024 (.inl rfl) rfl j

/-! ## The four accumulator updates, at an entry -/

section Updates
variable (x : Vec Ideal S1024x256 .f32) (w : Vec Ideal S256x1024 .bf16) (acc : Vec Ideal S8x1024 .f32) (u : Fin 8) (j : Fin 1024)

/-- The sum of x·W_ih: the accumulator's entry plus the column sum of the tile's product. -/
theorem sum_ih_apply : k0_pay11 (F := Ideal) x w acc (ix2 u j) = acc (ix2 u j) + ∑ p : Fin 1024, tileDot x w p j := by
  unfold k0_pay11
  refine (acc_add_colsum (k0_pay7 x w) acc u j).trans ?_
  exact congrArg (acc (ix2 u j) + ·) (Finset.sum_congr rfl fun p _ => pay7_apply x w p j)

/-- The sum of its squares: the accumulator's entry plus the column sum of the squared product. -/
theorem sumsq_ih_apply :
    k0_pay12 (F := Ideal) x w acc (ix2 u j) = acc (ix2 u j) + ∑ p : Fin 1024, tileDot x w p j * tileDot x w p j := by
  unfold k0_pay12
  refine (acc_add_colsum (mulf (k0_pay7 x w) (k0_pay7 x w)) acc u j).trans ?_
  refine congrArg (acc (ix2 u j) + ·) (Finset.sum_congr rfl fun p _ => ?_)
  rw [mulf_apply, pay7_apply]

/-- The sum of h·W_hh: the same update of the third accumulator, the row of column sums formed first. -/
theorem sum_hh_apply :
    k0_pay1 (F := Ideal) (k0_pay9 x w) acc (ix2 u j) = acc (ix2 u j) + ∑ p : Fin 1024, tileDot x w p j := by
  unfold k0_pay1 k0_pay9
  refine (acc_add_colsum (k0_pay8 x w) acc u j).trans ?_
  exact congrArg (acc (ix2 u j) + ·) (Finset.sum_congr rfl fun p _ => pay8_apply x w p j)

/-- The sum of its squares, into the fourth accumulator. -/
theorem sumsq_hh_apply :
    k0_pay2 (F := Ideal) (k0_pay10 x w) acc (ix2 u j) = acc (ix2 u j) + ∑ p : Fin 1024, tileDot x w p j * tileDot x w p j := by
  unfold k0_pay2 k0_pay10
  refine (acc_add_colsum (mulf (k0_pay8 x w) (k0_pay8 x w)) acc u j).trans ?_
  refine congrArg (acc (ix2 u j) + ·) (Finset.sum_congr rfl fun p _ => ?_)
  rw [mulf_apply, pay8_apply]

end Updates

/-! ## The zero blocks the first tile of a half stores -/

theorem zero4_apply (u : Fin 8) (j : Fin 1024) : k0_pay3 (F := Ideal) (ix2 u j) = 0 := by
  unfold k0_pay3; exact Ideal.ofBits_zero_f32
theorem zero5_apply (u : Fin 8) (j : Fin 1024) : k0_pay4 (F := Ideal) (ix2 u j) = 0 := by
  unfold k0_pay4; exact Ideal.ofBits_zero_f32
theorem zero6_apply (u : Fin 8) (j : Fin 1024) : k0_pay5 (F := Ideal) (ix2 u j) = 0 := by
  unfold k0_pay5; exact Ideal.ofBits_zero_f32
theorem zero7_apply (u : Fin 8) (j : Fin 1024) : k0_pay6 (F := Ideal) (ix2 u j) = 0 := by
  unfold k0_pay6; exact Ideal.ofBits_zero_f32

end Cert.KernelIdeal.Region0

end
-- ==== Proof.Region0.Blocks.lean ====
/-
  The statistics pass's windows, read as entries of their arrays.

  The grid's 32 points t = 16·q + i run over the tiles of 1024 consecutive rows: at point t the window of x (and of h)
  holds rows 1024·t … 1024·t + 1023, and the windows of the two weight arrays hold them whole.  Each accumulator's
  block at point t is rows 8·(t / 16) … 8·(t / 16) + 7 of its [16, 1024] array: one block per half.
-/
import proofs.«101494_j46059229282552_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Region0

open Cert.KernelIdeal Cert.KernelIdeal.Gen

variable (V : (c : Dev nD) → (b : Ref sig .tc) → Buf (Elt Ideal) ((c : Thread nD τ).loc b)) (c : Dev nD)

/-- Row p of tile n, wrapped into the 32768 rows so that it names a row for every natural n; for n < 32 it is
    row 1024·n + p. -/
def rowOf (n : ℕ) (p : Fin 1024) : Fin 32768 := ⟨(n * 1024 + p.val) % 32768, Nat.mod_lt _ (by decide)⟩

/-- Where the windows' blocks sit at point t: the tile windows at row block t, the weights at block (0, 0), the
    accumulators at row block t / 16 — decided over the 32 points. -/
theorem index_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val / 16 ∧ win0_4.index t 1 = 0) ∧ (win0_5.index t 0 = t.val / 16 ∧ win0_5.index t 1 = 0)
    ∧ (win0_6.index t 0 = t.val / 16 ∧ win0_6.index t 1 = 0) ∧ (win0_7.index t 0 = t.val / 16 ∧ win0_7.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val / 16 ∧ win0_4.index t 1 = 0) ∧ (win0_5.index t 0 = t.val / 16 ∧ win0_5.index t 1 = 0)
    ∧ (win0_6.index t 0 = t.val / 16 ∧ win0_6.index t 1 = 0) ∧ (win0_7.index t 0 = t.val / 16 ∧ win0_7.index t 1 = 0))

/-- The x window at point t, at (p, k): row 1024·t + p of x. -/
theorem xtile_apply (t : Fin cfg0.N) (p : Fin 1024) (k : Fin 256) :
    (iblk0 V c 0 t : Vec Ideal S1024x256 .f32) (ix2 p k)
      = (V c (Pipeline.arrRef spec0 0) : S32768x256.Idx → EReal) (ix2 (rowOf t.val p) k) := by
  have hi := (index_facts t).1
  have hN : t.val < 32 := lt_of_lt_of_eq t.isLt N_0
  unfold iblk0
  rw [View.read_apply]
  show V c (Pipeline.arrRef spec0 0) _ = V c (Pipeline.arrRef spec0 0) _
  refine congrArg _ ?_
  funext a
  apply Fin.ext
  match a with
  | ⟨0, _⟩ =>
    show win0_0.index t 0 * 1024 + 1 * p.val = (t.val * 1024 + p.val) % 32768
    rw [hi.1, Nat.mod_eq_of_lt (by have := p.isLt; omega)]; omega
  | ⟨1, _⟩ => show win0_0.index t 1 * 256 + 1 * k.val = k.val; rw [hi.2]; omega

/-- The h window at point t, at (p, k): row 1024·t + p of h. -/
theorem htile_apply (t : Fin cfg0.N) (p : Fin 1024) (k : Fin 256) :
    (iblk0 V c 1 t : Vec Ideal S1024x256 .f32) (ix2 p k)
      = (V c (Pipeline.arrRef spec0 1) : S32768x256.Idx → EReal) (ix2 (rowOf t.val p) k) := by
  have hi := (index_facts t).2.1
  have hN : t.val < 32 := lt_of_lt_of_eq t.isLt N_0
  unfold iblk0
  rw [View.read_apply]
  show V c (Pipeline.arrRef spec0 1) _ = V c (Pipeline.arrRef spec0 1) _
  refine congrArg _ ?_
  funext a
  apply Fin.ext
  match a with
  | ⟨0, _⟩ =>
    show win0_1.index t 0 * 1024 + 1 * p.val = (t.val * 1024 + p.val) % 32768
    rw [hi.1, Nat.mod_eq_of_lt (by have := p.isLt; omega)]; omega
  | ⟨1, _⟩ => show win0_1.index t 1 * 256 + 1 * k.val = k.val; rw [hi.2]; omega

/-- The W_ih window at any point is the whole array. -/
theorem wih_apply (t : Fin cfg0.N) (k : Fin 256) (j : Fin 1024) :
    (iblk0 V c 2 t : Vec Ideal S256x1024 .bf16) (ix2 k j)
      = (V c (Pipeline.arrRef spec0 2) : S256x1024.Idx → EReal) (ix2 k j) := by
  have hi := (index_facts t).2.2.1
  unfold iblk0
  rw [View.read_apply]
  show V c (Pipeline.arrRef spec0 2) _ = V c (Pipeline.arrRef spec0 2) _
  refine congrArg _ ?_
  funext a
  apply Fin.ext
  match a with
  | ⟨0, _⟩ => show win0_2.index t 0 * 256 + 1 * k.val = k.val; rw [hi.1]; omega
  | ⟨1, _⟩ => show win0_2.index t 1 * 1024 + 1 * j.val = j.val; rw [hi.2]; omega

/-- The W_hh window at any point is the whole array. -/
theorem whh_apply (t : Fin cfg0.N) (k : Fin 256) (j : Fin 1024) :
    (iblk0 V c 3 t : Vec Ideal S256x1024 .bf16) (ix2 k j)
      = (V c (Pipeline.arrRef spec0 3) : S256x1024.Idx → EReal) (ix2 k j) := by
  have hi := (index_facts t).2.2.2.1
  unfold iblk0
  rw [View.read_apply]
  show V c (Pipeline.arrRef spec0 3) _ = V c (Pipeline.arrRef spec0 3) _
  refine congrArg _ ?_
  funext a
  apply Fin.ext
  match a with
  | ⟨0, _⟩ => show win0_3.index t 0 * 256 + 1 * k.val = k.val; rw [hi.1]; omega
  | ⟨1, _⟩ => show win0_3.index t 1 * 1024 + 1 * j.val = j.val; rw [hi.2]; omega

end Cert.KernelIdeal.Region0

end
-- ==== Proof.Region0.lean ====
/-
  The statistics pass: what its four result arrays hold after the run.

  The pass walks the 32 tiles of 1024 rows, t = 16·q + i for the half q and the tile i of the half.  On the first tile
  of a half each [8, 1024] accumulator is zeroed; on every tile it receives, on each of its eight rows, the tile's
  column sums of x·W_ih, of (x·W_ih)², of h·W_hh, of (h·W_hh)².  The accumulator is written back to rows 8·q … 8·q + 7
  of its [16, 1024] result array after the last tile of the half only.  So row 8·q + u of a result array holds, at
  column j, ((0 + s₀) + s₁) + … + s₁₅ of the sixteen tiles' column sums, which over the extended reals is the sum over
  the 16·1024 rows of half q: the half's sum of the specification.

  A quantity reset at the multiples of 16 and stepped from the point before elsewhere is the fold of the run of
  sixteen points it lies in, and a fold of "add this point's addend" onto zero is the sum of the addends; what each
  point leaves is read off the body's stores; the array is read where the two write-backs cover it.
-/
import proofs.«101494_j46059229282552_2_alg».proof.Proof.Spec
import proofs.«101494_j46059229282552_2_alg».proof.Proof.Region0.Pieces
import proofs.«101494_j46059229282552_2_alg».proof.Proof.Region0.Payload
import proofs.«101494_j46059229282552_2_alg».proof.Proof.Region0.Blocks

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.LstmBn

/-! ## Sums over a tile and over a half -/

/-- The sum, over the rows of tile n, of column j of a quantity indexed by row and column: one point's addend. -/
def tileSumOf (G : Fin 32768 → Fin 1024 → EReal) (n : ℕ) (j : Fin 1024) : EReal := ∑ p : Fin 1024, G (rowOf n p) j

/-- Row p of tile 16·q + i is row p of tile i of half q. -/
theorem rowOf_tile (q : Fin 2) (i : Fin 16) (p : Fin 1024) : rowOf (16 * q.val + i.val) p = tileRow q i p := by
  apply Fin.ext
  show ((16 * q.val + i.val) * 1024 + p.val) % 32768 = (q.val * 16 + i.val) * 1024 + p.val
  have := q.isLt; have := i.isLt; have := p.isLt
  rw [Nat.mod_eq_of_lt (by omega)]; omega

/-- The sixteen tiles' sums of a half add up to the half's sum. -/
theorem sum_tiles (G : Fin 32768 → Fin 1024 → EReal) (q : Fin 2) (j : Fin 1024) :
    ∑ s : Fin 16, tileSumOf G (16 * q.val + s.val) j = halfSum G q j := by
  unfold tileSumOf halfSum
  exact Finset.sum_congr rfl fun s _ => Finset.sum_congr rfl fun p _ => by rw [rowOf_tile]

/-! ## The fold over the points of a half -/

/-- An accumulator that the first point of every run of sixteen sets to the update of a zero block, that every other
    point updates from what the point before left, and whose update adds the point's addend M n j to every row of
    column j, holds after the last point of a run the sum of the run's sixteen addends. -/
theorem fold_last (f : (n : ℕ) → n < cfg0.N → S8x1024.Idx → EReal)
    (upd : (n : ℕ) → n < cfg0.N → (S8x1024.Idx → EReal) → S8x1024.Idx → EReal) (Z0 : S8x1024.Idx → EReal)
    (M : ℕ → Fin 1024 → EReal)
    (hfirst : ∀ (n : ℕ) (h : n < cfg0.N), n % 16 = 0 → f n h = upd n h Z0)
    (hlater : ∀ (n : ℕ) (h : n + 1 < cfg0.N), ¬(n + 1) % 16 = 0 → f (n + 1) h = upd (n + 1) h (f n (Nat.lt_of_succ_lt h)))
    (hupd : ∀ (n : ℕ) (h : n < cfg0.N) (acc : S8x1024.Idx → EReal) (u : Fin 8) (j : Fin 1024),
      upd n h acc (ix2 u j) = acc (ix2 u j) + M n j)
    (hZ : ∀ (u : Fin 8) (j : Fin 1024), Z0 (ix2 u j) = 0)
    (t : ℕ) (ht : t < cfg0.N) (hlast : t % 16 = 15) (u : Fin 8) (j : Fin 1024) :
    f t ht (ix2 u j) = ∑ s : Fin 16, M (16 * (t / 16) + s.val) j := by
  have h' : 16 * (t / 16) + t % 16 < cfg0.N := by rw [Nat.div_add_mod]; exact ht
  have e := Pipeline.eq_accAt_of_mod f 16 (fun n h => upd n h Z0) upd hfirst hlater (by decide) t ht h'
  have s := Pipeline.accAt_add_apply (fun n h => upd n h Z0) upd (fun _ => (0 : EReal)) (fun n i => M n (i 1))
    (16 * (t / 16)) 15
    (fun h i => by
      obtain ⟨u, j, rfl⟩ : ∃ (u : Fin 8) (j : Fin 1024), i = ix2 u j := ⟨i 0, i 1, eq_ix2 i⟩
      show upd _ h Z0 (ix2 u j) = 0 + M _ j
      rw [hupd, hZ])
    (fun n h acc i _ _ => by
      obtain ⟨u, j, rfl⟩ : ∃ (u : Fin 8) (j : Fin 1024), i = ix2 u j := ⟨i 0, i 1, eq_ix2 i⟩
      exact hupd n h acc u j)
    (t % 16) (by omega) h' (ix2 u j)
  rw [e, s]
  show (0 : EReal) + ∑ x ∈ Finset.range (t % 16 + 1), M (16 * (t / 16) + x) j = _
  rw [zero_add, hlast, Finset.sum_range]

/-! ## The result arrays' layout: eight equal rows per half -/

/-- The half a row of a [16, 1024] result array belongs to: rows 0 … 7 the first, 8 … 15 the second. -/
def halfOf (i : S16x1024.Idx) : Fin 2 := ⟨(i 0).val / 8, by have := idx2_lt0 i; omega⟩

/-- The [16, 1024] array that holds, on each of the eight rows of half q, the half's sums of G. -/
def halves (G : Fin 32768 → Fin 1024 → EReal) : S16x1024.Idx → EReal := fun i => halfSum G (halfOf i) (i 1)

theorem halves_apply (G : Fin 32768 → Fin 1024 → EReal) (q : Fin 2) (u : Fin 8) (j : Fin 1024) (hr : q.val * 8 + u.val < 16) :
    halves G (ix2 ⟨q.val * 8 + u.val, hr⟩ j) = halfSum G q j := by
  unfold halves
  show halfSum G (halfOf (ix2 ⟨q.val * 8 + u.val, hr⟩ j)) j = _
  refine congrArg (fun q' => halfSum G q' j) (Fin.ext ?_)
  show (q.val * 8 + u.val) / 8 = q.val
  have := u.isLt; omega

variable (V : (c : Dev nD) → (b : Ref sig .tc) → Buf (Elt Ideal) ((c : Thread nD τ).loc b)) (c : Dev nD)

/-! ## The arrays the pass reads, as the region finds them -/

/-- x, [32768, 256]. -/
abbrev argX : S32768x256.Idx → EReal := V c (Pipeline.arrRef spec0 0)
/-- h, [32768, 256]. -/
abbrev argH : S32768x256.Idx → EReal := V c (Pipeline.arrRef spec0 1)
/-- The transposed W_ih, [256, 1024]. -/
abbrev argWih : S256x1024.Idx → EReal := V c (Pipeline.arrRef spec0 2)
/-- The transposed W_hh, [256, 1024]. -/
abbrev argWhh : S256x1024.Idx → EReal := V c (Pipeline.arrRef spec0 3)

/-- The projection x·W_ih, every row. -/
abbrev projIh : Fin 32768 → Fin 1024 → EReal := projK (curry2 (argX V c)) (curry2 (argWih V c))
/-- The projection h·W_hh, every row. -/
abbrev projHh : Fin 32768 → Fin 1024 → EReal := projK (curry2 (argH V c)) (curry2 (argWhh V c))

/-- The product the body forms at point n from its x tile and W_ih is, at (p, j), the projection at row p of tile n. -/
theorem tileDot_ih (n : ℕ) (h : n < cfg0.N) (p j : Fin 1024) :
    tileDot (iblk0 V c 0 ⟨n, h⟩) (iblk0 V c 2 ⟨n, h⟩) p j = projIh V c (rowOf n p) j := by
  unfold tileDot
  show _ = ∑ k : Fin 256, argX V c (ix2 (rowOf n p) k) * argWih V c (ix2 k j)
  exact Finset.sum_congr rfl fun k _ => by rw [xtile_apply V c ⟨n, h⟩ p k, wih_apply V c ⟨n, h⟩ k j]

/-- Likewise from its h tile and W_hh. -/
theorem tileDot_hh (n : ℕ) (h : n < cfg0.N) (p j : Fin 1024) :
    tileDot (iblk0 V c 1 ⟨n, h⟩) (iblk0 V c 3 ⟨n, h⟩) p j = projHh V c (rowOf n p) j := by
  unfold tileDot
  show _ = ∑ k : Fin 256, argH V c (ix2 (rowOf n p) k) * argWhh V c (ix2 k j)
  exact Finset.sum_congr rfl fun k _ => by rw [htile_apply V c ⟨n, h⟩ p k, whh_apply V c ⟨n, h⟩ k j]

/-! ## What each point leaves in the four accumulators -/

/-- Point n's update of the accumulator of the sum of x·W_ih. -/
def updSumIh (n : ℕ) (h : n < cfg0.N) (acc : S8x1024.Idx → EReal) : S8x1024.Idx → EReal :=
  k0_pay11 (F := Ideal) (iblk0 V c 0 ⟨n, h⟩) (iblk0 V c 2 ⟨n, h⟩) acc
/-- Point n's update of the accumulator of the sum of (x·W_ih)². -/
def updSqIh (n : ℕ) (h : n < cfg0.N) (acc : S8x1024.Idx → EReal) : S8x1024.Idx → EReal :=
  k0_pay12 (F := Ideal) (iblk0 V c 0 ⟨n, h⟩) (iblk0 V c 2 ⟨n, h⟩) acc
/-- Point n's update of the accumulator of the sum of h·W_hh. -/
def updSumHh (n : ℕ) (h : n < cfg0.N) (acc : S8x1024.Idx → EReal) : S8x1024.Idx → EReal :=
  k0_pay1 (F := Ideal) (k0_pay9 (iblk0 V c 1 ⟨n, h⟩) (iblk0 V c 3 ⟨n, h⟩)) acc
/-- Point n's update of the accumulator of the sum of (h·W_hh)². -/
def updSqHh (n : ℕ) (h : n < cfg0.N) (acc : S8x1024.Idx → EReal) : S8x1024.Idx → EReal :=
  k0_pay2 (F := Ideal) (k0_pay10 (iblk0 V c 1 ⟨n, h⟩) (iblk0 V c 3 ⟨n, h⟩)) acc

/-- The first tile of a half leaves the four updates of the zero blocks. -/
theorem outs_first (n : ℕ) (h : n < cfg0.N) (h0 : n % 16 = 0) :
    outsAt0 V c n h = (updSumIh V c n h (k0_pay3 (F := Ideal)), updSqIh V c n h (k0_pay4 (F := Ideal)),
      updSumHh V c n h (k0_pay5 (F := Ideal)), updSqHh V c n h (k0_pay6 (F := Ideal))) := by
  refine (outsAt0_A V c ⟨n, h⟩ h0).trans ?_
  rw [first_sum_ih, first_sumsq_ih, first_sum_hh, first_sumsq_hh]
  rfl

/-- A later tile leaves the four updates of what the tile before left. -/
theorem outs_later (n : ℕ) (h : n + 1 < cfg0.N) (hB : ¬(n + 1) % 16 = 0) :
    outsAt0 V c (n + 1) h = (updSumIh V c (n + 1) h (outsAt0 V c n (Nat.lt_of_succ_lt h)).1,
      updSqIh V c (n + 1) h (outsAt0 V c n (Nat.lt_of_succ_lt h)).2.1,
      updSumHh V c (n + 1) h (outsAt0 V c n (Nat.lt_of_succ_lt h)).2.2.1,
      updSqHh V c (n + 1) h (outsAt0 V c n (Nat.lt_of_succ_lt h)).2.2.2) := by
  refine (outsAt0_B V c ⟨n + 1, h⟩ hB).trans ?_
  rw [later_sum_ih, later_sumsq_ih, later_sum_hh, later_sumsq_hh]
  rfl

/-! ## The accumulators after the last tile of a half -/

/-- The sum of x·W_ih. -/
theorem acc_sum_ih (t : Fin cfg0.N) (hlast : t.val % 16 = 15) (u : Fin 8) (j : Fin 1024) :
    (outsAt0 V c t.val t.isLt).1 (ix2 u j) = ∑ s : Fin 16, tileSumOf (projIh V c) (16 * (t.val / 16) + s.val) j :=
  fold_last (fun n h => (outsAt0 V c n h).1) (updSumIh V c) (k0_pay3 (F := Ideal)) (tileSumOf (projIh V c))
    (fun n h h0 => congrArg Prod.fst (outs_first V c n h h0))
    (fun n h hB => congrArg Prod.fst (outs_later V c n h hB))
    (fun n h acc u j => (sum_ih_apply _ _ acc u j).trans
      (congrArg (acc (ix2 u j) + ·) (Finset.sum_congr rfl fun p _ => tileDot_ih V c n h p j)))
    zero4_apply t.val t.isLt hlast u j

/-! ## The write-backs and the result arrays -/

/-- An index of a result array lies in point t's block iff each coordinate lies in the block's range on its axis. -/
theorem mem_blk4 (t : Fin cfg0.N) (i : S16x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v11_0).slice (win0_4.rect t)).set ↔ _
  rw [View.set_slice_whole, Rect.mem_set_unit]
  exact Iff.rfl

/-- Every row of the sum-of-x·W_ih array is written back by the last point of its half. -/
theorem cover4 (i : S16x1024.Idx) : ∃ t : Fin cfg0.N, (cfg0.win 4).flush t = true ∧ i ∈ ((cfg0.win 4).blk t).view.set := by
  have hi0 : (i 0).val < 16 := idx2_lt0 i
  have hi1 : (i 1).val < 1024 := idx2_lt1 i
  have hN : cfg0.N = 32 := N_0
  obtain ⟨t, ht⟩ : ∃ t : Fin cfg0.N, t.val = 16 * ((i 0).val / 8) + 15 := ⟨⟨16 * ((i 0).val / 8) + 15, by rw [hN]; omega⟩, rfl⟩
  have hi := (index_facts t).2.2.2.2.1
  refine ⟨t, (flush0_4 t).mpr (by omega), ?_⟩
  rw [mem_blk4]
  intro a
  match a with
  | ⟨0, _⟩ => show win0_4.index t 0 * 8 ≤ (i 0).val ∧ (i 0).val < win0_4.index t 0 * 8 + 8; rw [hi.1]; omega
  | ⟨1, _⟩ => show win0_4.index t 1 * 1024 ≤ (i 1).val ∧ (i 1).val < win0_4.index t 1 * 1024 + 1024; rw [hi.2]; omega

/-- What the last point of half q writes back is rows 8·q … 8·q + 7 of the array of the halves' sums of x·W_ih. -/
theorem flushed_sum_ih (t : Fin cfg0.N) (hf : (cfg0.win 4).flush t = true) :
    (dat0 V c).flushed 4 t = ((cfg0.win 4).blk t).view.read (Elt Ideal) (halves (projIh V c)) := by
  have hlast : t.val % 16 = 15 := (flush0_4 t).mp hf
  have hN : t.val < 32 := lt_of_lt_of_eq t.isLt N_0
  have hi := (index_facts t).2.2.2.2.1
  have hq : t.val / 16 < 2 := by omega
  show (cfg0.win 4).cut (grid0.coords t) ((dat0 V c).after 4 t) = _
  rw [after0_4]
  funext y
  obtain ⟨u, j, rfl⟩ : ∃ (u : Fin 8) (j : Fin 1024), y = ix2 u j := ⟨y 0, y 1, eq_ix2 y⟩
  show (outsAt0 V c t.val t.isLt).1 (ix2 u j) = halves (projIh V c) (((cfg0.win 4).blk t).view.emb (ix2 u j))
  have hemb : ((cfg0.win 4).blk t).view.emb (ix2 u j)
      = (ix2 (⟨(⟨t.val / 16, hq⟩ : Fin 2).val * 8 + u.val, by have := u.isLt; show t.val / 16 * 8 + u.val < 16; omega⟩ : Fin 16) j : S16x1024.Idx) := by
    funext a
    apply Fin.ext
    match a with
    | ⟨0, _⟩ => show win0_4.index t 0 * 8 + 1 * u.val = t.val / 16 * 8 + u.val; rw [hi.1]; omega
    | ⟨1, _⟩ => show win0_4.index t 1 * 1024 + 1 * j.val = j.val; rw [hi.2]; omega
  rw [hemb, halves_apply, acc_sum_ih V c t hlast u j]
  exact sum_tiles (projIh V c) ⟨t.val / 16, hq⟩ j

/-- The sum-of-x·W_ih array after the run. -/
theorem final_sum_ih : (dat0 V c).arrAt 4 cfg0.N = halves (projIh V c) :=
  (dat0 V c).arrAt_eq_of_cover 4 (halves (projIh V c)) (flushed_sum_ih V c) cover4

/-- Row 8·q + u of the first result array holds, at column j, the sum of column j of x·W_ih over the rows of half q. -/
theorem sum_ih (q : Fin 2) (u : Fin 8) (j : Fin 1024) (hr : q.val * 8 + u.val < 16) :
    (dat0 (F := Ideal) V c).arrAt 4 cfg0.N (ix2 (⟨q.val * 8 + u.val, hr⟩ : Fin 16) j)
      = halfSum (projK (curry2 (argX V c)) (curry2 (argWih V c))) q j :=
  (congrFun (final_sum_ih V c) _).trans (halves_apply (projIh V c) q u j hr)

/-! ### The other three accumulators -/

/-- The sum of (x·W_ih)². -/
theorem acc_sumsq_ih (t : Fin cfg0.N) (hlast : t.val % 16 = 15) (u : Fin 8) (j : Fin 1024) :
    (outsAt0 V c t.val t.isLt).2.1 (ix2 u j)
      = ∑ s : Fin 16, tileSumOf (fun r j => projIh V c r j * projIh V c r j) (16 * (t.val / 16) + s.val) j :=
  fold_last (fun n h => (outsAt0 V c n h).2.1) (updSqIh V c) (k0_pay4 (F := Ideal))
    (tileSumOf (fun r j => projIh V c r j * projIh V c r j))
    (fun n h h0 => congrArg (fun z => z.2.1) (outs_first V c n h h0))
    (fun n h hB => congrArg (fun z => z.2.1) (outs_later V c n h hB))
    (fun n h acc u j => (sumsq_ih_apply _ _ acc u j).trans
      (congrArg (acc (ix2 u j) + ·) (Finset.sum_congr rfl fun p _ => by rw [tileDot_ih V c n h p j])))
    zero5_apply t.val t.isLt hlast u j

/-- The sum of h·W_hh. -/
theorem acc_sum_hh (t : Fin cfg0.N) (hlast : t.val % 16 = 15) (u : Fin 8) (j : Fin 1024) :
    (outsAt0 V c t.val t.isLt).2.2.1 (ix2 u j) = ∑ s : Fin 16, tileSumOf (projHh V c) (16 * (t.val / 16) + s.val) j :=
  fold_last (fun n h => (outsAt0 V c n h).2.2.1) (updSumHh V c) (k0_pay5 (F := Ideal)) (tileSumOf (projHh V c))
    (fun n h h0 => congrArg (fun z => z.2.2.1) (outs_first V c n h h0))
    (fun n h hB => congrArg (fun z => z.2.2.1) (outs_later V c n h hB))
    (fun n h acc u j => (sum_hh_apply _ _ acc u j).trans
      (congrArg (acc (ix2 u j) + ·) (Finset.sum_congr rfl fun p _ => tileDot_hh V c n h p j)))
    zero6_apply t.val t.isLt hlast u j

/-- The sum of (h·W_hh)². -/
theorem acc_sumsq_hh (t : Fin cfg0.N) (hlast : t.val % 16 = 15) (u : Fin 8) (j : Fin 1024) :
    (outsAt0 V c t.val t.isLt).2.2.2 (ix2 u j)
      = ∑ s : Fin 16, tileSumOf (fun r j => projHh V c r j * projHh V c r j) (16 * (t.val / 16) + s.val) j :=
  fold_last (fun n h => (outsAt0 V c n h).2.2.2) (updSqHh V c) (k0_pay6 (F := Ideal))
    (tileSumOf (fun r j => projHh V c r j * projHh V c r j))
    (fun n h h0 => congrArg (fun z => z.2.2.2) (outs_first V c n h h0))
    (fun n h hB => congrArg (fun z => z.2.2.2) (outs_later V c n h hB))
    (fun n h acc u j => (sumsq_hh_apply _ _ acc u j).trans
      (congrArg (acc (ix2 u j) + ·) (Finset.sum_congr rfl fun p _ => by rw [tileDot_hh V c n h p j])))
    zero7_apply t.val t.isLt hlast u j

/-! ### Their write-backs: the same blocks of the other three result arrays -/

theorem mem_blk5 (t : Fin cfg0.N) (i : S16x1024.Idx) :
    i ∈ ((cfg0.win 5).blk t).view.set ↔ ∀ a : Fin 2, win0_5.index t a * S8x1024.size a ≤ (i a).val ∧ (i a).val < win0_5.index t a * S8x1024.size a + S8x1024.size a := by
  show i ∈ ((View.whole main_v11_1).slice (win0_5.rect t)).set ↔ _
  rw [View.set_slice_whole, Rect.mem_set_unit]
  exact Iff.rfl

theorem mem_blk6 (t : Fin cfg0.N) (i : S16x1024.Idx) :
    i ∈ ((cfg0.win 6).blk t).view.set ↔ ∀ a : Fin 2, win0_6.index t a * S8x1024.size a ≤ (i a).val ∧ (i a).val < win0_6.index t a * S8x1024.size a + S8x1024.size a := by
  show i ∈ ((View.whole main_v11_2).slice (win0_6.rect t)).set ↔ _
  rw [View.set_slice_whole, Rect.mem_set_unit]
  exact Iff.rfl

theorem mem_blk7 (t : Fin cfg0.N) (i : S16x1024.Idx) :
    i ∈ ((cfg0.win 7).blk t).view.set ↔ ∀ a : Fin 2, win0_7.index t a * S8x1024.size a ≤ (i a).val ∧ (i a).val < win0_7.index t a * S8x1024.size a + S8x1024.size a := by
  show i ∈ ((View.whole main_v11_3).slice (win0_7.rect t)).set ↔ _
  rw [View.set_slice_whole, Rect.mem_set_unit]
  exact Iff.rfl

theorem cover5 (i : S16x1024.Idx) : ∃ t : Fin cfg0.N, (cfg0.win 5).flush t = true ∧ i ∈ ((cfg0.win 5).blk t).view.set := by
  have hi0 : (i 0).val < 16 := idx2_lt0 i
  have hi1 : (i 1).val < 1024 := idx2_lt1 i
  have hN : cfg0.N = 32 := N_0
  obtain ⟨t, ht⟩ : ∃ t : Fin cfg0.N, t.val = 16 * ((i 0).val / 8) + 15 := ⟨⟨16 * ((i 0).val / 8) + 15, by rw [hN]; omega⟩, rfl⟩
  have hi := (index_facts t).2.2.2.2.2.1
  refine ⟨t, (flush0_5 t).mpr (by omega), ?_⟩
  rw [mem_blk5]
  intro a
  match a with
  | ⟨0, _⟩ => show win0_5.index t 0 * 8 ≤ (i 0).val ∧ (i 0).val < win0_5.index t 0 * 8 + 8; rw [hi.1]; omega
  | ⟨1, _⟩ => show win0_5.index t 1 * 1024 ≤ (i 1).val ∧ (i 1).val < win0_5.index t 1 * 1024 + 1024; rw [hi.2]; omega

theorem cover6 (i : S16x1024.Idx) : ∃ t : Fin cfg0.N, (cfg0.win 6).flush t = true ∧ i ∈ ((cfg0.win 6).blk t).view.set := by
  have hi0 : (i 0).val < 16 := idx2_lt0 i
  have hi1 : (i 1).val < 1024 := idx2_lt1 i
  have hN : cfg0.N = 32 := N_0
  obtain ⟨t, ht⟩ : ∃ t : Fin cfg0.N, t.val = 16 * ((i 0).val / 8) + 15 := ⟨⟨16 * ((i 0).val / 8) + 15, by rw [hN]; omega⟩, rfl⟩
  have hi := (index_facts t).2.2.2.2.2.2.1
  refine ⟨t, (flush0_6 t).mpr (by omega), ?_⟩
  rw [mem_blk6]
  intro a
  match a with
  | ⟨0, _⟩ => show win0_6.index t 0 * 8 ≤ (i 0).val ∧ (i 0).val < win0_6.index t 0 * 8 + 8; rw [hi.1]; omega
  | ⟨1, _⟩ => show win0_6.index t 1 * 1024 ≤ (i 1).val ∧ (i 1).val < win0_6.index t 1 * 1024 + 1024; rw [hi.2]; omega

theorem cover7 (i : S16x1024.Idx) : ∃ t : Fin cfg0.N, (cfg0.win 7).flush t = true ∧ i ∈ ((cfg0.win 7).blk t).view.set := by
  have hi0 : (i 0).val < 16 := idx2_lt0 i
  have hi1 : (i 1).val < 1024 := idx2_lt1 i
  have hN : cfg0.N = 32 := N_0
  obtain ⟨t, ht⟩ : ∃ t : Fin cfg0.N, t.val = 16 * ((i 0).val / 8) + 15 := ⟨⟨16 * ((i 0).val / 8) + 15, by rw [hN]; omega⟩, rfl⟩
  have hi := (index_facts t).2.2.2.2.2.2.2
  refine ⟨t, (flush0_7 t).mpr (by omega), ?_⟩
  rw [mem_blk7]
  intro a
  match a with
  | ⟨0, _⟩ => show win0_7.index t 0 * 8 ≤ (i 0).val ∧ (i 0).val < win0_7.index t 0 * 8 + 8; rw [hi.1]; omega
  | ⟨1, _⟩ => show win0_7.index t 1 * 1024 ≤ (i 1).val ∧ (i 1).val < win0_7.index t 1 * 1024 + 1024; rw [hi.2]; omega

theorem flushed_sumsq_ih (t : Fin cfg0.N) (hf : (cfg0.win 5).flush t = true) :
    (dat0 V c).flushed 5 t
      = ((cfg0.win 5).blk t).view.read (Elt Ideal) (halves (fun r j => projIh V c r j * projIh V c r j)) := by
  have hlast : t.val % 16 = 15 := (flush0_5 t).mp hf
  have hN : t.val < 32 := lt_of_lt_of_eq t.isLt N_0
  have hi := (index_facts t).2.2.2.2.2.1
  have hq : t.val / 16 < 2 := by omega
  show (cfg0.win 5).cut (grid0.coords t) ((dat0 V c).after 5 t) = _
  rw [after0_5]
  funext y
  obtain ⟨u, j, rfl⟩ : ∃ (u : Fin 8) (j : Fin 1024), y = ix2 u j := ⟨y 0, y 1, eq_ix2 y⟩
  show (outsAt0 V c t.val t.isLt).2.1 (ix2 u j)
    = halves (fun r j => projIh V c r j * projIh V c r j) (((cfg0.win 5).blk t).view.emb (ix2 u j))
  have hemb : ((cfg0.win 5).blk t).view.emb (ix2 u j)
      = (ix2 (⟨(⟨t.val / 16, hq⟩ : Fin 2).val * 8 + u.val, by have := u.isLt; show t.val / 16 * 8 + u.val < 16; omega⟩ : Fin 16) j : S16x1024.Idx) := by
    funext a
    apply Fin.ext
    match a with
    | ⟨0, _⟩ => show win0_5.index t 0 * 8 + 1 * u.val = t.val / 16 * 8 + u.val; rw [hi.1]; omega
    | ⟨1, _⟩ => show win0_5.index t 1 * 1024 + 1 * j.val = j.val; rw [hi.2]; omega
  rw [hemb, halves_apply, acc_sumsq_ih V c t hlast u j]
  exact sum_tiles (fun r j => projIh V c r j * projIh V c r j) ⟨t.val / 16, hq⟩ j

theorem flushed_sum_hh (t : Fin cfg0.N) (hf : (cfg0.win 6).flush t = true) :
    (dat0 V c).flushed 6 t = ((cfg0.win 6).blk t).view.read (Elt Ideal) (halves (projHh V c)) := by
  have hlast : t.val % 16 = 15 := (flush0_6 t).mp hf
  have hN : t.val < 32 := lt_of_lt_of_eq t.isLt N_0
  have hi := (index_facts t).2.2.2.2.2.2.1
  have hq : t.val / 16 < 2 := by omega
  show (cfg0.win 6).cut (grid0.coords t) ((dat0 V c).after 6 t) = _
  rw [after0_6]
  funext y
  obtain ⟨u, j, rfl⟩ : ∃ (u : Fin 8) (j : Fin 1024), y = ix2 u j := ⟨y 0, y 1, eq_ix2 y⟩
  show (outsAt0 V c t.val t.isLt).2.2.1 (ix2 u j) = halves (projHh V c) (((cfg0.win 6).blk t).view.emb (ix2 u j))
  have hemb : ((cfg0.win 6).blk t).view.emb (ix2 u j)
      = (ix2 (⟨(⟨t.val / 16, hq⟩ : Fin 2).val * 8 + u.val, by have := u.isLt; show t.val / 16 * 8 + u.val < 16; omega⟩ : Fin 16) j : S16x1024.Idx) := by
    funext a
    apply Fin.ext
    match a with
    | ⟨0, _⟩ => show win0_6.index t 0 * 8 + 1 * u.val = t.val / 16 * 8 + u.val; rw [hi.1]; omega
    | ⟨1, _⟩ => show win0_6.index t 1 * 1024 + 1 * j.val = j.val; rw [hi.2]; omega
  rw [hemb, halves_apply, acc_sum_hh V c t hlast u j]
  exact sum_tiles (projHh V c) ⟨t.val / 16, hq⟩ j

theorem flushed_sumsq_hh (t : Fin cfg0.N) (hf : (cfg0.win 7).flush t = true) :
    (dat0 V c).flushed 7 t
      = ((cfg0.win 7).blk t).view.read (Elt Ideal) (halves (fun r j => projHh V c r j * projHh V c r j)) := by
  have hlast : t.val % 16 = 15 := (flush0_7 t).mp hf
  have hN : t.val < 32 := lt_of_lt_of_eq t.isLt N_0
  have hi := (index_facts t).2.2.2.2.2.2.2
  have hq : t.val / 16 < 2 := by omega
  show (cfg0.win 7).cut (grid0.coords t) ((dat0 V c).after 7 t) = _
  rw [after0_7]
  funext y
  obtain ⟨u, j, rfl⟩ : ∃ (u : Fin 8) (j : Fin 1024), y = ix2 u j := ⟨y 0, y 1, eq_ix2 y⟩
  show (outsAt0 V c t.val t.isLt).2.2.2 (ix2 u j)
    = halves (fun r j => projHh V c r j * projHh V c r j) (((cfg0.win 7).blk t).view.emb (ix2 u j))
  have hemb : ((cfg0.win 7).blk t).view.emb (ix2 u j)
      = (ix2 (⟨(⟨t.val / 16, hq⟩ : Fin 2).val * 8 + u.val, by have := u.isLt; show t.val / 16 * 8 + u.val < 16; omega⟩ : Fin 16) j : S16x1024.Idx) := by
    funext a
    apply Fin.ext
    match a with
    | ⟨0, _⟩ => show win0_7.index t 0 * 8 + 1 * u.val = t.val / 16 * 8 + u.val; rw [hi.1]; omega
    | ⟨1, _⟩ => show win0_7.index t 1 * 1024 + 1 * j.val = j.val; rw [hi.2]; omega
  rw [hemb, halves_apply, acc_sumsq_hh V c t hlast u j]
  exact sum_tiles (fun r j => projHh V c r j * projHh V c r j) ⟨t.val / 16, hq⟩ j

/-- The sum-of-(x·W_ih)² array after the run. -/
theorem final_sumsq_ih : (dat0 V c).arrAt 5 cfg0.N = halves (fun r j => projIh V c r j * projIh V c r j) :=
  (dat0 V c).arrAt_eq_of_cover 5 (halves (fun r j => projIh V c r j * projIh V c r j)) (flushed_sumsq_ih V c) cover5

/-- The sum-of-h·W_hh array after the run. -/
theorem final_sum_hh : (dat0 V c).arrAt 6 cfg0.N = halves (projHh V c) :=
  (dat0 V c).arrAt_eq_of_cover 6 (halves (projHh V c)) (flushed_sum_hh V c) cover6

/-- The sum-of-(h·W_hh)² array after the run. -/
theorem final_sumsq_hh : (dat0 V c).arrAt 7 cfg0.N = halves (fun r j => projHh V c r j * projHh V c r j) :=
  (dat0 V c).arrAt_eq_of_cover 7 (halves (fun r j => projHh V c r j * projHh V c r j)) (flushed_sumsq_hh V c) cover7

/-- Row 8·q + u of the second result array: the sum of column j of (x·W_ih)² over the rows of half q. -/
theorem sumsq_ih (q : Fin 2) (u : Fin 8) (j : Fin 1024) (hr : q.val * 8 + u.val < 16) :
    (dat0 (F := Ideal) V c).arrAt 5 cfg0.N (ix2 (⟨q.val * 8 + u.val, hr⟩ : Fin 16) j)
      = halfSum (fun r j => projK (curry2 (argX V c)) (curry2 (argWih V c)) r j
          * projK (curry2 (argX V c)) (curry2 (argWih V c)) r j) q j :=
  (congrFun (final_sumsq_ih V c) _).trans (halves_apply (fun r j => projIh V c r j * projIh V c r j) q u j hr)

/-- Row 8·q + u of the third result array: the sum of column j of h·W_hh over the rows of half q. -/
theorem sum_hh (q : Fin 2) (u : Fin 8) (j : Fin 1024) (hr : q.val * 8 + u.val < 16) :
    (dat0 (F := Ideal) V c).arrAt 6 cfg0.N (ix2 (⟨q.val * 8 + u.val, hr⟩ : Fin 16) j)
      = halfSum (projK (curry2 (argH V c)) (curry2 (argWhh V c))) q j :=
  (congrFun (final_sum_hh V c) _).trans (halves_apply (projHh V c) q u j hr)

/-- Row 8·q + u of the fourth result array: the sum of column j of (h·W_hh)² over the rows of half q. -/
theorem sumsq_hh (q : Fin 2) (u : Fin 8) (j : Fin 1024) (hr : q.val * 8 + u.val < 16) :
    (dat0 (F := Ideal) V c).arrAt 7 cfg0.N (ix2 (⟨q.val * 8 + u.val, hr⟩ : Fin 16) j)
      = halfSum (fun r j => projK (curry2 (argH V c)) (curry2 (argWhh V c)) r j
          * projK (curry2 (argH V c)) (curry2 (argWhh V c)) r j) q j :=
  (congrFun (final_sumsq_hh V c) _).trans (halves_apply (fun r j => projHh V c r j * projHh V c r j) q u j hr)

end Cert.KernelIdeal.Region0

end
-- ==== Proof.KValue1.lean ====
/-
  The tiled programme's value, first half: from the launch to the gate pre-activations of the second pass.

  The first pass leaves, on rows 0 and 8 of its four statistics arrays, the two halves' column sums of x·W_ihᵀ, of its
  square, of h·W_hhᵀ and of its square (the weights reach the pass transposed, so its products with the transposed
  copies are the products with the rows of the weights).  The host stretch after it turns them into the tiled batch
  normalisation's scale and shift of each projection.  The second pass therefore forms, row by row, exactly the
  specification's tiled gate pre-activations.
-/
import proofs.«101494_j46059229282552_2_alg».proof.Proof.Gen.KernelIdeal.Frame
import proofs.«101494_j46059229282552_2_alg».proof.Proof.Spec
import proofs.«101494_j46059229282552_2_alg».proof.Proof.Glue
import proofs.«101494_j46059229282552_2_alg».proof.Proof.Chain
import proofs.«101494_j46059229282552_2_alg».proof.Proof.Stats
import proofs.«101494_j46059229282552_2_alg».proof.Proof.Region0

set_option maxRecDepth 16384

noncomputable section

namespace Cert.KernelIdeal.KValue

open Cert.KernelIdeal Cert.KernelIdeal.Gen Cert.LstmBn
open Idealize.ShloMosaic Idealize.ShloMosaic.TcCoe Idealize.ShloMosaic.ValueIdx

variable (m : (ℓ : Loc nD τ sig) → Buf (Elt Ideal) ℓ) (ρ : Dev nD → PrngReg) (c : Dev nD)

/-! ## The arguments as the specification takes them -/

abbrev aX : Fin 32768 → Fin 256 → EReal := curry2 (m ((c : Thread nD τ).loc main_arg0))
abbrev aC : Fin 32768 → Fin 256 → EReal := curry2 (m ((c : Thread nD τ).loc main_arg1))
abbrev aH : Fin 32768 → Fin 256 → EReal := curry2 (m ((c : Thread nD τ).loc main_arg2))
abbrev aWih : Fin 1024 → Fin 256 → EReal := curry2 (m ((c : Thread nD τ).loc main_arg3))
abbrev aWhh : Fin 1024 → Fin 256 → EReal := curry2 (m ((c : Thread nD τ).loc main_arg4))
abbrev aB : Fin 1024 → EReal := vec1 (m ((c : Thread nD τ).loc main_arg5))
abbrev aGih : Fin 1024 → EReal := vec1 (m ((c : Thread nD τ).loc main_arg6))
abbrev aBih : Fin 1024 → EReal := vec1 (m ((c : Thread nD τ).loc main_arg7))
abbrev aGhh : Fin 1024 → EReal := vec1 (m ((c : Thread nD τ).loc main_arg8))
abbrev aBhh : Fin 1024 → EReal := vec1 (m ((c : Thread nD τ).loc main_arg9))
abbrev aGc : Fin 256 → EReal := vec1 (m ((c : Thread nD τ).loc main_arg10))
abbrev aBc : Fin 256 → EReal := vec1 (m ((c : Thread nD τ).loc main_arg11))

/-- x·W_ihᵀ. -/
abbrev IH : Fin 32768 → Fin 1024 → EReal := proj (aX m c) (aWih m c)
/-- h·W_hhᵀ. -/
abbrev HH : Fin 32768 → Fin 1024 → EReal := proj (aH m c) (aWhh m c)

/-! ## The first pass's products are the projections -/

theorem projIh_V1 : projK (curry2 (Region0.argX (V1 m ρ) c)) (curry2 (Region0.argWih (V1 m ρ) c)) = IH m c := by
  funext r j
  refine Finset.sum_congr rfl fun k _ => ?_
  show @HMul.hMul EReal EReal EReal _ (V1 m ρ c main_arg0 (ix2 r k)) (V1 m ρ c main_v1 (ix2 k j)) = _
  rw [Chain.arg0_V1 m ρ c, Chain.v1_V1 m ρ c k j]
  rfl

theorem projHh_V1 : projK (curry2 (Region0.argH (V1 m ρ) c)) (curry2 (Region0.argWhh (V1 m ρ) c)) = HH m c := by
  funext r j
  refine Finset.sum_congr rfl fun k _ => ?_
  show @HMul.hMul EReal EReal EReal _ (V1 m ρ c main_arg2 (ix2 r k)) (V1 m ρ c main_v3 (ix2 k j)) = _
  rw [Chain.arg2_V1 m ρ c, Chain.v3_V1 m ρ c k j]
  rfl

/-! ## Rows 0 and 8 of the four statistics arrays -/

theorem d4_row0 (j : Fin 1024) : (dat0 (F := Ideal) (V1 m ρ) c).arrAt 4 cfg0.N (ix2 (0 : Fin 16) j) = halfSum (IH m c) 0 j := by
  have h := Region0.sum_ih (V1 m ρ) c 0 0 j (by decide)
  rw [projIh_V1] at h; exact h
theorem d4_row8 (j : Fin 1024) : (dat0 (F := Ideal) (V1 m ρ) c).arrAt 4 cfg0.N (ix2 (8 : Fin 16) j) = halfSum (IH m c) 1 j := by
  have h := Region0.sum_ih (V1 m ρ) c 1 0 j (by decide)
  rw [projIh_V1] at h; exact h
theorem d5_row0 (j : Fin 1024) : (dat0 (F := Ideal) (V1 m ρ) c).arrAt 5 cfg0.N (ix2 (0 : Fin 16) j) = halfSum (fun r j => IH m c r j * IH m c r j) 0 j := by
  have h := Region0.sumsq_ih (V1 m ρ) c 0 0 j (by decide)
  rw [projIh_V1] at h; exact h
theorem d5_row8 (j : Fin 1024) : (dat0 (F := Ideal) (V1 m ρ) c).arrAt 5 cfg0.N (ix2 (8 : Fin 16) j) = halfSum (fun r j => IH m c r j * IH m c r j) 1 j := by
  have h := Region0.sumsq_ih (V1 m ρ) c 1 0 j (by decide)
  rw [projIh_V1] at h; exact h
theorem d6_row0 (j : Fin 1024) : (dat0 (F := Ideal) (V1 m ρ) c).arrAt 6 cfg0.N (ix2 (0 : Fin 16) j) = halfSum (HH m c) 0 j := by
  have h := Region0.sum_hh (V1 m ρ) c 0 0 j (by decide)
  rw [projHh_V1] at h; exact h
theorem d6_row8 (j : Fin 1024) : (dat0 (F := Ideal) (V1 m ρ) c).arrAt 6 cfg0.N (ix2 (8 : Fin 16) j) = halfSum (HH m c) 1 j := by
  have h := Region0.sum_hh (V1 m ρ) c 1 0 j (by decide)
  rw [projHh_V1] at h; exact h
theorem d7_row0 (j : Fin 1024) : (dat0 (F := Ideal) (V1 m ρ) c).arrAt 7 cfg0.N (ix2 (0 : Fin 16) j) = halfSum (fun r j => HH m c r j * HH m c r j) 0 j := by
  have h := Region0.sumsq_hh (V1 m ρ) c 0 0 j (by decide)
  rw [projHh_V1] at h; exact h
theorem d7_row8 (j : Fin 1024) : (dat0 (F := Ideal) (V1 m ρ) c).arrAt 7 cfg0.N (ix2 (8 : Fin 16) j) = halfSum (fun r j => HH m c r j * HH m c r j) 1 j := by
  have h := Region0.sumsq_hh (V1 m ρ) c 1 0 j (by decide)
  rw [projHh_V1] at h; exact h

/-! ## What the second pass reads -/

theorem projIh_V3 : projK (curry2 (V3 m ρ c main_arg0)) (curry2 (V3 m ρ c main_v1)) = IH m c := by
  funext r j
  refine Finset.sum_congr rfl fun k _ => ?_
  show @HMul.hMul EReal EReal EReal _ (V3 m ρ c main_arg0 (ix2 r k)) (V3 m ρ c main_v1 (ix2 k j)) = _
  rw [Chain.arg0_V3 m ρ c, Chain.v1_V3 m ρ c k j]
  rfl

theorem projHh_V3 : projK (curry2 (V3 m ρ c main_arg2)) (curry2 (V3 m ρ c main_v3)) = HH m c := by
  funext r j
  refine Finset.sum_congr rfl fun k _ => ?_
  show @HMul.hMul EReal EReal EReal _ (V3 m ρ c main_arg2 (ix2 r k)) (V3 m ρ c main_v3 (ix2 k j)) = _
  rw [Chain.arg2_V3 m ρ c, Chain.v3_V3 m ρ c k j]
  rfl

theorem scaleIh_V3 : row1 (V3 m ρ c main_v33) = scaleT (IH m c) (aGih m c) := by
  funext j
  show V3 m ρ c main_v33 (ix2 (0 : Fin 1) j) = _
  rw [Chain.v33_V3 m ρ c j]
  exact Stats.scale_eq (IH m c) (aGih m c) j _ _ (d4_row0 m ρ c j) (d4_row8 m ρ c j) (d5_row0 m ρ c j) (d5_row8 m ρ c j) _ rfl

theorem shiftIh_V3 : row1 (V3 m ρ c main_v35) = shiftT (IH m c) (aGih m c) (aBih m c) := by
  funext j
  show V3 m ρ c main_v35 (ix2 (0 : Fin 1) j) = _
  rw [Chain.v35_V3 m ρ c j]
  exact Stats.shift_eq (IH m c) (aGih m c) (aBih m c) j _ _ (d4_row0 m ρ c j) (d4_row8 m ρ c j) (d5_row0 m ρ c j) (d5_row8 m ρ c j) _ _ rfl rfl

theorem scaleHh_V3 : row1 (V3 m ρ c main_v45) = scaleT (HH m c) (aGhh m c) := by
  funext j
  show V3 m ρ c main_v45 (ix2 (0 : Fin 1) j) = _
  rw [Chain.v45_V3 m ρ c j]
  exact Stats.scale_eq (HH m c) (aGhh m c) j _ _ (d6_row0 m ρ c j) (d6_row8 m ρ c j) (d7_row0 m ρ c j) (d7_row8 m ρ c j) _ rfl

theorem shiftHh_V3 : row1 (V3 m ρ c main_v47) = shiftT (HH m c) (aGhh m c) (aBhh m c) := by
  funext j
  show V3 m ρ c main_v47 (ix2 (0 : Fin 1) j) = _
  rw [Chain.v47_V3 m ρ c j]
  exact Stats.shift_eq (HH m c) (aGhh m c) (aBhh m c) j _ _ (d6_row0 m ρ c j) (d6_row8 m ρ c j) (d7_row0 m ρ c j) (d7_row8 m ρ c j) _ _ rfl rfl

theorem bias_V3 : row1 (V3 m ρ c main_v4) = aB m c := by
  funext j
  show V3 m ρ c main_v4 (ix2 (0 : Fin 1) j) = _
  rw [Chain.v4_V3 m ρ c j]
  rfl

/-- The tiled programme's gate pre-activations. -/
abbrev GT : Fin 32768 → Fin 1024 → EReal :=
  gatesT (aX m c) (aH m c) (aWih m c) (aWhh m c) (aB m c) (aGih m c) (aBih m c) (aGhh m c) (aBhh m c)

/-- The second pass's gate pre-activations are the specification's. -/
theorem gates_V3 :
    gatesOf (projK (curry2 (V3 m ρ c main_arg0)) (curry2 (V3 m ρ c main_v1))) (projK (curry2 (V3 m ρ c main_arg2)) (curry2 (V3 m ρ c main_v3)))
        (row1 (V3 m ρ c main_v33)) (row1 (V3 m ρ c main_v35)) (row1 (V3 m ρ c main_v45)) (row1 (V3 m ρ c main_v47)) (row1 (V3 m ρ c main_v4))
      = GT m c := by
  rw [projIh_V3, projHh_V3, scaleIh_V3, shiftIh_V3, scaleHh_V3, shiftHh_V3, bias_V3]
  rfl

end Cert.KernelIdeal.KValue

end
-- ==== Proof.Region1.Pieces.lean ====
import proofs.«101494_j46059229282552_2_alg».proof.Proof.Gen.KernelIdeal.Frame
import proofs.«101494_j46059229282552_2_alg».proof.Proof.Spec

import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

/-!
  What one grid point of the gates pass leaves in each of its four output buffers, as the named arithmetic of the
  body applied to the point's input blocks.

  The gate pre-activations of the point's 1024 rows are computed once; the raw cell state and the output gate are
  stored whole; the two [8, 256] accumulators receive, in every one of their eight rows, the column sums of the raw
  cell state and of its square over the point's rows — added to zero at the first point of a half, to what the
  point before left otherwise.
-/
namespace Cert.KernelIdeal.Region1
open Cert.KernelIdeal Cert.KernelIdeal.Gen

variable {F : FTy → Type} [FloatOps F]
variable (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S8x256 .f32) (harg14 : arg14.IsWhole) (arg15 : Memref sig .tc .vmem S8x256 .f32) (harg15 : arg15.IsWhole)
variable (x0 : Vec F S1024x256 .f32) (x1 : Vec F S1024x256 .f32) (x2 : Vec F S1024x256 .f32) (x3 : Vec F S256x1024 .bf16) (x4 : Vec F S256x1024 .bf16) (x5 : Vec F S1x1024 .f32) (x6 : Vec F S1x1024 .f32) (x7 : Vec F S1x1024 .f32) (x8 : Vec F S1x1024 .f32) (x9 : Vec F S1x1024 .f32)

/-- The zero offsets of a whole-buffer access. -/
theorem hz : (![0, 0] : Fin 2 → Nat) = fun _ => 0 := funext fun a => by fin_cases a <;> rfl

/-! ## The first point of a half: the accumulators start from the zero block -/

theorem outA_10 (hc0 : cond1_0 i) :
    out1_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k1_pay2 (k1_pay7 x0 x1 x3 x4 x5 x6 x7 x8 x9) (k1_pay8 x0 x1 x3 x4 x5 x6 x7 x8 x9) x2 := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun1_A
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg14.read_unread, harg15.read_unread,
    View.ld_unit_zero (S := S1024x256) hz, View.ld_unit_zero (S := S256x1024) hz, View.ld_unit_zero (S := S1x1024) hz,
    View.ld_unit_zero (S := S8x256) hz]

theorem outA_11 (hc0 : cond1_0 i) :
    out1_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k1_pay1 (k1_pay7 x0 x1 x3 x4 x5 x6 x7 x8 x9) := by
  unfold out1_A_11
  rw [View.read_writes_eq_canon _ _ _ (cover1_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun1_A
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg14.read_unread, harg15.read_unread,
    View.ld_unit_zero (S := S1024x256) hz, View.ld_unit_zero (S := S256x1024) hz, View.ld_unit_zero (S := S1x1024) hz,
    View.ld_unit_zero (S := S8x256) hz]

theorem outA_12 (hc0 : cond1_0 i) :
    out1_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k1_pay3 (k1_pay7 x0 x1 x3 x4 x5 x6 x7 x8 x9) (k1_pay8 x0 x1 x3 x4 x5 x6 x7 x8 x9) x2 (k1_pay5 (F := F)) := by
  unfold out1_A_12
  rw [View.read_writes_eq_canon _ _ _ (cover1_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun1_A
  dsimp only
  sl_unfold_words
  rw [View.canon_cons_unit_zero (S := S8x256) hz, View.readCov_unit_zero (S := S8x256) _ hz]
  simp only [View.readAt_eq_ld, harg2.read_unread, harg3.read_unread, harg4.read_unread, harg5.read_unread, harg6.read_unread,
    harg7.read_unread, harg8.read_unread, harg9.read_unread, harg10.read_unread, harg11.read_unread, harg14.read_unread, harg15.read_unread,
    View.ld_unit_zero (S := S1024x256) hz, View.ld_unit_zero (S := S256x1024) hz, View.ld_unit_zero (S := S1x1024) hz,
    View.ld_unit_zero (S := S8x256) hz]

theorem outA_13 (hc0 : cond1_0 i) :
    out1_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k1_pay4 (k1_pay7 x0 x1 x3 x4 x5 x6 x7 x8 x9) (k1_pay8 x0 x1 x3 x4 x5 x6 x7 x8 x9) x2 (k1_pay6 (F := F)) := by
  unfold out1_A_13
  rw [View.read_writes_eq_canon _ _ _ (cover1_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun1_A
  dsimp only
  sl_unfold_words
  rw [View.canon_cons_unit_zero (S := S8x256) hz, View.readCov_unit_zero (S := S8x256) _ hz]
  simp only [View.readAt_eq_ld, harg2.read_unread, harg3.read_unread, harg4.read_unread, harg5.read_unread, harg6.read_unread,
    harg7.read_unread, harg8.read_unread, harg9.read_unread, harg10.read_unread, harg11.read_unread, harg14.read_unread, harg15.read_unread,
    View.ld_unit_zero (S := S1024x256) hz, View.ld_unit_zero (S := S256x1024) hz, View.ld_unit_zero (S := S1x1024) hz,
    View.ld_unit_zero (S := S8x256) hz]

/-! ## Every other point: the accumulators continue from what the point before left -/

theorem outB_10 (hc0 : ¬cond1_0 i) (xo12 : Vec F S8x256 .f32) (xo13 : Vec F S8x256 .f32) :
    out1_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13 = k1_pay2 (k1_pay7 x0 x1 x3 x4 x5 x6 x7 x8 x9) (k1_pay8 x0 x1 x3 x4 x5 x6 x7 x8 x9) x2 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13)]
  unfold kernelRun1_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg14.read_unread, harg15.read_unread,
    View.ld_unit_zero (S := S1024x256) hz, View.ld_unit_zero (S := S256x1024) hz, View.ld_unit_zero (S := S1x1024) hz,
    View.ld_unit_zero (S := S8x256) hz]

theorem outB_11 (hc0 : ¬cond1_0 i) (xo12 : Vec F S8x256 .f32) (xo13 : Vec F S8x256 .f32) :
    out1_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13 = k1_pay1 (k1_pay7 x0 x1 x3 x4 x5 x6 x7 x8 x9) := by
  unfold out1_B_11
  rw [View.read_writes_eq_canon _ _ _ (cover1_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13)]
  unfold kernelRun1_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg14.read_unread, harg15.read_unread,
    View.ld_unit_zero (S := S1024x256) hz, View.ld_unit_zero (S := S256x1024) hz, View.ld_unit_zero (S := S1x1024) hz,
    View.ld_unit_zero (S := S8x256) hz]

theorem outB_12 (hc0 : ¬cond1_0 i) (xo12 : Vec F S8x256 .f32) (xo13 : Vec F S8x256 .f32) :
    out1_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13 = k1_pay3 (k1_pay7 x0 x1 x3 x4 x5 x6 x7 x8 x9) (k1_pay8 x0 x1 x3 x4 x5 x6 x7 x8 x9) x2 xo12 := by
  unfold out1_B_12
  rw [View.read_writes_eq_canon _ _ _ (cover1_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13)]
  unfold kernelRun1_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg14.read_unread, harg15.read_unread,
    View.ld_unit_zero (S := S1024x256) hz, View.ld_unit_zero (S := S256x1024) hz, View.ld_unit_zero (S := S1x1024) hz,
    View.ld_unit_zero (S := S8x256) hz]

theorem outB_13 (hc0 : ¬cond1_0 i) (xo12 : Vec F S8x256 .f32) (xo13 : Vec F S8x256 .f32) :
    out1_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13 = k1_pay4 (k1_pay7 x0 x1 x3 x4 x5 x6 x7 x8 x9) (k1_pay8 x0 x1 x3 x4 x5 x6 x7 x8 x9) x2 xo13 := by
  unfold out1_B_13
  rw [View.read_writes_eq_canon _ _ _ (cover1_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13)]
  unfold kernelRun1_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg14.read_unread, harg15.read_unread,
    View.ld_unit_zero (S := S1024x256) hz, View.ld_unit_zero (S := S256x1024) hz, View.ld_unit_zero (S := S1x1024) hz,
    View.ld_unit_zero (S := S8x256) hz]

end Cert.KernelIdeal.Region1
end
-- ==== Proof.Region1.Payload.lean ====
import proofs.«101494_j46059229282552_2_alg».proof.Proof.Gen.KernelIdeal.Frame
import proofs.«101494_j46059229282552_2_alg».proof.Proof.Spec
import proofs.«101494_j46059229282552_2_alg».proof.Proof.LibPlainDot
import proofs.«101494_j46059229282552_2_alg».proof.Proof.LibFirstAxisSum
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

/-!
  The arithmetic of one grid point of the gates pass, read entry by entry over the extended reals (where the change of
  float format before the products is the identity).

  For the point's blocks x, h (1024 × 256), the transposed weights Wi, Wh (256 × 1024) and the five rows sI, bI, sH,
  bH, b (1 × 1024), the gate pre-activation at row p and column c is
      ((Σ_k x(p,k)·Wi(k,c))·sI(c) + bI(c)) + ((Σ_k h(p,k)·Wh(k,c))·sH(c) + bH(c)) + b(c).
  The four gates are its four blocks of 256 columns.  The raw cell state is σ(gate 0)·c + σ(gate 1)·tanh(gate 3), the
  output gate σ(gate 2); each accumulator row adds the column sum of the raw cell state (of its square) over the
  point's 1024 rows.
-/
namespace Cert.KernelIdeal.Region1
open Cert.KernelIdeal Cert.KernelIdeal.Gen Idealize.ShloMosaic.ValueIdx
open Cert.LstmBn (blockCol)

/-- A product of a 1024 × 256 block (its format changed first) with a 256 × 1024 block, into zero, at (p, c). -/
theorem mm_apply (x : FVec Ideal S1024x256 .f32) (w : FVec Ideal S256x1024 .bf16) (p : Fin 1024) (c : Fin 1024) :
    matmul (F := Ideal) dot_S1024x256_S256x1024_S1024x1024_1_0_0_1_n_n none (truncf (F := Ideal) .bf16 x bitsLt_bf16_f32)
        (shapeCast S256x1024 w shapeCasts_S256x1024_S256x1024) (constant (F := Ideal) S1024x1024 .f32 0x00000000#32) (ix2 p c)
      = ∑ k : Fin 256, x (ix2 p k) * w (ix2 k c) := by
  rw [shapeCast_self]
  exact Cert.LibPlainDot.matmul_zero_apply dot_S1024x256_S256x1024_S1024x1024_1_0_0_1_n_n rfl rfl rfl rfl
    (fun _ _ => rfl) (fun _ _ => rfl) none (truncf (F := Ideal) .bf16 x bitsLt_bf16_f32) w p c

/-- A row spread over the 1024 rows reads, at (p, c), the row at c. -/
theorem row_apply (v : FVec Ideal S1x1024 .f32) (p : Fin 1024) (c : Fin 1024) :
    broadcastTo S1024x1024 (shapeCast S1x1024 v shapeCasts_S1x1024_S1x1024) broadcasts_S1x1024_S1024x1024 (ix2 p c)
      = v (ix2 (0 : Fin 1) c) := by
  rw [shapeCast_self]
  exact broadcastTo_1b_ab_apply v _ p c

/-- The column sums of a 1024 × 256 block, as a row spread over eight rows, read at (u, j): the sum of column j. -/
theorem colsum_apply (src : FVec Ideal S1024x256 .f32) (u : Fin 8) (j : Fin 256) :
    broadcastTo S8x256 (shapeCast S1x256 (shapeCast S1x256
        (multiReduction (F := Ideal) .add [0] S256 src 0x00000000#32 reduces_S1024x256_S256 (.inl rfl) rfl)
        shapeCasts_S256_S1x256) shapeCasts_S1x256_S1x256) broadcasts_S1x256_S8x256 (ix2 u j)
      = ∑ p : Fin 1024, src (ix2 p j) := by
  rw [shapeCast_self]
  refine (broadcastTo_1b_ab_apply _ _ u j).trans ?_
  refine (shapeCast_a_1a_apply _ _ (0 : Fin 1) j).trans ?_
  exact Cert.AxisSums.sum_first_apply src 0x00000000#32 reduces_S1024x256_S256 (.inl rfl) rfl j

variable (x0 x1 x2 : FVec Ideal S1024x256 .f32) (x3 x4 : FVec Ideal S256x1024 .bf16)
  (x5 x6 x7 x8 x9 : FVec Ideal S1x1024 .f32)

/-- The gate pre-activation of the point at row p and column c. -/
def gateBlk (p : Fin 1024) (c : Fin 1024) : EReal :=
  (((∑ k : Fin 256, x0 (ix2 p k) * x3 (ix2 k c)) * x5 (ix2 (0 : Fin 1) c) + x6 (ix2 (0 : Fin 1) c))
    + ((∑ k : Fin 256, x1 (ix2 p k) * x4 (ix2 k c)) * x7 (ix2 (0 : Fin 1) c) + x8 (ix2 (0 : Fin 1) c)))
    + x9 (ix2 (0 : Fin 1) c)

/-- The raw cell state of the point at row p and column j, from the old cell state block x2. -/
def cellBlk (p : Fin 1024) (j : Fin 256) : EReal :=
  Ideal.logistic (gateBlk x0 x1 x3 x4 x5 x6 x7 x8 x9 p (blockCol 0 j)) * x2 (ix2 p j)
    + Ideal.logistic (gateBlk x0 x1 x3 x4 x5 x6 x7 x8 x9 p (blockCol 1 j))
      * Ideal.tanh (gateBlk x0 x1 x3 x4 x5 x6 x7 x8 x9 p (blockCol 3 j))

theorem pay7_apply (p : Fin 1024) (c : Fin 1024) :
    k1_pay7 (F := Ideal) x0 x1 x3 x4 x5 x6 x7 x8 x9 (ix2 p c) = gateBlk x0 x1 x3 x4 x5 x6 x7 x8 x9 p c := by
  unfold k1_pay7 gateBlk
  simp only [addf, mulf, Ideal.addf_def, Ideal.mulf_def, mm_apply, row_apply]

theorem col0 (j : Fin 256) : (blockCol 0 j).val = 0 + j.val := by show 0 * 256 + j.val = 0 + j.val; omega
theorem col1 (j : Fin 256) : (blockCol 1 j).val = 256 + j.val := by show 1 * 256 + j.val = 256 + j.val; omega
theorem col2 (j : Fin 256) : (blockCol 2 j).val = 512 + j.val := by show 2 * 256 + j.val = 512 + j.val; omega
theorem col3 (j : Fin 256) : (blockCol 3 j).val = 768 + j.val := by show 3 * 256 + j.val = 768 + j.val; omega

theorem pay8_apply (p : Fin 1024) (j : Fin 256) :
    k1_pay8 (F := Ideal) x0 x1 x3 x4 x5 x6 x7 x8 x9 (ix2 p j) = gateBlk x0 x1 x3 x4 x5 x6 x7 x8 x9 p (blockCol 0 j) := by
  unfold k1_pay8
  exact (slice2_axis1_apply 0 _ slices_S1024x1024_o0_0_S1024x256 p j (blockCol 0 j) (col0 j)).trans
    (pay7_apply x0 x1 x3 x4 x5 x6 x7 x8 x9 p (blockCol 0 j))

/-- The output gate's payload at (p, j), for any gate array. -/
theorem pay1_apply (v33 : FVec Ideal S1024x1024 .f32) (p : Fin 1024) (j : Fin 256) :
    k1_pay1 (F := Ideal) v33 (ix2 p j) = Ideal.logistic (v33 (ix2 p (blockCol 2 j))) := by
  unfold k1_pay1
  exact congrArg Ideal.logistic (slice2_axis1_apply 512 v33 slices_S1024x1024_o0_512_S1024x256 p j (blockCol 2 j) (col2 j))

/-- The raw cell state's payload at (p, j), for any gate array, its first block and the old cell state. -/
theorem pay2_apply (v33 : FVec Ideal S1024x1024 .f32) (v34 v42 : FVec Ideal S1024x256 .f32) (p : Fin 1024) (j : Fin 256) :
    k1_pay2 (F := Ideal) v33 v34 v42 (ix2 p j)
      = Ideal.logistic (v34 (ix2 p j)) * v42 (ix2 p j)
        + Ideal.logistic (v33 (ix2 p (blockCol 1 j))) * Ideal.tanh (v33 (ix2 p (blockCol 3 j))) := by
  have e1 := slice2_axis1_apply 256 v33 slices_S1024x1024_o0_256_S1024x256 p j (blockCol 1 j) (col1 j)
  have e3 := slice2_axis1_apply 768 v33 slices_S1024x1024_o0_768_S1024x256 p j (blockCol 3 j) (col3 j)
  unfold k1_pay2
  show Ideal.logistic (v34 (ix2 p j)) * v42 (ix2 p j)
      + Ideal.logistic (extractStridedSlice S1024x256 ![0, 256] v33 slices_S1024x1024_o0_256_S1024x256 (ix2 p j))
        * Ideal.tanh (extractStridedSlice S1024x256 ![0, 768] v33 slices_S1024x1024_o0_768_S1024x256 (ix2 p j)) = _
  rw [e1, e3]

/-- The raw cell state of the point, from its blocks. -/
theorem cell_apply (p : Fin 1024) (j : Fin 256) :
    k1_pay2 (F := Ideal) (k1_pay7 x0 x1 x3 x4 x5 x6 x7 x8 x9) (k1_pay8 x0 x1 x3 x4 x5 x6 x7 x8 x9) x2 (ix2 p j)
      = cellBlk x0 x1 x2 x3 x4 x5 x6 x7 x8 x9 p j := by
  rw [pay2_apply, pay8_apply, pay7_apply, pay7_apply]
  rfl

/-- The output gate of the point, from its blocks. -/
theorem ogate_apply (p : Fin 1024) (j : Fin 256) :
    k1_pay1 (F := Ideal) (k1_pay7 x0 x1 x3 x4 x5 x6 x7 x8 x9) (ix2 p j)
      = Ideal.logistic (gateBlk x0 x1 x3 x4 x5 x6 x7 x8 x9 p (blockCol 2 j)) := by
  rw [pay1_apply, pay7_apply]

/-- The sum accumulator's payload at (u, j): what it held plus the column sum of the raw cell state. -/
theorem pay3_apply (v33 : FVec Ideal S1024x1024 .f32) (v34 v42 : FVec Ideal S1024x256 .f32) (v53 : FVec Ideal S8x256 .f32)
    (u : Fin 8) (j : Fin 256) :
    k1_pay3 (F := Ideal) v33 v34 v42 v53 (ix2 u j) = v53 (ix2 u j) + ∑ p : Fin 1024, k1_pay2 (F := Ideal) v33 v34 v42 (ix2 p j) := by
  unfold k1_pay3
  show shapeCast S8x256 v53 shapeCasts_S8x256_S8x256 (ix2 u j) + _ = _
  rw [shapeCast_self]
  exact congrArg (v53 (ix2 u j) + ·) (colsum_apply (k1_pay2 (F := Ideal) v33 v34 v42) u j)

/-- The sum-of-squares accumulator's payload at (u, j). -/
theorem pay4_apply (v33 : FVec Ideal S1024x1024 .f32) (v34 v42 : FVec Ideal S1024x256 .f32) (v59 : FVec Ideal S8x256 .f32)
    (u : Fin 8) (j : Fin 256) :
    k1_pay4 (F := Ideal) v33 v34 v42 v59 (ix2 u j)
      = v59 (ix2 u j) + ∑ p : Fin 1024, k1_pay2 (F := Ideal) v33 v34 v42 (ix2 p j) * k1_pay2 (F := Ideal) v33 v34 v42 (ix2 p j) := by
  unfold k1_pay4
  show shapeCast S8x256 v59 shapeCasts_S8x256_S8x256 (ix2 u j) + _ = _
  rw [shapeCast_self]
  exact congrArg (v59 (ix2 u j) + ·)
    (colsum_apply (mulf (k1_pay2 (F := Ideal) v33 v34 v42) (k1_pay2 (F := Ideal) v33 v34 v42)) u j)

/-- The zero block reads zero. -/
theorem pay5_apply (y : S8x256.Idx) : k1_pay5 (F := Ideal) y = 0 := by
  show Ideal.ofBits .f32 0x00000000#32 = 0
  simp [Ideal.ofBits, Ideal.ieee]

theorem pay6_apply (y : S8x256.Idx) : k1_pay6 (F := Ideal) y = 0 := by
  show Ideal.ofBits .f32 0x00000000#32 = 0
  simp [Ideal.ofBits, Ideal.ieee]

end Cert.KernelIdeal.Region1
end
-- ==== Proof.Region1.Blocks.lean ====
import proofs.«101494_j46059229282552_2_alg».proof.Proof.Gen.KernelIdeal.Frame
import proofs.«101494_j46059229282552_2_alg».proof.Proof.Spec
import proofs.«101494_j46059229282552_2_alg».proof.Proof.Region1.Payload
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

/-!
  The blocks one grid point of the gates pass reads, as parts of the arrays the pass finds on entry.

  Point t (of 32) reads rows t·1024 … t·1024 + 1023 of the three [32768, 256] arrays and the whole of the two weight
  arrays and of the five rows.  So the gate pre-activation the point computes at its row p is the whole batch's gate
  pre-activation at row t·1024 + p, and likewise the raw cell state and the output gate.
-/
namespace Cert.KernelIdeal.Region1
open Cert.KernelIdeal Cert.KernelIdeal.Gen Idealize.ShloMosaic.ValueIdx
open Cert.LstmBn (blockCol curry2 row1 projK gatesOf cellRaw outGate)

variable (V : (c : Dev nD) → (b : Ref sig .tc) → Buf (Elt Ideal) ((c : Thread nD τ).loc b)) (c : Dev nD)

/-- The ten arrays the pass reads, as it finds them. -/
abbrev aX : S32768x256.Idx → EReal := V c (Pipeline.arrRef spec1 0)
abbrev aH : S32768x256.Idx → EReal := V c (Pipeline.arrRef spec1 1)
abbrev aC : S32768x256.Idx → EReal := V c (Pipeline.arrRef spec1 2)
abbrev aWi : S256x1024.Idx → EReal := V c (Pipeline.arrRef spec1 3)
abbrev aWh : S256x1024.Idx → EReal := V c (Pipeline.arrRef spec1 4)
abbrev asI : S1x1024.Idx → EReal := V c (Pipeline.arrRef spec1 5)
abbrev abI : S1x1024.Idx → EReal := V c (Pipeline.arrRef spec1 6)
abbrev asH : S1x1024.Idx → EReal := V c (Pipeline.arrRef spec1 7)
abbrev abH : S1x1024.Idx → EReal := V c (Pipeline.arrRef spec1 8)
abbrev ab : S1x1024.Idx → EReal := V c (Pipeline.arrRef spec1 9)

/-- The gate pre-activations of the whole batch. -/
abbrev gates : Fin 32768 → Fin 1024 → EReal :=
  gatesOf (projK (curry2 (aX V c)) (curry2 (aWi V c))) (projK (curry2 (aH V c)) (curry2 (aWh V c)))
    (row1 (asI V c)) (row1 (abI V c)) (row1 (asH V c)) (row1 (abH V c)) (row1 (ab V c))

theorem tlt (t : Fin cfg1.N) : t.val < 32 := lt_of_lt_of_eq t.isLt (show cfg1.N = 32 from N_1)

/-- Row p of the tile of point t. -/
def rowOf (t : Fin cfg1.N) (p : Fin 1024) : Fin 32768 :=
  ⟨t.val * 1024 + p.val, by have := tlt t; have := p.isLt; omega⟩

/-- The block index of every row-tiled window at point t is (t, 0). -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_10.index t (0 : Fin 2) = t.val ∧ win1_10.index t (1 : Fin 2) = 0
    ∧ win1_11.index t (0 : Fin 2) = t.val ∧ win1_11.index t (1 : Fin 2) = 0 :=
  (by decide +kernel : ∀ t : Fin grid1.N, _)

/-- The whole-array windows stay at block (0, 0). -/
theorem idx_whole : ∀ t : Fin cfg1.N, win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- The accumulators' block index at point t is (t / 16, 0). -/
theorem idx_acc : ∀ t : Fin cfg1.N, win1_12.index t (0 : Fin 2) = t.val / 16 ∧ win1_12.index t (1 : Fin 2) = 0
    ∧ win1_13.index t (0 : Fin 2) = t.val / 16 ∧ win1_13.index t (1 : Fin 2) = 0 :=
  (by decide +kernel : ∀ t : Fin grid1.N, _)

/-! ## The input blocks, entry by entry -/

theorem iblk0_apply (t : Fin cfg1.N) (p : Fin 1024) (k : Fin 256) :
    (iblk1 V c 0 t : FVec Ideal S1024x256 .f32) (ix2 p k) = aX V c (ix2 (rowOf t p) k) := by
  have e0 : win1_0.index t (0 : Fin 2) = t.val := by have := idx_rows t; omega
  have e1 : win1_0.index t (1 : Fin 2) = 0 := by have := idx_rows t; omega
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 1024 + 1 * p.val = t.val * 1024 + p.val; rw [e0]; omega
  | ⟨1, _⟩ => show win1_0.index t (1 : Fin 2) * 256 + 1 * k.val = k.val; rw [e1]; omega

theorem iblk1_apply (t : Fin cfg1.N) (p : Fin 1024) (k : Fin 256) :
    (iblk1 V c 1 t : FVec Ideal S1024x256 .f32) (ix2 p k) = aH V c (ix2 (rowOf t p) k) := by
  have e0 : win1_1.index t (0 : Fin 2) = t.val := by have := idx_rows t; omega
  have e1 : win1_1.index t (1 : Fin 2) = 0 := by have := idx_rows t; omega
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 1024 + 1 * p.val = t.val * 1024 + p.val; rw [e0]; omega
  | ⟨1, _⟩ => show win1_1.index t (1 : Fin 2) * 256 + 1 * k.val = k.val; rw [e1]; omega

theorem iblk2_apply (t : Fin cfg1.N) (p : Fin 1024) (k : Fin 256) :
    (iblk1 V c 2 t : FVec Ideal S1024x256 .f32) (ix2 p k) = aC V c (ix2 (rowOf t p) k) := by
  have e0 : win1_2.index t (0 : Fin 2) = t.val := by have := idx_rows t; omega
  have e1 : win1_2.index t (1 : Fin 2) = 0 := by have := idx_rows t; omega
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 1024 + 1 * p.val = t.val * 1024 + p.val; rw [e0]; omega
  | ⟨1, _⟩ => show win1_2.index t (1 : Fin 2) * 256 + 1 * k.val = k.val; rw [e1]; omega

theorem iblk3_apply (t : Fin cfg1.N) (k : Fin 256) (q : Fin 1024) :
    (iblk1 V c 3 t : FVec Ideal S256x1024 .bf16) (ix2 k q) = aWi V c (ix2 k q) := by
  have e0 : win1_3.index t (0 : Fin 2) = 0 := by have := idx_whole t; omega
  have e1 : win1_3.index t (1 : Fin 2) = 0 := by have := idx_whole t; omega
  unfold iblk1
  rw [View.read_apply]
  show V c (Pipeline.arrRef spec1 3) _ = V c (Pipeline.arrRef spec1 3) _
  congr 1
  funext a; apply Fin.ext
  match a with
  | ⟨0, _⟩ => show win1_3.index t (0 : Fin 2) * 256 + 1 * k.val = k.val; rw [e0]; omega
  | ⟨1, _⟩ => show win1_3.index t (1 : Fin 2) * 1024 + 1 * q.val = q.val; rw [e1]; omega

theorem iblk4_apply (t : Fin cfg1.N) (k : Fin 256) (q : Fin 1024) :
    (iblk1 V c 4 t : FVec Ideal S256x1024 .bf16) (ix2 k q) = aWh V c (ix2 k q) := by
  have e0 : win1_4.index t (0 : Fin 2) = 0 := by have := idx_whole t; omega
  have e1 : win1_4.index t (1 : Fin 2) = 0 := by have := idx_whole t; omega
  unfold iblk1
  rw [View.read_apply]
  show V c (Pipeline.arrRef spec1 4) _ = V c (Pipeline.arrRef spec1 4) _
  congr 1
  funext a; apply Fin.ext
  match a with
  | ⟨0, _⟩ => show win1_4.index t (0 : Fin 2) * 256 + 1 * k.val = k.val; rw [e0]; omega
  | ⟨1, _⟩ => show win1_4.index t (1 : Fin 2) * 1024 + 1 * q.val = q.val; rw [e1]; omega

theorem iblk5_apply (t : Fin cfg1.N) (k : Fin 1) (q : Fin 1024) :
    (iblk1 V c 5 t : FVec Ideal S1x1024 .f32) (ix2 k q) = asI V c (ix2 k q) := by
  have e0 : win1_5.index t (0 : Fin 2) = 0 := by have := idx_whole t; omega
  have e1 : win1_5.index t (1 : Fin 2) = 0 := by have := idx_whole t; omega
  unfold iblk1
  rw [View.read_apply]
  show V c (Pipeline.arrRef spec1 5) _ = V c (Pipeline.arrRef spec1 5) _
  congr 1
  funext a; apply Fin.ext
  match a with
  | ⟨0, _⟩ => show win1_5.index t (0 : Fin 2) * 1 + 1 * k.val = k.val; rw [e0]; omega
  | ⟨1, _⟩ => show win1_5.index t (1 : Fin 2) * 1024 + 1 * q.val = q.val; rw [e1]; omega

theorem iblk6_apply (t : Fin cfg1.N) (k : Fin 1) (q : Fin 1024) :
    (iblk1 V c 6 t : FVec Ideal S1x1024 .f32) (ix2 k q) = abI V c (ix2 k q) := by
  have e0 : win1_6.index t (0 : Fin 2) = 0 := by have := idx_whole t; omega
  have e1 : win1_6.index t (1 : Fin 2) = 0 := by have := idx_whole t; omega
  unfold iblk1
  rw [View.read_apply]
  show V c (Pipeline.arrRef spec1 6) _ = V c (Pipeline.arrRef spec1 6) _
  congr 1
  funext a; apply Fin.ext
  match a with
  | ⟨0, _⟩ => show win1_6.index t (0 : Fin 2) * 1 + 1 * k.val = k.val; rw [e0]; omega
  | ⟨1, _⟩ => show win1_6.index t (1 : Fin 2) * 1024 + 1 * q.val = q.val; rw [e1]; omega

theorem iblk7_apply (t : Fin cfg1.N) (k : Fin 1) (q : Fin 1024) :
    (iblk1 V c 7 t : FVec Ideal S1x1024 .f32) (ix2 k q) = asH V c (ix2 k q) := by
  have e0 : win1_7.index t (0 : Fin 2) = 0 := by have := idx_whole t; omega
  have e1 : win1_7.index t (1 : Fin 2) = 0 := by have := idx_whole t; omega
  unfold iblk1
  rw [View.read_apply]
  show V c (Pipeline.arrRef spec1 7) _ = V c (Pipeline.arrRef spec1 7) _
  congr 1
  funext a; apply Fin.ext
  match a with
  | ⟨0, _⟩ => show win1_7.index t (0 : Fin 2) * 1 + 1 * k.val = k.val; rw [e0]; omega
  | ⟨1, _⟩ => show win1_7.index t (1 : Fin 2) * 1024 + 1 * q.val = q.val; rw [e1]; omega

theorem iblk8_apply (t : Fin cfg1.N) (k : Fin 1) (q : Fin 1024) :
    (iblk1 V c 8 t : FVec Ideal S1x1024 .f32) (ix2 k q) = abH V c (ix2 k q) := by
  have e0 : win1_8.index t (0 : Fin 2) = 0 := by have := idx_whole t; omega
  have e1 : win1_8.index t (1 : Fin 2) = 0 := by have := idx_whole t; omega
  unfold iblk1
  rw [View.read_apply]
  show V c (Pipeline.arrRef spec1 8) _ = V c (Pipeline.arrRef spec1 8) _
  congr 1
  funext a; apply Fin.ext
  match a with
  | ⟨0, _⟩ => show win1_8.index t (0 : Fin 2) * 1 + 1 * k.val = k.val; rw [e0]; omega
  | ⟨1, _⟩ => show win1_8.index t (1 : Fin 2) * 1024 + 1 * q.val = q.val; rw [e1]; omega

theorem iblk9_apply (t : Fin cfg1.N) (k : Fin 1) (q : Fin 1024) :
    (iblk1 V c 9 t : FVec Ideal S1x1024 .f32) (ix2 k q) = ab V c (ix2 k q) := by
  have e0 : win1_9.index t (0 : Fin 2) = 0 := by have := idx_whole t; omega
  have e1 : win1_9.index t (1 : Fin 2) = 0 := by have := idx_whole t; omega
  unfold iblk1
  rw [View.read_apply]
  show V c (Pipeline.arrRef spec1 9) _ = V c (Pipeline.arrRef spec1 9) _
  congr 1
  funext a; apply Fin.ext
  match a with
  | ⟨0, _⟩ => show win1_9.index t (0 : Fin 2) * 1 + 1 * k.val = k.val; rw [e0]; omega
  | ⟨1, _⟩ => show win1_9.index t (1 : Fin 2) * 1024 + 1 * q.val = q.val; rw [e1]; omega

/-! ## From a point's blocks to the whole batch -/

/-- Blocks that are row r of the batch's arrays at the block's row p (and the whole of the shared arrays) give, at
    (p, q), the batch's gate pre-activation at (r, q). -/
theorem gateBlk_eq (x0 x1 : FVec Ideal S1024x256 .f32) (x3 x4 : FVec Ideal S256x1024 .bf16)
    (x5 x6 x7 x8 x9 : FVec Ideal S1x1024 .f32)
    (X H : S32768x256.Idx → EReal) (Wi Wh : S256x1024.Idx → EReal) (sI bI sH bH b : S1x1024.Idx → EReal)
    (r : Fin 32768) (p : Fin 1024) (q : Fin 1024)
    (h0 : ∀ k, x0 (ix2 p k) = X (ix2 r k)) (h1 : ∀ k, x1 (ix2 p k) = H (ix2 r k))
    (h3 : ∀ k q, x3 (ix2 k q) = Wi (ix2 k q)) (h4 : ∀ k q, x4 (ix2 k q) = Wh (ix2 k q))
    (h5 : ∀ k q, x5 (ix2 k q) = sI (ix2 k q)) (h6 : ∀ k q, x6 (ix2 k q) = bI (ix2 k q))
    (h7 : ∀ k q, x7 (ix2 k q) = sH (ix2 k q)) (h8 : ∀ k q, x8 (ix2 k q) = bH (ix2 k q))
    (h9 : ∀ k q, x9 (ix2 k q) = b (ix2 k q)) :
    gateBlk x0 x1 x3 x4 x5 x6 x7 x8 x9 p q
      = gatesOf (projK (curry2 X) (curry2 Wi)) (projK (curry2 H) (curry2 Wh)) (row1 sI) (row1 bI) (row1 sH) (row1 bH) (row1 b) r q := by
  unfold gateBlk
  simp only [h0, h1, h3, h4, h5, h6, h7, h8, h9]
  rfl

/-- The gate pre-activation point t computes at (p, q) is the batch's at row t·1024 + p. -/
theorem gate_point (t : Fin cfg1.N) (p : Fin 1024) (q : Fin 1024) :
    gateBlk (iblk1 V c 0 t) (iblk1 V c 1 t) (iblk1 V c 3 t) (iblk1 V c 4 t) (iblk1 V c 5 t) (iblk1 V c 6 t) (iblk1 V c 7 t) (iblk1 V c 8 t) (iblk1 V c 9 t) p q = gates V c (rowOf t p) q :=
  gateBlk_eq (iblk1 V c 0 t) (iblk1 V c 1 t) (iblk1 V c 3 t) (iblk1 V c 4 t) (iblk1 V c 5 t) (iblk1 V c 6 t) (iblk1 V c 7 t) (iblk1 V c 8 t) (iblk1 V c 9 t)
    (aX V c) (aH V c) (aWi V c) (aWh V c) (asI V c) (abI V c) (asH V c) (abH V c) (ab V c) (rowOf t p) p q
    (iblk0_apply V c t p) (iblk1_apply V c t p) (iblk3_apply V c t) (iblk4_apply V c t) (iblk5_apply V c t)
    (iblk6_apply V c t) (iblk7_apply V c t) (iblk8_apply V c t) (iblk9_apply V c t)

/-- The raw cell state point t computes at (p, j) is the batch's at row t·1024 + p. -/
theorem cell_point (t : Fin cfg1.N) (p : Fin 1024) (j : Fin 256) :
    cellBlk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j = cellRaw (gates V c) (curry2 (aC V c)) (rowOf t p) j := by
  unfold cellBlk
  rw [gate_point V c t p (blockCol 0 j), gate_point V c t p (blockCol 1 j), gate_point V c t p (blockCol 3 j),
    iblk2_apply V c t p j]
  rfl

/-- The output gate point t computes at (p, j) is the batch's at row t·1024 + p. -/
theorem ogate_point (t : Fin cfg1.N) (p : Fin 1024) (j : Fin 256) :
    Ideal.logistic (gateBlk (iblk1 V c 0 t) (iblk1 V c 1 t) (iblk1 V c 3 t) (iblk1 V c 4 t) (iblk1 V c 5 t) (iblk1 V c 6 t) (iblk1 V c 7 t) (iblk1 V c 8 t) (iblk1 V c 9 t) p (blockCol 2 j)) = outGate (gates V c) (rowOf t p) j := by
  rw [gate_point V c t p (blockCol 2 j)]
  rfl

end Cert.KernelIdeal.Region1
end
-- ==== Proof.Region1.Tiles.lean ====
import proofs.«101494_j46059229282552_2_alg».proof.Proof.Gen.KernelIdeal.Frame
import proofs.«101494_j46059229282552_2_alg».proof.Proof.Spec
import proofs.«101494_j46059229282552_2_alg».proof.Proof.Region1.Pieces
import proofs.«101494_j46059229282552_2_alg».proof.Proof.Region1.Blocks
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

/-!
  The two per-tile results of the gates pass.  Every grid point stores its 1024 rows of the raw cell state and of the
  output gate whole, whichever branch it takes, and writes them back to rows t·1024 … t·1024 + 1023 of the result
  arrays; the 32 points' blocks tile the 32768 rows.  So the result arrays hold, row by row, the raw cell state and
  the output gate of the whole batch.
-/
namespace Cert.KernelIdeal.Region1
open Cert.KernelIdeal Cert.KernelIdeal.Gen Idealize.ShloMosaic.ValueIdx
open Cert.LstmBn (blockCol curry2 row1 projK gatesOf cellRaw outGate)

variable (V : (c : Dev nD) → (b : Ref sig .tc) → Buf (Elt Ideal) ((c : Thread nD τ).loc b)) (c : Dev nD)

/-- The raw cell state of the whole batch, as an array. -/
abbrev cRawArr : S32768x256.Idx → EReal := fun i => cellRaw (gates V c) (curry2 (aC V c)) (i 0) (i 1)
/-- The output gate of the whole batch, as an array. -/
abbrev oGateArr : S32768x256.Idx → EReal := fun i => outGate (gates V c) (i 0) (i 1)

/-! ## What the two buffers hold after a point, in either branch -/

theorem outs10 (t : Fin cfg1.N) :
    (outsAt1 V c t.val t.isLt).1 = k1_pay2 (F := Ideal) (k1_pay7 (iblk1 V c 0 t) (iblk1 V c 1 t) (iblk1 V c 3 t) (iblk1 V c 4 t) (iblk1 V c 5 t) (iblk1 V c 6 t) (iblk1 V c 7 t) (iblk1 V c 8 t) (iblk1 V c 9 t)) (k1_pay8 (iblk1 V c 0 t) (iblk1 V c 1 t) (iblk1 V c 3 t) (iblk1 V c 4 t) (iblk1 V c 5 t) (iblk1 V c 6 t) (iblk1 V c 7 t) (iblk1 V c 8 t) (iblk1 V c 9 t)) (iblk1 V c 2 t) := by
  by_cases h0 : t.val % 16 = 0
  · rw [outsAt1_A V c t h0]
    dsimp only
    exact outA_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((hcond1_0 t).mpr h0)
  · rw [outsAt1_B V c t h0]
    dsimp only
    exact outB_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (fun h => h0 ((hcond1_0 t).mp h))
      (outsAt1 V c (t.val - 1) (Nat.lt_of_le_of_lt (Nat.sub_le _ _) t.isLt)).2.2.1 (outsAt1 V c (t.val - 1) (Nat.lt_of_le_of_lt (Nat.sub_le _ _) t.isLt)).2.2.2

theorem outs11 (t : Fin cfg1.N) :
    (outsAt1 V c t.val t.isLt).2.1 = k1_pay1 (F := Ideal) (k1_pay7 (iblk1 V c 0 t) (iblk1 V c 1 t) (iblk1 V c 3 t) (iblk1 V c 4 t) (iblk1 V c 5 t) (iblk1 V c 6 t) (iblk1 V c 7 t) (iblk1 V c 8 t) (iblk1 V c 9 t)) := by
  by_cases h0 : t.val % 16 = 0
  · rw [outsAt1_A V c t h0]
    dsimp only
    exact outA_11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((hcond1_0 t).mpr h0)
  · rw [outsAt1_B V c t h0]
    dsimp only
    exact outB_11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (fun h => h0 ((hcond1_0 t).mp h))
      (outsAt1 V c (t.val - 1) (Nat.lt_of_le_of_lt (Nat.sub_le _ _) t.isLt)).2.2.1 (outsAt1 V c (t.val - 1) (Nat.lt_of_le_of_lt (Nat.sub_le _ _) t.isLt)).2.2.2

/-! ## The raw cell state -/

/-- An entry of point t's block of output 10 sits at row t·1024 + p of its array. -/
theorem emb10 (t : Fin cfg1.N) (p : Fin 1024) (j : Fin 256) :
    ((cfg1.win 10).blk t).view.emb (ix2 p j : S1024x256.Idx) = (ix2 (rowOf t p) j : S32768x256.Idx) := by
  have e0 : win1_10.index t (0 : Fin 2) = t.val := by have := idx_rows t; omega
  have e1 : win1_10.index t (1 : Fin 2) = 0 := by have := idx_rows t; omega
  funext a; apply Fin.ext
  match a with
  | ⟨0, _⟩ => show win1_10.index t (0 : Fin 2) * 1024 + 1 * p.val = t.val * 1024 + p.val; rw [e0]; omega
  | ⟨1, _⟩ => show win1_10.index t (1 : Fin 2) * 256 + 1 * j.val = j.val; rw [e1]; omega

/-- What point t writes back to output 10 is its block of the batch's array. -/
theorem flushed10_eq (t : Fin cfg1.N) :
    (dat1 V c).flushed 10 t = ((cfg1.win 10).blk t).view.read (Elt Ideal) (cRawArr V c) := by
  show (cfg1.win 10).cut (grid1.coords t) ((dat1 V c).after 10 t) = _
  rw [after1_10, outs10 V c t]
  funext y
  obtain ⟨p, j, rfl⟩ : ∃ (p : Fin 1024) (j : Fin 256), y = ix2 p j := ⟨y 0, y 1, eq_ix2 (n0 := 1024) (n1 := 256) y⟩
  rw [View.read_apply]
  show _ = cRawArr V c (((cfg1.win 10).blk t).view.emb (ix2 p j : S1024x256.Idx))
  rw [emb10 t p j]
  exact (cell_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j).trans (cell_point V c t p j)

/-- Every entry of output 10's array is in the block of the point of its row's tile. -/
theorem cover10 (i : S32768x256.Idx) :
    ∃ t : Fin cfg1.N, (cfg1.win 10).flush t = true ∧ i ∈ ((cfg1.win 10).blk t).view.set := by
  have hi0 : (i 0).val < 32768 := (i 0).isLt
  have hi1 : (i 1).val < 256 := (i 1).isLt
  obtain ⟨t, ht⟩ : ∃ t : Fin cfg1.N, t.val = (i 0).val / 1024 :=
    ⟨⟨(i 0).val / 1024, by rw [show cfg1.N = 32 from N_1]; omega⟩, rfl⟩
  have e0 : win1_10.index t (0 : Fin 2) = (i 0).val / 1024 := by have := idx_rows t; omega
  have e1 : win1_10.index t (1 : Fin 2) = 0 := by have := idx_rows t; omega
  refine ⟨t, flush1_10 t, ?_⟩
  show i ∈ ((View.whole main_v48_0).slice (win1_10.rect t)).set
  rw [View.set_slice_whole, Rect.mem_set_unit]
  intro a
  match a with
  | ⟨0, _⟩ =>
    show win1_10.index t (0 : Fin 2) * 1024 ≤ (i 0).val ∧ (i 0).val < win1_10.index t (0 : Fin 2) * 1024 + 1024
    rw [e0]; omega
  | ⟨1, _⟩ =>
    show win1_10.index t (1 : Fin 2) * 256 ≤ (i 1).val ∧ (i 1).val < win1_10.index t (1 : Fin 2) * 256 + 256
    rw [e1]; omega

/-- THE RAW CELL STATE: after the pass, output 10 holds it at every row and column. -/
theorem c_raw (r : Fin 32768) (j : Fin 256) :
    (dat1 (F := Ideal) V c).arrAt 10 cfg1.N (ix2 r j) = cellRaw (gates V c) (curry2 (aC V c)) r j :=
  congrFun ((dat1 V c).arrAt_eq_of_cover 10 (cRawArr V c) (fun t _ => flushed10_eq V c t) cover10) (ix2 r j)

/-! ## The output gate -/

/-- An entry of point t's block of output 11 sits at row t·1024 + p of its array. -/
theorem emb11 (t : Fin cfg1.N) (p : Fin 1024) (j : Fin 256) :
    ((cfg1.win 11).blk t).view.emb (ix2 p j : S1024x256.Idx) = (ix2 (rowOf t p) j : S32768x256.Idx) := by
  have e0 : win1_11.index t (0 : Fin 2) = t.val := by have := idx_rows t; omega
  have e1 : win1_11.index t (1 : Fin 2) = 0 := by have := idx_rows t; omega
  funext a; apply Fin.ext
  match a with
  | ⟨0, _⟩ => show win1_11.index t (0 : Fin 2) * 1024 + 1 * p.val = t.val * 1024 + p.val; rw [e0]; omega
  | ⟨1, _⟩ => show win1_11.index t (1 : Fin 2) * 256 + 1 * j.val = j.val; rw [e1]; omega

/-- What point t writes back to output 11 is its block of the batch's array. -/
theorem flushed11_eq (t : Fin cfg1.N) :
    (dat1 V c).flushed 11 t = ((cfg1.win 11).blk t).view.read (Elt Ideal) (oGateArr V c) := by
  show (cfg1.win 11).cut (grid1.coords t) ((dat1 V c).after 11 t) = _
  rw [after1_11, outs11 V c t]
  funext y
  obtain ⟨p, j, rfl⟩ : ∃ (p : Fin 1024) (j : Fin 256), y = ix2 p j := ⟨y 0, y 1, eq_ix2 (n0 := 1024) (n1 := 256) y⟩
  rw [View.read_apply]
  show _ = oGateArr V c (((cfg1.win 11).blk t).view.emb (ix2 p j : S1024x256.Idx))
  rw [emb11 t p j]
  exact (ogate_apply (iblk1 V c 0 t) (iblk1 V c 1 t) (iblk1 V c 3 t) (iblk1 V c 4 t) (iblk1 V c 5 t) (iblk1 V c 6 t) (iblk1 V c 7 t) (iblk1 V c 8 t) (iblk1 V c 9 t) p j).trans (ogate_point V c t p j)

/-- Every entry of output 11's array is in the block of the point of its row's tile. -/
theorem cover11 (i : S32768x256.Idx) :
    ∃ t : Fin cfg1.N, (cfg1.win 11).flush t = true ∧ i ∈ ((cfg1.win 11).blk t).view.set := by
  have hi0 : (i 0).val < 32768 := (i 0).isLt
  have hi1 : (i 1).val < 256 := (i 1).isLt
  obtain ⟨t, ht⟩ : ∃ t : Fin cfg1.N, t.val = (i 0).val / 1024 :=
    ⟨⟨(i 0).val / 1024, by rw [show cfg1.N = 32 from N_1]; omega⟩, rfl⟩
  have e0 : win1_11.index t (0 : Fin 2) = (i 0).val / 1024 := by have := idx_rows t; omega
  have e1 : win1_11.index t (1 : Fin 2) = 0 := by have := idx_rows t; omega
  refine ⟨t, flush1_11 t, ?_⟩
  show i ∈ ((View.whole main_v48_1).slice (win1_11.rect t)).set
  rw [View.set_slice_whole, Rect.mem_set_unit]
  intro a
  match a with
  | ⟨0, _⟩ =>
    show win1_11.index t (0 : Fin 2) * 1024 ≤ (i 0).val ∧ (i 0).val < win1_11.index t (0 : Fin 2) * 1024 + 1024
    rw [e0]; omega
  | ⟨1, _⟩ =>
    show win1_11.index t (1 : Fin 2) * 256 ≤ (i 1).val ∧ (i 1).val < win1_11.index t (1 : Fin 2) * 256 + 256
    rw [e1]; omega

/-- THE OUTPUT GATE: after the pass, output 11 holds it at every row and column. -/
theorem o_gate (r : Fin 32768) (j : Fin 256) :
    (dat1 (F := Ideal) V c).arrAt 11 cfg1.N (ix2 r j) = outGate (gates V c) r j :=
  congrFun ((dat1 V c).arrAt_eq_of_cover 11 (oGateArr V c) (fun t _ => flushed11_eq V c t) cover11) (ix2 r j)

end Cert.KernelIdeal.Region1
end
-- ==== Proof.Region1.Acc.lean ====
import proofs.«101494_j46059229282552_2_alg».proof.Proof.Gen.KernelIdeal.Frame
import proofs.«101494_j46059229282552_2_alg».proof.Proof.Spec
import proofs.«101494_j46059229282552_2_alg».proof.Proof.Region1.Pieces
import proofs.«101494_j46059229282552_2_alg».proof.Proof.Region1.Blocks
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

/-!
  The two accumulators of the gates pass.  The 32 grid points are two halves of 16; the accumulators' [8, 256] block
  stays in place through a half and is written back after its last point, to rows 8·q … 8·q + 7 of a [16, 256] array.
  The first point of a half stores zero and adds, to each of the eight rows, the column sums of the raw cell state (of
  its square) over its 1024 rows; each later point adds its own tile's column sums to what the point before left.  So
  after the last point of half q every row holds the sum over the half's 16 tiles, tile by tile.
-/
namespace Cert.KernelIdeal.Region1
open Cert.KernelIdeal Cert.KernelIdeal.Gen Idealize.ShloMosaic.ValueIdx
open Cert.LstmBn (blockCol curry2 row1 projK gatesOf cellRaw outGate halfSum tileRow)

variable (V : (c : Dev nD) → (b : Ref sig .tc) → Buf (Elt Ideal) ((c : Thread nD τ).loc b)) (c : Dev nD)

/-- The raw cell state of the whole batch, and its square. -/
abbrev cRaw : Fin 32768 → Fin 256 → EReal := cellRaw (gates V c) (curry2 (aC V c))
abbrev cRawSq : Fin 32768 → Fin 256 → EReal := fun r j => cRaw V c r j * cRaw V c r j

/-! ## The running sum in closed form -/

/-- The column sum of S over the rows of tile n (zero past the last tile). -/
def tileSum (S : Fin 32768 → Fin 256 → EReal) (n : ℕ) (j : Fin 256) : EReal :=
  if h : n < cfg1.N then ∑ p : Fin 1024, S (rowOf ⟨n, h⟩ p) j else 0

/-- The sum of the tile column sums of n's half, from the half's first tile up to tile n. -/
def accSum (S : Fin 32768 → Fin 256 → EReal) (n : ℕ) (j : Fin 256) : EReal :=
  ∑ s ∈ Finset.range (n % 16 + 1), tileSum S (n / 16 * 16 + s) j

theorem accSum_reset (S : Fin 32768 → Fin 256 → EReal) (n : ℕ) (h : n < cfg1.N) (h0 : n % 16 = 0) (j : Fin 256) :
    accSum S n j = 0 + ∑ p : Fin 1024, S (rowOf ⟨n, h⟩ p) j := by
  have e : n / 16 * 16 + 0 = n := by omega
  unfold accSum
  rw [h0, Finset.sum_range_one, e, zero_add]
  unfold tileSum
  rw [dif_pos h]

theorem accSum_step (S : Fin 32768 → Fin 256 → EReal) (n : ℕ) (h : n + 1 < cfg1.N) (h0 : ¬(n + 1) % 16 = 0) (j : Fin 256) :
    accSum S (n + 1) j = accSum S n j + ∑ p : Fin 1024, S (rowOf ⟨n + 1, h⟩ p) j := by
  have e1 : (n + 1) % 16 = n % 16 + 1 := by omega
  have e2 : (n + 1) / 16 = n / 16 := by omega
  have e3 : n / 16 * 16 + (n % 16 + 1) = n + 1 := by omega
  unfold accSum
  rw [e1, e2, Finset.sum_range_succ _ (n % 16 + 1), e3]
  congr 1
  unfold tileSum
  rw [dif_pos h]

/-- After the last tile of half q the running sum is the half's sum. -/
theorem accSum_last (S : Fin 32768 → Fin 256 → EReal) (q : Fin 2) (j : Fin 256) :
    accSum S (q.val * 16 + 15) j = halfSum S q j := by
  have hq := q.isLt
  have e1 : (q.val * 16 + 15) % 16 + 1 = 16 := by omega
  have e2 : (q.val * 16 + 15) / 16 * 16 = q.val * 16 := by omega
  unfold accSum halfSum
  rw [e1, e2, Finset.sum_range]
  refine Finset.sum_congr rfl fun i _ => ?_
  unfold tileSum
  rw [dif_pos (show q.val * 16 + i.val < cfg1.N by rw [show cfg1.N = 32 from N_1]; have := i.isLt; omega)]
  rfl

/-- The halves' sums as a [16, 256] array: rows 8·q … 8·q + 7 hold half q's. -/
abbrev halfArr (S : Fin 32768 → Fin 256 → EReal) : S16x256.Idx → EReal :=
  fun i => halfSum S ⟨(i 0).val / 8, by have : (i 0).val < 16 := (i 0).isLt; omega⟩ (i 1)

/-- Row u of the block of point t, in the accumulators' arrays. -/
def accRow (t : Fin cfg1.N) (u : Fin 8) : Fin 16 :=
  ⟨t.val / 16 * 8 + u.val, by have := tlt t; have := u.isLt; omega⟩

theorem accSum_flush (S : Fin 32768 → Fin 256 → EReal) (t : Fin cfg1.N) (h15 : t.val % 16 = 15) (u : Fin 8) (j : Fin 256) :
    accSum S t.val j = halfArr S (ix2 (accRow t u) j) := by
  have ht := tlt t
  have hu := u.isLt
  have hq : t.val / 16 < 2 := by omega
  have e : t.val = (⟨t.val / 16, hq⟩ : Fin 2).val * 16 + 15 := by show t.val = t.val / 16 * 16 + 15; omega
  rw [e, accSum_last S ⟨t.val / 16, hq⟩ j]
  show halfSum S _ j = halfSum S _ j
  congr 1
  apply Fin.ext
  show t.val / 16 = (t.val / 16 * 8 + u.val) / 8
  omega

/-! ## The sum of the raw cell state -/

/-- At the first point of a half, accumulator 12 holds zero plus the tile's column sum. -/
theorem acc12_A (t : Fin cfg1.N) (h0 : t.val % 16 = 0) (u : Fin 8) (j : Fin 256) :
    (outsAt1 V c t.val t.isLt).2.2.1 (ix2 u j) = 0 + ∑ p : Fin 1024, cRaw V c (rowOf t p) j := by
  rw [outsAt1_A V c t h0]
  dsimp only
  refine (congrFun (outA_12 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((hcond1_0 t).mpr h0)) (ix2 u j)).trans ?_
  refine (pay3_apply (k1_pay7 (iblk1 V c 0 t) (iblk1 V c 1 t) (iblk1 V c 3 t) (iblk1 V c 4 t) (iblk1 V c 5 t) (iblk1 V c 6 t) (iblk1 V c 7 t) (iblk1 V c 8 t) (iblk1 V c 9 t)) (k1_pay8 (iblk1 V c 0 t) (iblk1 V c 1 t) (iblk1 V c 3 t) (iblk1 V c 4 t) (iblk1 V c 5 t) (iblk1 V c 6 t) (iblk1 V c 7 t) (iblk1 V c 8 t) (iblk1 V c 9 t)) (iblk1 V c 2 t) (k1_pay5 (F := Ideal)) u j).trans ?_
  rw [pay5_apply]
  exact congrArg (0 + ·) (Finset.sum_congr rfl fun p _ => ((cell_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j).trans (cell_point V c t p j)))

/-- At every other point, accumulator 12 holds what the point before left plus the tile's column sum. -/
theorem acc12_B (t : Fin cfg1.N) (h0 : ¬t.val % 16 = 0) (u : Fin 8) (j : Fin 256) :
    (outsAt1 V c t.val t.isLt).2.2.1 (ix2 u j)
      = (outsAt1 V c (t.val - 1) (Nat.lt_of_le_of_lt (Nat.sub_le _ _) t.isLt)).2.2.1 (ix2 u j) + ∑ p : Fin 1024, cRaw V c (rowOf t p) j := by
  rw [outsAt1_B V c t h0]
  dsimp only
  refine (congrFun (outB_12 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (fun h => h0 ((hcond1_0 t).mp h))
      (outsAt1 V c (t.val - 1) (Nat.lt_of_le_of_lt (Nat.sub_le _ _) t.isLt)).2.2.1 (outsAt1 V c (t.val - 1) (Nat.lt_of_le_of_lt (Nat.sub_le _ _) t.isLt)).2.2.2) (ix2 u j)).trans ?_
  refine (pay3_apply (k1_pay7 (iblk1 V c 0 t) (iblk1 V c 1 t) (iblk1 V c 3 t) (iblk1 V c 4 t) (iblk1 V c 5 t) (iblk1 V c 6 t) (iblk1 V c 7 t) (iblk1 V c 8 t) (iblk1 V c 9 t)) (k1_pay8 (iblk1 V c 0 t) (iblk1 V c 1 t) (iblk1 V c 3 t) (iblk1 V c 4 t) (iblk1 V c 5 t) (iblk1 V c 6 t) (iblk1 V c 7 t) (iblk1 V c 8 t) (iblk1 V c 9 t)) (iblk1 V c 2 t) (outsAt1 V c (t.val - 1) (Nat.lt_of_le_of_lt (Nat.sub_le _ _) t.isLt)).2.2.1 u j).trans ?_
  exact congrArg ((outsAt1 V c (t.val - 1) (Nat.lt_of_le_of_lt (Nat.sub_le _ _) t.isLt)).2.2.1 (ix2 u j) + ·) (Finset.sum_congr rfl fun p _ => ((cell_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j).trans (cell_point V c t p j)))

/-- After point n, accumulator 12 holds the column sums of the tiles of n's half up to n. -/
theorem inv12 (u : Fin 8) (j : Fin 256) : ∀ (n : ℕ) (h : n < cfg1.N),
    (outsAt1 V c n h).2.2.1 (ix2 u j) = accSum (cRaw V c) n j := by
  intro n
  induction n with
  | zero =>
    intro h
    exact (acc12_A V c ⟨0, h⟩ (Nat.zero_mod 16) u j).trans (accSum_reset (cRaw V c) 0 h (Nat.zero_mod 16) j).symm
  | succ n ih =>
    intro h
    by_cases h0 : (n + 1) % 16 = 0
    · exact (acc12_A V c ⟨n + 1, h⟩ h0 u j).trans (accSum_reset (cRaw V c) (n + 1) h h0 j).symm
    · refine (acc12_B V c ⟨n + 1, h⟩ h0 u j).trans ?_
      rw [accSum_step (cRaw V c) n h h0 j, ← ih (Nat.lt_of_succ_lt h)]
      rfl

/-- An entry of point t's block of accumulator 12 sits at row (t / 16)·8 + u of its array. -/
theorem emb12 (t : Fin cfg1.N) (u : Fin 8) (j : Fin 256) :
    ((cfg1.win 12).blk t).view.emb (ix2 u j : S8x256.Idx) = (ix2 (accRow t u) j : S16x256.Idx) := by
  have e0 : win1_12.index t (0 : Fin 2) = t.val / 16 := by have := idx_acc t; omega
  have e1 : win1_12.index t (1 : Fin 2) = 0 := by have := idx_acc t; omega
  funext a; apply Fin.ext
  match a with
  | ⟨0, _⟩ => show win1_12.index t (0 : Fin 2) * 8 + 1 * u.val = t.val / 16 * 8 + u.val; rw [e0]; omega
  | ⟨1, _⟩ => show win1_12.index t (1 : Fin 2) * 256 + 1 * j.val = j.val; rw [e1]; omega

/-- What the last point of a half writes back to accumulator 12 is its block of the halves' sums. -/
theorem flushed12_eq (t : Fin cfg1.N) (hf : (cfg1.win 12).flush t = true) :
    (dat1 V c).flushed 12 t = ((cfg1.win 12).blk t).view.read (Elt Ideal) (halfArr (cRaw V c)) := by
  have h15 : t.val % 16 = 15 := (flush1_12 t).mp hf
  have ht := tlt t
  show (cfg1.win 12).cut (grid1.coords t) ((dat1 V c).after 12 t) = _
  rw [after1_12]
  funext y
  obtain ⟨u, j, rfl⟩ : ∃ (u : Fin 8) (j : Fin 256), y = ix2 u j := ⟨y 0, y 1, eq_ix2 (n0 := 8) (n1 := 256) y⟩
  rw [View.read_apply]
  show (outsAt1 V c t.val t.isLt).2.2.1 (ix2 u j) = halfArr (cRaw V c) (((cfg1.win 12).blk t).view.emb (ix2 u j : S8x256.Idx))
  rw [emb12 t u j, inv12 V c u j t.val t.isLt]
  exact accSum_flush (cRaw V c) t h15 u j

/-- Every entry of accumulator 12's array is in the block of the last point of its half. -/
theorem cover12 (i : S16x256.Idx) :
    ∃ t : Fin cfg1.N, (cfg1.win 12).flush t = true ∧ i ∈ ((cfg1.win 12).blk t).view.set := by
  have hi0 : (i 0).val < 16 := (i 0).isLt
  have hi1 : (i 1).val < 256 := (i 1).isLt
  obtain ⟨t, ht⟩ : ∃ t : Fin cfg1.N, t.val = (i 0).val / 8 * 16 + 15 :=
    ⟨⟨(i 0).val / 8 * 16 + 15, by rw [show cfg1.N = 32 from N_1]; omega⟩, rfl⟩
  have e0 : win1_12.index t (0 : Fin 2) = (i 0).val / 8 := by have := idx_acc t; omega
  have e1 : win1_12.index t (1 : Fin 2) = 0 := by have := idx_acc t; omega
  refine ⟨t, (flush1_12 t).mpr (by omega), ?_⟩
  show i ∈ ((View.whole main_v48_2).slice (win1_12.rect t)).set
  rw [View.set_slice_whole, Rect.mem_set_unit]
  intro a
  match a with
  | ⟨0, _⟩ =>
    show win1_12.index t (0 : Fin 2) * 8 ≤ (i 0).val ∧ (i 0).val < win1_12.index t (0 : Fin 2) * 8 + 8
    rw [e0]; omega
  | ⟨1, _⟩ =>
    show win1_12.index t (1 : Fin 2) * 256 ≤ (i 1).val ∧ (i 1).val < win1_12.index t (1 : Fin 2) * 256 + 256
    rw [e1]; omega

/-- THE SUM: after the pass, rows 8·q … 8·q + 7 of output 12 hold the raw cell state's column sums over half q. -/
theorem sum_c (q : Fin 2) (u : Fin 8) (j : Fin 256) :
    (dat1 (F := Ideal) V c).arrAt 12 cfg1.N
        (ix2 (⟨q.val * 8 + u.val, by have := q.isLt; have := u.isLt; omega⟩ : Fin 16) j)
      = halfSum (cellRaw (gates V c) (curry2 (aC V c))) q j := by
  refine (congrFun ((dat1 V c).arrAt_eq_of_cover 12 (halfArr (cRaw V c)) (flushed12_eq V c) cover12) _).trans ?_
  show halfSum (cRaw V c) _ j = halfSum (cRaw V c) q j
  congr 1
  apply Fin.ext
  show (q.val * 8 + u.val) / 8 = q.val
  have := u.isLt; omega

/-! ## The sum of its square -/

/-- At the first point of a half, accumulator 13 holds zero plus the tile's column sum. -/
theorem acc13_A (t : Fin cfg1.N) (h0 : t.val % 16 = 0) (u : Fin 8) (j : Fin 256) :
    (outsAt1 V c t.val t.isLt).2.2.2 (ix2 u j) = 0 + ∑ p : Fin 1024, cRawSq V c (rowOf t p) j := by
  rw [outsAt1_A V c t h0]
  dsimp only
  refine (congrFun (outA_13 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((hcond1_0 t).mpr h0)) (ix2 u j)).trans ?_
  refine (pay4_apply (k1_pay7 (iblk1 V c 0 t) (iblk1 V c 1 t) (iblk1 V c 3 t) (iblk1 V c 4 t) (iblk1 V c 5 t) (iblk1 V c 6 t) (iblk1 V c 7 t) (iblk1 V c 8 t) (iblk1 V c 9 t)) (k1_pay8 (iblk1 V c 0 t) (iblk1 V c 1 t) (iblk1 V c 3 t) (iblk1 V c 4 t) (iblk1 V c 5 t) (iblk1 V c 6 t) (iblk1 V c 7 t) (iblk1 V c 8 t) (iblk1 V c 9 t)) (iblk1 V c 2 t) (k1_pay6 (F := Ideal)) u j).trans ?_
  rw [pay6_apply]
  exact congrArg (0 + ·) (Finset.sum_congr rfl fun p _ => congrArg₂ (· * ·) ((cell_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j).trans (cell_point V c t p j)) ((cell_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j).trans (cell_point V c t p j)))

/-- At every other point, accumulator 13 holds what the point before left plus the tile's column sum. -/
theorem acc13_B (t : Fin cfg1.N) (h0 : ¬t.val % 16 = 0) (u : Fin 8) (j : Fin 256) :
    (outsAt1 V c t.val t.isLt).2.2.2 (ix2 u j)
      = (outsAt1 V c (t.val - 1) (Nat.lt_of_le_of_lt (Nat.sub_le _ _) t.isLt)).2.2.2 (ix2 u j) + ∑ p : Fin 1024, cRawSq V c (rowOf t p) j := by
  rw [outsAt1_B V c t h0]
  dsimp only
  refine (congrFun (outB_13 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (fun h => h0 ((hcond1_0 t).mp h))
      (outsAt1 V c (t.val - 1) (Nat.lt_of_le_of_lt (Nat.sub_le _ _) t.isLt)).2.2.1 (outsAt1 V c (t.val - 1) (Nat.lt_of_le_of_lt (Nat.sub_le _ _) t.isLt)).2.2.2) (ix2 u j)).trans ?_
  refine (pay4_apply (k1_pay7 (iblk1 V c 0 t) (iblk1 V c 1 t) (iblk1 V c 3 t) (iblk1 V c 4 t) (iblk1 V c 5 t) (iblk1 V c 6 t) (iblk1 V c 7 t) (iblk1 V c 8 t) (iblk1 V c 9 t)) (k1_pay8 (iblk1 V c 0 t) (iblk1 V c 1 t) (iblk1 V c 3 t) (iblk1 V c 4 t) (iblk1 V c 5 t) (iblk1 V c 6 t) (iblk1 V c 7 t) (iblk1 V c 8 t) (iblk1 V c 9 t)) (iblk1 V c 2 t) (outsAt1 V c (t.val - 1) (Nat.lt_of_le_of_lt (Nat.sub_le _ _) t.isLt)).2.2.2 u j).trans ?_
  exact congrArg ((outsAt1 V c (t.val - 1) (Nat.lt_of_le_of_lt (Nat.sub_le _ _) t.isLt)).2.2.2 (ix2 u j) + ·) (Finset.sum_congr rfl fun p _ => congrArg₂ (· * ·) ((cell_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j).trans (cell_point V c t p j)) ((cell_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j).trans (cell_point V c t p j)))

/-- After point n, accumulator 13 holds the column sums of the tiles of n's half up to n. -/
theorem inv13 (u : Fin 8) (j : Fin 256) : ∀ (n : ℕ) (h : n < cfg1.N),
    (outsAt1 V c n h).2.2.2 (ix2 u j) = accSum (cRawSq V c) n j := by
  intro n
  induction n with
  | zero =>
    intro h
    exact (acc13_A V c ⟨0, h⟩ (Nat.zero_mod 16) u j).trans (accSum_reset (cRawSq V c) 0 h (Nat.zero_mod 16) j).symm
  | succ n ih =>
    intro h
    by_cases h0 : (n + 1) % 16 = 0
    · exact (acc13_A V c ⟨n + 1, h⟩ h0 u j).trans (accSum_reset (cRawSq V c) (n + 1) h h0 j).symm
    · refine (acc13_B V c ⟨n + 1, h⟩ h0 u j).trans ?_
      rw [accSum_step (cRawSq V c) n h h0 j, ← ih (Nat.lt_of_succ_lt h)]
      rfl

/-- An entry of point t's block of accumulator 13 sits at row (t / 16)·8 + u of its array. -/
theorem emb13 (t : Fin cfg1.N) (u : Fin 8) (j : Fin 256) :
    ((cfg1.win 13).blk t).view.emb (ix2 u j : S8x256.Idx) = (ix2 (accRow t u) j : S16x256.Idx) := by
  have e0 : win1_13.index t (0 : Fin 2) = t.val / 16 := by have := idx_acc t; omega
  have e1 : win1_13.index t (1 : Fin 2) = 0 := by have := idx_acc t; omega
  funext a; apply Fin.ext
  match a with
  | ⟨0, _⟩ => show win1_13.index t (0 : Fin 2) * 8 + 1 * u.val = t.val / 16 * 8 + u.val; rw [e0]; omega
  | ⟨1, _⟩ => show win1_13.index t (1 : Fin 2) * 256 + 1 * j.val = j.val; rw [e1]; omega

/-- What the last point of a half writes back to accumulator 13 is its block of the halves' sums. -/
theorem flushed13_eq (t : Fin cfg1.N) (hf : (cfg1.win 13).flush t = true) :
    (dat1 V c).flushed 13 t = ((cfg1.win 13).blk t).view.read (Elt Ideal) (halfArr (cRawSq V c)) := by
  have h15 : t.val % 16 = 15 := (flush1_13 t).mp hf
  have ht := tlt t
  show (cfg1.win 13).cut (grid1.coords t) ((dat1 V c).after 13 t) = _
  rw [after1_13]
  funext y
  obtain ⟨u, j, rfl⟩ : ∃ (u : Fin 8) (j : Fin 256), y = ix2 u j := ⟨y 0, y 1, eq_ix2 (n0 := 8) (n1 := 256) y⟩
  rw [View.read_apply]
  show (outsAt1 V c t.val t.isLt).2.2.2 (ix2 u j) = halfArr (cRawSq V c) (((cfg1.win 13).blk t).view.emb (ix2 u j : S8x256.Idx))
  rw [emb13 t u j, inv13 V c u j t.val t.isLt]
  exact accSum_flush (cRawSq V c) t h15 u j

/-- Every entry of accumulator 13's array is in the block of the last point of its half. -/
theorem cover13 (i : S16x256.Idx) :
    ∃ t : Fin cfg1.N, (cfg1.win 13).flush t = true ∧ i ∈ ((cfg1.win 13).blk t).view.set := by
  have hi0 : (i 0).val < 16 := (i 0).isLt
  have hi1 : (i 1).val < 256 := (i 1).isLt
  obtain ⟨t, ht⟩ : ∃ t : Fin cfg1.N, t.val = (i 0).val / 8 * 16 + 15 :=
    ⟨⟨(i 0).val / 8 * 16 + 15, by rw [show cfg1.N = 32 from N_1]; omega⟩, rfl⟩
  have e0 : win1_13.index t (0 : Fin 2) = (i 0).val / 8 := by have := idx_acc t; omega
  have e1 : win1_13.index t (1 : Fin 2) = 0 := by have := idx_acc t; omega
  refine ⟨t, (flush1_13 t).mpr (by omega), ?_⟩
  show i ∈ ((View.whole main_v48_3).slice (win1_13.rect t)).set
  rw [View.set_slice_whole, Rect.mem_set_unit]
  intro a
  match a with
  | ⟨0, _⟩ =>
    show win1_13.index t (0 : Fin 2) * 8 ≤ (i 0).val ∧ (i 0).val < win1_13.index t (0 : Fin 2) * 8 + 8
    rw [e0]; omega
  | ⟨1, _⟩ =>
    show win1_13.index t (1 : Fin 2) * 256 ≤ (i 1).val ∧ (i 1).val < win1_13.index t (1 : Fin 2) * 256 + 256
    rw [e1]; omega

/-- THE SUM OF SQUARES: after the pass, rows 8·q … 8·q + 7 of output 13 hold the column sums of the raw cell state's
    square over half q. -/
theorem sumsq_c (q : Fin 2) (u : Fin 8) (j : Fin 256) :
    (dat1 (F := Ideal) V c).arrAt 13 cfg1.N
        (ix2 (⟨q.val * 8 + u.val, by have := q.isLt; have := u.isLt; omega⟩ : Fin 16) j)
      = halfSum (fun r j => cellRaw (gates V c) (curry2 (aC V c)) r j * cellRaw (gates V c) (curry2 (aC V c)) r j) q j := by
  refine (congrFun ((dat1 V c).arrAt_eq_of_cover 13 (halfArr (cRawSq V c)) (flushed13_eq V c) cover13) _).trans ?_
  show halfSum (cRawSq V c) _ j = halfSum (cRawSq V c) q j
  congr 1
  apply Fin.ext
  show (q.val * 8 + u.val) / 8 = q.val
  have := u.isLt; omega

end Cert.KernelIdeal.Region1
end
-- ==== Proof.Region1.lean ====
import proofs.«101494_j46059229282552_2_alg».proof.Proof.Region1.Tiles
import proofs.«101494_j46059229282552_2_alg».proof.Proof.Region1.Acc

/-!
  The gates pass, read: for any contents V of the arrays on entry, with G the gate pre-activations of the whole
  batch (two projections, each scaled and shifted column by column, plus the bias) and C the old cell state,

    c_raw    output 10 holds σ(G₀)·C + σ(G₁)·tanh(G₃) at every row and column,
    o_gate   output 11 holds σ(G₂),
    sum_c    rows 8·q … 8·q + 7 of output 12 hold the column sums of the raw cell state over half q of the rows,
             added tile by tile,
    sumsq_c  and those of output 13 the column sums of its square,

  where G₀ … G₃ are the four blocks of 256 columns of G.  The first two are in Region1/Tiles.lean, the last two in
  Region1/Acc.lean; both rest on Region1/Pieces.lean (what a point leaves in its buffers), Region1/Payload.lean (the
  point's arithmetic entry by entry) and Region1/Blocks.lean (the point's blocks as parts of the batch's arrays).
-/
-- ==== Proof.Region2.lean ====
/-
  The finalize pass.  Each of its 32 grid points loads rows 1024·t … 1024·t + 1023 of the raw cell state and of the
  output gate, and the one row of scales and the one row of shifts; it stores, in the same rows, the normalised cell
  state c·s + b and the hidden state o·tanh(c·s + b).  The 32 blocks tile the two output arrays, so after the pass
  entry (r, j) of each is that expression of the entry arrays at (r, j) and of the two rows at column j.
-/
import proofs.«101494_j46059229282552_2_alg».proof.Proof.Gen.KernelIdeal.Frame
import proofs.«101494_j46059229282552_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx
open Cert.LstmBn

/-! ## The body's arithmetic at an entry -/

/-- The stored cell block at (p, q): the loaded block at (p, q) times the scale row at q plus the shift row at q. -/
theorem cellBlock_apply (x0 : Vec Ideal S1024x256 .f32) (x2 x3 : Vec Ideal S1x256 .f32) (p : Fin 1024) (q : Fin 256) :
    k2_pay1 x0 x2 x3 (ix2 p q) = x0 (ix2 p q) * x2 (ix2 (0 : Fin 1) q) + x3 (ix2 (0 : Fin 1) q) := by
  unfold k2_pay1
  rw [shapeCast_self, shapeCast_self, shapeCast_self]
  refine (addf_apply _ _ _).trans ?_
  refine congrArg₂ (· + ·) ((mulf_apply _ _ _).trans (congrArg₂ (· * ·) rfl ?_)) ?_
  · exact broadcastTo_1b_ab_apply x2 _ p q
  · exact broadcastTo_1b_ab_apply x3 _ p q

/-- The stored hidden block at (p, q): the gate block at (p, q) times tanh of the stored cell block there. -/
theorem hiddenBlock_apply (x0 : Vec Ideal S1024x256 .f32) (x2 x3 : Vec Ideal S1x256 .f32) (x1 : Vec Ideal S1024x256 .f32)
    (p : Fin 1024) (q : Fin 256) :
    k2_pay2 x0 x2 x3 x1 (ix2 p q)
      = x1 (ix2 p q) * Ideal.tanh (x0 (ix2 p q) * x2 (ix2 (0 : Fin 1) q) + x3 (ix2 (0 : Fin 1) q)) := by
  unfold k2_pay2
  rw [shapeCast_self]
  refine (mulf_apply _ _ _).trans (congrArg₂ (· * ·) rfl ?_)
  show Ideal.tanh (k2_pay1 x0 x2 x3 (ix2 p q)) = _
  rw [cellBlock_apply]

/-! ## From the blocks to the arrays -/

variable (V : (c : Dev nD) → (b : Ref sig .tc) → Buf (Elt Ideal) ((c : Thread nD τ).loc b))

theorem origin_zero : (![0, 0] : Fin 2 → Nat) = fun _ => 0 := funext fun a => by fin_cases a <;> rfl

/-- The column of an entry of a [32768, 256] array, as an index into a [1, 256] row. -/
def rowIdx (i : S32768x256.Idx) : S1x256.Idx := ix2 (0 : Fin 1) (⟨(i 1).val, idx2_lt1 i⟩ : Fin 256)

/-- The normalised cell state as one array: entry i is c(i)·s(column of i) + b(column of i). -/
def cellArr (C : S32768x256.Idx → EReal) (s b : S1x256.Idx → EReal) : S32768x256.Idx → EReal :=
  fun i => C i * s (rowIdx i) + b (rowIdx i)

/-- The hidden state as one array: entry i is o(i)·tanh of the normalised cell state at i. -/
def hiddenArr (C O : S32768x256.Idx → EReal) (s b : S1x256.Idx → EReal) : S32768x256.Idx → EReal :=
  fun i => O i * Ideal.tanh (C i * s (rowIdx i) + b (rowIdx i))

/-- The block index maps over the grid: the two matrix inputs and the second output move with the first output along
    the rows and sit at column block 0; the two rows always sit at block (0, 0); there are 32 row blocks. -/
theorem index_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0
    ∧ win2_5.index t (0 : Fin 2) = win2_4.index t (0 : Fin 2) ∧ win2_5.index t (1 : Fin 2) = 0
    ∧ win2_4.index t (0 : Fin 2) ≤ 31 :=
  (by decide +kernel : ∀ t : Fin grid2.N, _)

/-- Every one of the 32 row blocks is some point's, for both outputs. -/
theorem index_onto : ∀ q : Fin 32, ∃ t : Fin cfg2.N, win2_4.index t = ![q.val, 0] ∧ win2_5.index t = ![q.val, 0] :=
  (by decide +kernel : ∀ q : Fin 32, ∃ t : Fin grid2.N, win2_4.index t = ![q.val, 0] ∧ win2_5.index t = ![q.val, 0])

/-! A window's block at a point, read at x, is the array at (block index × block size + x) on each axis: one statement
    per window, over an arbitrary array G. -/

theorem read_win0 (G : S32768x256.Idx → EReal) (t : Fin cfg2.N) (x : S1024x256.Idx) (k : S32768x256.Idx)
    (hk0 : (k 0).val = win2_0.index t (0 : Fin 2) * 1024 + (x 0).val)
    (hk1 : (k 1).val = win2_0.index t (1 : Fin 2) * 256 + (x 1).val) :
    (((cfg2.win 0).blk t).view.read (Elt Ideal) G : Vec Ideal S1024x256 .f32) x = G k := by
  rw [View.read_apply]
  show G _ = _
  congr 1
  funext a
  apply Fin.ext
  match a with
  | ⟨0, _⟩ => show win2_0.index t (0 : Fin 2) * 1024 + 1 * (x 0).val = (k 0).val; omega
  | ⟨1, _⟩ => show win2_0.index t (1 : Fin 2) * 256 + 1 * (x 1).val = (k 1).val; omega

theorem read_win1 (G : S32768x256.Idx → EReal) (t : Fin cfg2.N) (x : S1024x256.Idx) (k : S32768x256.Idx)
    (hk0 : (k 0).val = win2_1.index t (0 : Fin 2) * 1024 + (x 0).val)
    (hk1 : (k 1).val = win2_1.index t (1 : Fin 2) * 256 + (x 1).val) :
    (((cfg2.win 1).blk t).view.read (Elt Ideal) G : Vec Ideal S1024x256 .f32) x = G k := by
  rw [View.read_apply]
  show G _ = _
  congr 1
  funext a
  apply Fin.ext
  match a with
  | ⟨0, _⟩ => show win2_1.index t (0 : Fin 2) * 1024 + 1 * (x 0).val = (k 0).val; omega
  | ⟨1, _⟩ => show win2_1.index t (1 : Fin 2) * 256 + 1 * (x 1).val = (k 1).val; omega

theorem read_win2 (G : S1x256.Idx → EReal) (t : Fin cfg2.N) (x : S1x256.Idx) (k : S1x256.Idx)
    (hk0 : (k 0).val = win2_2.index t (0 : Fin 2) * 1 + (x 0).val)
    (hk1 : (k 1).val = win2_2.index t (1 : Fin 2) * 256 + (x 1).val) :
    (((cfg2.win 2).blk t).view.read (Elt Ideal) G : Vec Ideal S1x256 .f32) x = G k := by
  rw [View.read_apply]
  show G _ = _
  congr 1
  funext a
  apply Fin.ext
  match a with
  | ⟨0, _⟩ => show win2_2.index t (0 : Fin 2) * 1 + 1 * (x 0).val = (k 0).val; omega
  | ⟨1, _⟩ => show win2_2.index t (1 : Fin 2) * 256 + 1 * (x 1).val = (k 1).val; omega

theorem read_win3 (G : S1x256.Idx → EReal) (t : Fin cfg2.N) (x : S1x256.Idx) (k : S1x256.Idx)
    (hk0 : (k 0).val = win2_3.index t (0 : Fin 2) * 1 + (x 0).val)
    (hk1 : (k 1).val = win2_3.index t (1 : Fin 2) * 256 + (x 1).val) :
    (((cfg2.win 3).blk t).view.read (Elt Ideal) G : Vec Ideal S1x256 .f32) x = G k := by
  rw [View.read_apply]
  show G _ = _
  congr 1
  funext a
  apply Fin.ext
  match a with
  | ⟨0, _⟩ => show win2_3.index t (0 : Fin 2) * 1 + 1 * (x 0).val = (k 0).val; omega
  | ⟨1, _⟩ => show win2_3.index t (1 : Fin 2) * 256 + 1 * (x 1).val = (k 1).val; omega

theorem read_win4 (G : S32768x256.Idx → EReal) (t : Fin cfg2.N) (x : S1024x256.Idx) (k : S32768x256.Idx)
    (hk0 : (k 0).val = win2_4.index t (0 : Fin 2) * 1024 + (x 0).val)
    (hk1 : (k 1).val = win2_4.index t (1 : Fin 2) * 256 + (x 1).val) :
    (((cfg2.win 4).blk t).view.read (Elt Ideal) G : Vec Ideal S1024x256 .f32) x = G k := by
  rw [View.read_apply]
  show G _ = _
  congr 1
  funext a
  apply Fin.ext
  match a with
  | ⟨0, _⟩ => show win2_4.index t (0 : Fin 2) * 1024 + 1 * (x 0).val = (k 0).val; omega
  | ⟨1, _⟩ => show win2_4.index t (1 : Fin 2) * 256 + 1 * (x 1).val = (k 1).val; omega

theorem read_win5 (G : S32768x256.Idx → EReal) (t : Fin cfg2.N) (x : S1024x256.Idx) (k : S32768x256.Idx)
    (hk0 : (k 0).val = win2_5.index t (0 : Fin 2) * 1024 + (x 0).val)
    (hk1 : (k 1).val = win2_5.index t (1 : Fin 2) * 256 + (x 1).val) :
    (((cfg2.win 5).blk t).view.read (Elt Ideal) G : Vec Ideal S1024x256 .f32) x = G k := by
  rw [View.read_apply]
  show G _ = _
  congr 1
  funext a
  apply Fin.ext
  match a with
  | ⟨0, _⟩ => show win2_5.index t (0 : Fin 2) * 1024 + 1 * (x 0).val = (k 0).val; omega
  | ⟨1, _⟩ => show win2_5.index t (1 : Fin 2) * 256 + 1 * (x 1).val = (k 1).val; omega

/-- What point t writes back to the cell-state output is block t of the normalised cell state array. -/
theorem cell_flushed (c : Dev nD) (t : Fin cfg2.N) :
    (dat2 (F := Ideal) V c).flushed 4 t = ((cfg2.win 4).blk t).view.read (Elt Ideal)
      (cellArr (V c (Pipeline.arrRef spec2 0)) (V c (Pipeline.arrRef spec2 2)) (V c (Pipeline.arrRef spec2 3))) := by
  show (cfg2.win 4).cut (grid2.coords t) ((dat2 V c).after 4 t) = _
  rw [after2_4]
  unfold out2_4
  rw [View.canon_unit_zero origin_zero]
  simp only [View.ld_unit_zero (S := S1024x256) origin_zero, View.ld_unit_zero (S := S1x256) origin_zero]
  unfold iblk2
  obtain ⟨e00, e01, e10, e11, e20, e21, e30, e31, e41, e50, e51, e4⟩ := index_facts t
  funext y
  obtain ⟨p, q, rfl⟩ : ∃ (p : Fin 1024) (q : Fin 256), y = ix2 p q := ⟨y 0, y 1, eq_ix2 y⟩
  have hp : p.val < 1024 := p.isLt
  have hq : q.val < 256 := q.isLt
  show k2_pay1 _ _ _ (ix2 p q) = _
  refine ((cellBlock_apply _ _ _ p q).trans ?_).trans
    (read_win4 _ t (ix2 p q) (ix2 (⟨win2_4.index t (0 : Fin 2) * 1024 + p.val, by omega⟩ : Fin 32768) q)
      (by show win2_4.index t (0 : Fin 2) * 1024 + p.val = win2_4.index t (0 : Fin 2) * 1024 + p.val; rfl)
      (by show q.val = win2_4.index t (1 : Fin 2) * 256 + q.val; omega)).symm
  unfold cellArr
  refine congrArg₂ (· + ·) (congrArg₂ (· * ·) (read_win0 _ t _ _ ?_ ?_) (read_win2 _ t _ _ ?_ ?_)) (read_win3 _ t _ _ ?_ ?_)
  · show win2_4.index t (0 : Fin 2) * 1024 + p.val = win2_0.index t (0 : Fin 2) * 1024 + p.val; omega
  · show q.val = win2_0.index t (1 : Fin 2) * 256 + q.val; omega
  · show 0 = win2_2.index t (0 : Fin 2) * 1 + 0; omega
  · show q.val = win2_2.index t (1 : Fin 2) * 256 + q.val; omega
  · show 0 = win2_3.index t (0 : Fin 2) * 1 + 0; omega
  · show q.val = win2_3.index t (1 : Fin 2) * 256 + q.val; omega

/-- What point t writes back to the hidden-state output is block t of the hidden state array. -/
theorem hidden_flushed (c : Dev nD) (t : Fin cfg2.N) :
    (dat2 (F := Ideal) V c).flushed 5 t = ((cfg2.win 5).blk t).view.read (Elt Ideal)
      (hiddenArr (V c (Pipeline.arrRef spec2 0)) (V c (Pipeline.arrRef spec2 1)) (V c (Pipeline.arrRef spec2 2))
        (V c (Pipeline.arrRef spec2 3))) := by
  show (cfg2.win 5).cut (grid2.coords t) ((dat2 V c).after 5 t) = _
  rw [after2_5]
  unfold out2_5
  rw [View.canon_unit_zero origin_zero]
  simp only [View.ld_unit_zero (S := S1024x256) origin_zero, View.ld_unit_zero (S := S1x256) origin_zero]
  unfold iblk2
  obtain ⟨e00, e01, e10, e11, e20, e21, e30, e31, e41, e50, e51, e4⟩ := index_facts t
  funext y
  obtain ⟨p, q, rfl⟩ : ∃ (p : Fin 1024) (q : Fin 256), y = ix2 p q := ⟨y 0, y 1, eq_ix2 y⟩
  have hp : p.val < 1024 := p.isLt
  have hq : q.val < 256 := q.isLt
  show k2_pay2 _ _ _ _ (ix2 p q) = _
  refine ((hiddenBlock_apply _ _ _ _ p q).trans ?_).trans
    (read_win5 _ t (ix2 p q) (ix2 (⟨win2_5.index t (0 : Fin 2) * 1024 + p.val, by omega⟩ : Fin 32768) q)
      (by show win2_5.index t (0 : Fin 2) * 1024 + p.val = win2_5.index t (0 : Fin 2) * 1024 + p.val; rfl)
      (by show q.val = win2_5.index t (1 : Fin 2) * 256 + q.val; omega)).symm
  unfold hiddenArr
  refine congrArg₂ (· * ·) (read_win1 _ t _ _ ?_ ?_) (congrArg Ideal.tanh
    (congrArg₂ (· + ·) (congrArg₂ (· * ·) (read_win0 _ t _ _ ?_ ?_) (read_win2 _ t _ _ ?_ ?_)) (read_win3 _ t _ _ ?_ ?_)))
  · show win2_5.index t (0 : Fin 2) * 1024 + p.val = win2_1.index t (0 : Fin 2) * 1024 + p.val; omega
  · show q.val = win2_1.index t (1 : Fin 2) * 256 + q.val; omega
  · show win2_5.index t (0 : Fin 2) * 1024 + p.val = win2_0.index t (0 : Fin 2) * 1024 + p.val; omega
  · show q.val = win2_0.index t (1 : Fin 2) * 256 + q.val; omega
  · show 0 = win2_2.index t (0 : Fin 2) * 1 + 0; omega
  · show q.val = win2_2.index t (1 : Fin 2) * 256 + q.val; omega
  · show 0 = win2_3.index t (0 : Fin 2) * 1 + 0; omega
  · show q.val = win2_3.index t (1 : Fin 2) * 256 + q.val; omega

/-- An entry is in point t's block of the cell-state output iff each coordinate is in the block's range on its axis. -/
theorem mem_cellBlock (t : Fin cfg2.N) (i : S32768x256.Idx) :
    i ∈ ((cfg2.win 4).blk t).view.set ↔ ∀ a : Fin 2, win2_4.index t a * S1024x256.size a ≤ (i a).val
      ∧ (i a).val < win2_4.index t a * S1024x256.size a + S1024x256.size a := by
  show i ∈ ((View.whole main_v67_0).slice (win2_4.rect t)).set ↔ _
  rw [View.set_slice_whole, Rect.mem_set_unit]
  exact Iff.rfl

/-- The same for the hidden-state output. -/
theorem mem_hiddenBlock (t : Fin cfg2.N) (i : S32768x256.Idx) :
    i ∈ ((cfg2.win 5).blk t).view.set ↔ ∀ a : Fin 2, win2_5.index t a * S1024x256.size a ≤ (i a).val
      ∧ (i a).val < win2_5.index t a * S1024x256.size a + S1024x256.size a := by
  show i ∈ ((View.whole main_v67_1).slice (win2_5.rect t)).set ↔ _
  rw [View.set_slice_whole, Rect.mem_set_unit]
  exact Iff.rfl

/-- Row r lies in the block of the point whose row block is r / 1024: the 32 blocks cover the cell-state output. -/
theorem cell_cover (i : S32768x256.Idx) :
    ∃ t : Fin cfg2.N, (cfg2.win 4).flush t = true ∧ i ∈ ((cfg2.win 4).blk t).view.set := by
  have hi0 : (i 0).val < 32768 := (i 0).isLt
  have hi1 : (i 1).val < 256 := (i 1).isLt
  obtain ⟨t, ht, -⟩ := index_onto ⟨(i 0).val / 1024, by omega⟩
  have q0 : win2_4.index t (0 : Fin 2) = (i 0).val / 1024 := congrFun ht 0
  have q1 : win2_4.index t (1 : Fin 2) = 0 := congrFun ht 1
  refine ⟨t, flush2_4 t, ?_⟩
  rw [mem_cellBlock]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 256 ≤ (i 1).val ∧ (i 1).val < win2_4.index t (1 : Fin 2) * 256 + 256; omega

/-- And they cover the hidden-state output. -/
theorem hidden_cover (i : S32768x256.Idx) :
    ∃ t : Fin cfg2.N, (cfg2.win 5).flush t = true ∧ i ∈ ((cfg2.win 5).blk t).view.set := by
  have hi0 : (i 0).val < 32768 := (i 0).isLt
  have hi1 : (i 1).val < 256 := (i 1).isLt
  obtain ⟨t, -, ht⟩ := index_onto ⟨(i 0).val / 1024, by omega⟩
  have q0 : win2_5.index t (0 : Fin 2) = (i 0).val / 1024 := congrFun ht 0
  have q1 : win2_5.index t (1 : Fin 2) = 0 := congrFun ht 1
  refine ⟨t, flush2_5 t, ?_⟩
  rw [mem_hiddenBlock]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 256 ≤ (i 1).val ∧ (i 1).val < win2_5.index t (1 : Fin 2) * 256 + 256; omega

/-- The cell-state output after the pass is the normalised cell state array of the entry contents. -/
theorem cell_final (c : Dev nD) :
    (dat2 (F := Ideal) V c).arrAt 4 cfg2.N
      = cellArr (V c (Pipeline.arrRef spec2 0)) (V c (Pipeline.arrRef spec2 2)) (V c (Pipeline.arrRef spec2 3)) :=
  (dat2 V c).arrAt_eq_of_cover 4 _ (fun t _ => cell_flushed V c t) cell_cover

/-- The hidden-state output after the pass is the hidden state array of the entry contents. -/
theorem hidden_final (c : Dev nD) :
    (dat2 (F := Ideal) V c).arrAt 5 cfg2.N
      = hiddenArr (V c (Pipeline.arrRef spec2 0)) (V c (Pipeline.arrRef spec2 1)) (V c (Pipeline.arrRef spec2 2))
          (V c (Pipeline.arrRef spec2 3)) :=
  (dat2 V c).arrAt_eq_of_cover 5 _ (fun t _ => hidden_flushed V c t) hidden_cover

/-! ## The two outputs, entry by entry -/

/-- The new cell state at (r, j): c(r, j)·s(j) + b(j). -/
theorem c_next (c : Dev nD) (r : Fin 32768) (j : Fin 256) :
    (Gen.dat2 (F := Ideal) V c).arrAt 4 cfg2.N (ix2 r j)
      = curry2 (V c (Pipeline.arrRef spec2 0) : S32768x256.Idx → EReal) r j
          * row1 (V c (Pipeline.arrRef spec2 2) : S1x256.Idx → EReal) j
        + row1 (V c (Pipeline.arrRef spec2 3) : S1x256.Idx → EReal) j := by
  rw [cell_final]
  rfl

/-- The new hidden state at (r, j): o(r, j)·tanh(c(r, j)·s(j) + b(j)). -/
theorem h_next (c : Dev nD) (r : Fin 32768) (j : Fin 256) :
    (Gen.dat2 (F := Ideal) V c).arrAt 5 cfg2.N (ix2 r j)
      = curry2 (V c (Pipeline.arrRef spec2 1) : S32768x256.Idx → EReal) r j
          * Ideal.tanh (curry2 (V c (Pipeline.arrRef spec2 0) : S32768x256.Idx → EReal) r j
              * row1 (V c (Pipeline.arrRef spec2 2) : S1x256.Idx → EReal) j
            + row1 (V c (Pipeline.arrRef spec2 3) : S1x256.Idx → EReal) j) := by
  rw [hidden_final]
  rfl

end Cert.KernelIdeal.Region2

end
-- ==== Proof.KValue2.lean ====
/-
  The tiled programme's value, second half: from the second pass to the two results.

  The second pass leaves the unnormalised new cell state σ(f)·c + σ(i)·tanh(g) of the specification's tiled gate
  pre-activations and the output gate σ(o), and on rows 0 and 8 of its two statistics arrays the halves' column sums
  of the cell state and of its square; the host stretch after it turns those into the cell state's scale and shift;
  the third pass scales and shifts the cell state and multiplies the output gate by the hyperbolic tangent of the
  result.  Entry by entry these are the specification's tiled new cell state and new hidden state.
-/
import proofs.«101494_j46059229282552_2_alg».proof.Proof.KValue1
import proofs.«101494_j46059229282552_2_alg».proof.Proof.Region1
import proofs.«101494_j46059229282552_2_alg».proof.Proof.Region2

set_option maxRecDepth 16384

noncomputable section

namespace Cert.KernelIdeal.KValue

open Cert.KernelIdeal Cert.KernelIdeal.Gen Cert.LstmBn
open Idealize.ShloMosaic Idealize.ShloMosaic.TcCoe Idealize.ShloMosaic.ValueIdx

variable (m : (ℓ : Loc nD τ sig) → Buf (Elt Ideal) ℓ) (ρ : Dev nD → PrngReg) (c : Dev nD)

/-- The second pass's gate pre-activations, as that pass's own reading spells them, are the specification's. -/
theorem gates_R1 : Region1.gates (V3 m ρ) c = GT m c := gates_V3 m ρ c

theorem cellIn_V3 : curry2 (Region1.aC (V3 m ρ) c) = aC m c := by
  funext r j
  show (V3 m ρ c main_arg1) (ix2 r j) = _
  rw [Chain.arg1_V3 m ρ c]
  rfl

/-- The unnormalised new cell state. -/
abbrev CR : Fin 32768 → Fin 256 → EReal := cellRaw (GT m c) (aC m c)

/-! ## What the second pass leaves -/

theorem d10_apply (r : Fin 32768) (j : Fin 256) : (dat1 (F := Ideal) (V3 m ρ) c).arrAt 10 cfg1.N (ix2 r j) = CR m c r j := by
  have h := Region1.c_raw (V3 m ρ) c r j
  rw [gates_R1, cellIn_V3] at h; exact h

theorem d11_apply (r : Fin 32768) (j : Fin 256) : (dat1 (F := Ideal) (V3 m ρ) c).arrAt 11 cfg1.N (ix2 r j) = outGate (GT m c) r j := by
  have h := Region1.o_gate (V3 m ρ) c r j
  rw [gates_R1] at h; exact h

theorem d12_row0 (j : Fin 256) : (dat1 (F := Ideal) (V3 m ρ) c).arrAt 12 cfg1.N (ix2 (0 : Fin 16) j) = halfSum (CR m c) 0 j := by
  have h := Region1.sum_c (V3 m ρ) c 0 0 j
  rw [gates_R1, cellIn_V3] at h; exact h
theorem d12_row8 (j : Fin 256) : (dat1 (F := Ideal) (V3 m ρ) c).arrAt 12 cfg1.N (ix2 (8 : Fin 16) j) = halfSum (CR m c) 1 j := by
  have h := Region1.sum_c (V3 m ρ) c 1 0 j
  rw [gates_R1, cellIn_V3] at h; exact h
theorem d13_row0 (j : Fin 256) : (dat1 (F := Ideal) (V3 m ρ) c).arrAt 13 cfg1.N (ix2 (0 : Fin 16) j) = halfSum (fun r j => CR m c r j * CR m c r j) 0 j := by
  have h := Region1.sumsq_c (V3 m ρ) c 0 0 j
  rw [gates_R1, cellIn_V3] at h; exact h
theorem d13_row8 (j : Fin 256) : (dat1 (F := Ideal) (V3 m ρ) c).arrAt 13 cfg1.N (ix2 (8 : Fin 16) j) = halfSum (fun r j => CR m c r j * CR m c r j) 1 j := by
  have h := Region1.sumsq_c (V3 m ρ) c 1 0 j
  rw [gates_R1, cellIn_V3] at h; exact h

/-! ## What the third pass reads -/

theorem scaleC_V5 : row1 (V5 m ρ c main_v64) = scaleT (CR m c) (aGc m c) := by
  funext j
  show V5 m ρ c main_v64 (ix2 (0 : Fin 1) j) = _
  rw [Chain.v64_V5 m ρ c j]
  exact Stats.scale_eq (CR m c) (aGc m c) j _ _ (d12_row0 m ρ c j) (d12_row8 m ρ c j) (d13_row0 m ρ c j) (d13_row8 m ρ c j) _ rfl

theorem shiftC_V5 : row1 (V5 m ρ c main_v66) = shiftT (CR m c) (aGc m c) (aBc m c) := by
  funext j
  show V5 m ρ c main_v66 (ix2 (0 : Fin 1) j) = _
  rw [Chain.v66_V5 m ρ c j]
  exact Stats.shift_eq (CR m c) (aGc m c) (aBc m c) j _ _ (d12_row0 m ρ c j) (d12_row8 m ρ c j) (d13_row0 m ρ c j) (d13_row8 m ρ c j) _ _ rfl rfl

theorem cellRaw_V5 : curry2 (V5 m ρ c main_v48_0) = CR m c := by
  funext r j
  show (V5 m ρ c main_v48_0) (ix2 r j) = _
  rw [Chain.v48_0_V5 m ρ c]
  exact d10_apply m ρ c r j

theorem outGate_V5 : curry2 (V5 m ρ c main_v48_1) = outGate (GT m c) := by
  funext r j
  show (V5 m ρ c main_v48_1) (ix2 r j) = _
  rw [Chain.v48_1_V5 m ρ c]
  exact d11_apply m ρ c r j

/-! ## The two results -/

/-- The first result array is the tiled new cell state. -/
theorem cnext_apply (r : Fin 32768) (j : Fin 256) :
    W6 m ρ c (Proc.devRef .tc main_v67_0) (ix2 r j)
      = cNextT (aX m c) (aC m c) (aH m c) (aWih m c) (aWhh m c) (aB m c) (aGih m c) (aBih m c) (aGhh m c) (aBhh m c) (aGc m c) (aBc m c) r j := by
  rw [Chain.v67_0_W6 m ρ c]
  refine (Region2.c_next (V5 m ρ) c r j).trans ?_
  show curry2 (V5 m ρ c main_v48_0) r j * row1 (V5 m ρ c main_v64) j + row1 (V5 m ρ c main_v66) j = _
  rw [cellRaw_V5, scaleC_V5, shiftC_V5]
  rfl

/-- The second result array is the tiled new hidden state. -/
theorem hnext_apply (r : Fin 32768) (j : Fin 256) :
    W6 m ρ c (Proc.devRef .tc main_v67_1) (ix2 r j)
      = hNextT (aX m c) (aC m c) (aH m c) (aWih m c) (aWhh m c) (aB m c) (aGih m c) (aBih m c) (aGhh m c) (aBhh m c) (aGc m c) (aBc m c) r j := by
  rw [Chain.v67_1_W6 m ρ c]
  refine (Region2.h_next (V5 m ρ) c r j).trans ?_
  show curry2 (V5 m ρ c main_v48_1) r j * Ideal.tanh (curry2 (V5 m ρ c main_v48_0) r j * row1 (V5 m ρ c main_v64) j + row1 (V5 m ρ c main_v66) j) = _
  rw [cellRaw_V5, outGate_V5, scaleC_V5, shiftC_V5]
  rfl

end Cert.KernelIdeal.KValue

end
-- ==== Proof.RefStages.lean ====
/-
  The reference program's mathematics, stage by stage.  One named definition per stage: the products x·W_ihᵀ and
  h·W_hhᵀ, the column mean and variance, the normalisation (v − mean)·(γ/√(var + ε)) + β, the gates' sum, the four
  column blocks with their activations, the cell update f·c + i·g and its normalisation, and the hidden state
  o·tanh(c_next).
-/
import proofs.«101494_j46059229282552_2_alg».proof.Proof.Gen.ReferenceIdeal

noncomputable section

namespace Cert.ReferenceIdeal.RefRun

open Cert.ReferenceIdeal Cert.ReferenceIdeal.Facts₀ Idealize.ShloMosaic

variable {F : FTy → Type} [FloatOps F]

/-! ## The stages

Each definition is the literal composition of the operations the program prints for that stage, with the
program's stated facts as the operations' evidence. -/

/-- The product `a · wᵀ`: the weight transposed, then contracted with `a` along the shared axis. -/
def matT (a : FVec F S32768x256 .f32) (w : FVec F S1024x256 .f32) : FVec F S32768x1024 .f32 :=
  Host.dotGeneral dot_S32768x256_S256x1024_S32768x1024_1_0_0_1_n_n none a
    (transpose S256x1024 [1, 0] w transposes_S1024x256_S256x1024_1_0)

/-- A row of 1024 repeated down the 32768 rows. -/
def rows4 (u : FVec F S1024 .f32) : FVec F S32768x1024 .f32 :=
  broadcastInDim S32768x1024 ![0, 1] bcast_S1x1024_S32768x1024_0_1 (broadcastInDim S1x1024 ![1] bcast_S1024_S1x1024_1 u)

/-- The mean of each of the 1024 columns: the column sums divided by the row count 32768. -/
def colMean4 (v : FVec F S32768x1024 .f32) : FVec F S1024 .f32 :=
  Host.divf (Host.reduceAdd v (constant S_ .f32 0x00000000#32) reducesTo_S32768x1024_S1024_d0 h_S_)
    (broadcastInDim S1024 ![] bcast_S_S1024 (constant S_ .f32 0x47000000#32))

/-- The variance's divisor: the row count 32768 minus the correction, the integer zero converted. -/
def varCount : FVec F S_ .f32 :=
  subf (constant S_ .f32 0x47000000#32) (sitofp .f32 (constantI S_ 32 0#32))

/-- Each entry less its column's mean, the mean formed on a unit leading axis and repeated down the rows. -/
def centred4 (v : FVec F S32768x1024 .f32) : FVec F S32768x1024 .f32 :=
  subf v (broadcastInDim S32768x1024 ![0, 1] bcast_S1x1024_S32768x1024_0_1
    (Host.divf
      (broadcastInDim S1x1024 ![1] bcast_S1024_S1x1024_1
        (Host.reduceAdd v (constant S_ .f32 0x00000000#32) reducesTo_S32768x1024_S1024_d0 h_S_))
      (broadcastInDim S1x1024 ![] bcast_S_S1x1024 (constant S_ .f32 0x47000000#32))))

/-- The variance of each of the 1024 columns: the column sums of the squared centred entries over the divisor,
    selected where the divisor is positive, the fill value elsewhere. -/
def colVar4 (v : FVec F S32768x1024 .f32) : FVec F S1024 .f32 :=
  select (broadcastInDim S1024 ![] bcast_S_S1024 (cmpf .ogt (varCount (F := F)) (constant S_ .f32 0x00000000#32)))
    (Host.divf
      (Host.reduceAdd (mulf (centred4 v) (centred4 v)) (constant S_ .f32 0x00000000#32) reducesTo_S32768x1024_S1024_d0 h_S_)
      (broadcastInDim S1024 ![] bcast_S_S1024 (varCount (F := F))))
    (broadcastInDim S1024 ![] bcast_S_S1024 (id (constant S_ .f32 0x7FC00000#32)))

/-- The normalisation `(v − mean) · (γ / √(var + ε)) + β`, column by column. -/
def norm4 (v : FVec F S32768x1024 .f32) (γ β : FVec F S1024 .f32) : FVec F S32768x1024 .f32 :=
  addf
    (mulf (subf v (rows4 (colMean4 v)))
      (rows4 (Host.divf γ (Host.sqrt (addf (colVar4 v) (broadcastInDim S1024 ![] bcast_S_S1024 (constant S_ .f32 0x3727C5AC#32)))))))
    (rows4 β)

/-- The four gates before activation: the two normalised products and the bias. -/
def gates (x h : FVec F S32768x256 .f32) (wih whh : FVec F S1024x256 .f32) (b gih bih ghh bhh : FVec F S1024 .f32) :
    FVec F S32768x1024 .f32 :=
  addf (addf (norm4 (matT x wih) gih bih) (norm4 (matT h whh) ghh bhh)) (rows4 b)

/-- The constant one at every entry. -/
def ones : FVec F S32768x256 .f32 :=
  broadcastInDim S32768x256 ![] bcast_S_S32768x256 (constant S_ .f32 0x3F800000#32)

/-- The logistic function spelt `1 / (1 + exp (−u))`. -/
def logistic (u : FVec F S32768x256 .f32) : FVec F S32768x256 .f32 :=
  Host.divf (ones (F := F)) (addf (ones (F := F)) (Host.exp (Host.negf u)))

/-- Columns 0 … 255 of the gates through the logistic: the forget gate. -/
def fGate (g : FVec F S32768x1024 .f32) : FVec F S32768x256 .f32 :=
  logistic (extractStridedSlice S32768x256 ![0, 0] g slices_S32768x1024_S32768x256_0_0)
/-- Columns 256 … 511 through the logistic: the input gate. -/
def iGate (g : FVec F S32768x1024 .f32) : FVec F S32768x256 .f32 :=
  logistic (extractStridedSlice S32768x256 ![0, 256] g slices_S32768x1024_S32768x256_0_256)
/-- Columns 512 … 767 through the logistic: the output gate. -/
def oGate (g : FVec F S32768x1024 .f32) : FVec F S32768x256 .f32 :=
  logistic (extractStridedSlice S32768x256 ![0, 512] g slices_S32768x1024_S32768x256_0_512)
/-- Columns 768 … 1023 through the hyperbolic tangent: the candidate. -/
def gCand (g : FVec F S32768x1024 .f32) : FVec F S32768x256 .f32 :=
  Host.tanh (extractStridedSlice S32768x256 ![0, 768] g slices_S32768x1024_S32768x256_0_768)

/-- The cell update `f · c + i · g`. -/
def cellPre (g : FVec F S32768x1024 .f32) (c : FVec F S32768x256 .f32) : FVec F S32768x256 .f32 :=
  addf (mulf (fGate g) c) (mulf (iGate g) (gCand g))

/-- A row of 256 repeated down the 32768 rows. -/
def rows1 (u : FVec F S256 .f32) : FVec F S32768x256 .f32 :=
  broadcastInDim S32768x256 ![0, 1] bcast_S1x256_S32768x256_0_1 (broadcastInDim S1x256 ![1] bcast_S256_S1x256_1 u)

/-- The mean of each of the 256 columns. -/
def colMean1 (v : FVec F S32768x256 .f32) : FVec F S256 .f32 :=
  Host.divf (Host.reduceAdd v (constant S_ .f32 0x00000000#32) reducesTo_S32768x256_S256_d0 h_S_)
    (broadcastInDim S256 ![] bcast_S_S256 (constant S_ .f32 0x47000000#32))

/-- Each entry less its column's mean, for 256 columns. -/
def centred1 (v : FVec F S32768x256 .f32) : FVec F S32768x256 .f32 :=
  subf v (broadcastInDim S32768x256 ![0, 1] bcast_S1x256_S32768x256_0_1
    (Host.divf
      (broadcastInDim S1x256 ![1] bcast_S256_S1x256_1
        (Host.reduceAdd v (constant S_ .f32 0x00000000#32) reducesTo_S32768x256_S256_d0 h_S_))
      (broadcastInDim S1x256 ![] bcast_S_S1x256 (constant S_ .f32 0x47000000#32))))

/-- The variance of each of the 256 columns. -/
def colVar1 (v : FVec F S32768x256 .f32) : FVec F S256 .f32 :=
  select (broadcastInDim S256 ![] bcast_S_S256 (cmpf .ogt (varCount (F := F)) (constant S_ .f32 0x00000000#32)))
    (Host.divf
      (Host.reduceAdd (mulf (centred1 v) (centred1 v)) (constant S_ .f32 0x00000000#32) reducesTo_S32768x256_S256_d0 h_S_)
      (broadcastInDim S256 ![] bcast_S_S256 (varCount (F := F))))
    (broadcastInDim S256 ![] bcast_S_S256 (id (constant S_ .f32 0x7FC00000#32)))

/-- The normalisation for 256 columns. -/
def norm1 (v : FVec F S32768x256 .f32) (γ β : FVec F S256 .f32) : FVec F S32768x256 .f32 :=
  addf
    (mulf (subf v (rows1 (colMean1 v)))
      (rows1 (Host.divf γ (Host.sqrt (addf (colVar1 v) (broadcastInDim S256 ![] bcast_S_S256 (constant S_ .f32 0x3727C5AC#32)))))))
    (rows1 β)

/-- The next cell state: the cell update, normalised. -/
def cNext (x c h : FVec F S32768x256 .f32) (wih whh : FVec F S1024x256 .f32) (b gih bih ghh bhh : FVec F S1024 .f32)
    (gc bc : FVec F S256 .f32) : FVec F S32768x256 .f32 :=
  norm1 (cellPre (gates x h wih whh b gih bih ghh bhh) c) gc bc

/-- The next hidden state: the output gate times the hyperbolic tangent of the next cell state. -/
def hNext (x c h : FVec F S32768x256 .f32) (wih whh : FVec F S1024x256 .f32) (b gih bih ghh bhh : FVec F S1024 .f32)
    (gc bc : FVec F S256 .f32) : FVec F S32768x256 .f32 :=
  mulf (oGate (gates x h wih whh b gih bih ghh bhh)) (Host.tanh (cNext x c h wih whh b gih bih ghh bhh gc bc))

end Cert.ReferenceIdeal.RefRun

end
-- ==== Proof.RefRun.lean ====
/-
  The reference program's run, read back.  @main is a straight line of host operations once each call of the column
  variance (and, inside it, of the select) is replaced by the callee's operations over that call's buffers.  The line
  is listed in two windows, as @main is printed; its run leaves each result buffer at the operations' composed value of
  the arguments' launch contents — the next cell state and the next hidden state, stated over the stage definitions —
  and every argument unchanged.
-/
import proofs.«101494_j46059229282552_2_alg».proof.Proof.RefStages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The first sixty statements of @main as host operations, each call replaced by its callee's operations over the call's buffers. -/
abbrev ops0 : List (HloOp τ sig (Elt F)) :=
  [ StableHlo.unary main_arg3 main_v0 ((transpose S256x1024 [1, 0] · transposes_S1024x256_S256x1024_1_0) : (⟨S1024x256, .f32⟩ : BufTy).Contents (Elt F) → (⟨S256x1024, .f32⟩ : BufTy).Contents (Elt F)),
    StableHlo.binary main_arg0 main_v0 main_v1 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.unary main_arg4 main_v2 ((transpose S256x1024 [1, 0] · transposes_S1024x256_S256x1024_1_0) : (⟨S1024x256, .f32⟩ : BufTy).Contents (Elt F) → (⟨S256x1024, .f32⟩ : BufTy).Contents (Elt F)),
    StableHlo.binary main_arg2 main_v2 main_v3 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.nullary main_cst (constant S_ .f32 0x00000000#32),
    StableHlo.binary main_v1 main_cst main_v4 ((fun x v => Host.reduceAdd x v reducesTo_S32768x1024_S1024_d0 h_S_) : (⟨S32768x1024, .f32⟩ : BufTy).Contents (Elt F) → (⟨S_, .f32⟩ : BufTy).Contents (Elt F) → (⟨S1024, .f32⟩ : BufTy).Contents (Elt F)),
    StableHlo.nullary main_cst_0 (constant S_ .f32 0x47000000#32),
    StableHlo.unary main_cst_0 main_v5 (broadcastInDim S1024 ![] bcast_S_S1024 : (⟨S_, .f32⟩ : BufTy).Contents (Elt F) → (⟨S1024, .f32⟩ : BufTy).Contents (Elt F)),
    StableHlo.binary main_v4 main_v5 main_v6 (Host.divf : (⟨S1024, .f32⟩ : BufTy).Contents (Elt F) → (⟨S1024, .f32⟩ : BufTy).Contents (Elt F) → (⟨S1024, .f32⟩ : BufTy).Contents (Elt F)),
    StableHlo.nullary main_c (constantI S_ 32 0#32),
    StableHlo.TRef.nullary main_call0.cst (constant S_ .f32 0x00000000#32),
    StableHlo.TRef.binary (.of main_v1) main_call0.cst main_call0.v0 (fun x v => Host.reduceAdd x v reducesTo_S32768x1024_S1024_d0 h_S_),
    StableHlo.TRef.unary main_call0.v0 main_call0.v1 (broadcastInDim S1x1024 ![1] bcast_S1024_S1x1024_1),
    StableHlo.TRef.nullary main_call0.cst_0 (constant S_ .f32 0x47000000#32),
    StableHlo.TRef.unary main_call0.cst_0 main_call0.v2 (broadcastInDim S1x1024 ![] bcast_S_S1x1024),
    StableHlo.TRef.binary main_call0.v1 main_call0.v2 main_call0.v3 Host.divf,
    StableHlo.TRef.unary main_call0.v3 main_call0.v4 (broadcastInDim S32768x1024 ![0, 1] bcast_S1x1024_S32768x1024_0_1),
    StableHlo.TRef.binary (.of main_v1) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32768x1024_S1024_d0 h_S_),
    StableHlo.TRef.unary main_call0.v8 main_call0.v10 (broadcastInDim S1024 ![] bcast_S_S1024),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1024 ![] bcast_S_S1024),
    StableHlo.TRef.ternary main_call0.v12 main_call0.v11 main_call0.call0.v1 main_call0.call0.v2 (fun p a b => select (broadcastInDim S1024 ![] bcast_S_S1024 p) a b),
    StableHlo.unary main_v6 main_v8 (broadcastInDim S1x1024 ![1] bcast_S1024_S1x1024_1 : (⟨S1024, .f32⟩ : BufTy).Contents (Elt F) → (⟨S1x1024, .f32⟩ : BufTy).Contents (Elt F)),
    StableHlo.unary main_v8 main_v9 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v1 main_v9 main_v10 (subf : (⟨S32768x1024, .f32⟩ : BufTy).Contents (Elt F) → (⟨S32768x1024, .f32⟩ : BufTy).Contents (Elt F) → (⟨S32768x1024, .f32⟩ : BufTy).Contents (Elt F)),
    StableHlo.nullary main_cst_1 (constant S_ .f32 0x3727C5AC#32),
    StableHlo.unary main_cst_1 main_v11 (broadcastInDim S1024 ![] bcast_S_S1024 : (⟨S_, .f32⟩ : BufTy).Contents (Elt F) → (⟨S1024, .f32⟩ : BufTy).Contents (Elt F)),
    StableHlo.binary main_v7 main_v11 main_v12 (addf : (⟨S1024, .f32⟩ : BufTy).Contents (Elt F) → (⟨S1024, .f32⟩ : BufTy).Contents (Elt F) → (⟨S1024, .f32⟩ : BufTy).Contents (Elt F)),
    StableHlo.unary main_v12 main_v13 (Host.sqrt : (⟨S1024, .f32⟩ : BufTy).Contents (Elt F) → (⟨S1024, .f32⟩ : BufTy).Contents (Elt F)),
    StableHlo.binary main_arg6 main_v13 main_v14 (Host.divf : (⟨S1024, .f32⟩ : BufTy).Contents (Elt F) → (⟨S1024, .f32⟩ : BufTy).Contents (Elt F) → (⟨S1024, .f32⟩ : BufTy).Contents (Elt F)),
    StableHlo.unary main_v14 main_v15 (broadcastInDim S1x1024 ![1] bcast_S1024_S1x1024_1 : (⟨S1024, .f32⟩ : BufTy).Contents (Elt F) → (⟨S1x1024, .f32⟩ : BufTy).Contents (Elt F)),
    StableHlo.unary main_v15 main_v16 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v10 main_v16 main_v17 (mulf : (⟨S32768x1024, .f32⟩ : BufTy).Contents (Elt F) → (⟨S32768x1024, .f32⟩ : BufTy).Contents (Elt F) → (⟨S32768x1024, .f32⟩ : BufTy).Contents (Elt F)),
    StableHlo.unary main_arg7 main_v18 (broadcastInDim S1x1024 ![1] bcast_S1024_S1x1024_1 : (⟨S1024, .f32⟩ : BufTy).Contents (Elt F) → (⟨S1x1024, .f32⟩ : BufTy).Contents (Elt F)),
    StableHlo.unary main_v18 main_v19 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v17 main_v19 main_v20 (addf : (⟨S32768x1024, .f32⟩ : BufTy).Contents (Elt F) → (⟨S32768x1024, .f32⟩ : BufTy).Contents (Elt F) → (⟨S32768x1024, .f32⟩ : BufTy).Contents (Elt F)),
    StableHlo.nullary main_cst_2 (constant S_ .f32 0x00000000#32),
    StableHlo.binary main_v3 main_cst_2 main_v21 ((fun x v => Host.reduceAdd x v reducesTo_S32768x1024_S1024_d0 h_S_) : (⟨S32768x1024, .f32⟩ : BufTy).Contents (Elt F) → (⟨S_, .f32⟩ : BufTy).Contents (Elt F) → (⟨S1024, .f32⟩ : BufTy).Contents (Elt F)),
    StableHlo.nullary main_cst_3 (constant S_ .f32 0x47000000#32),
    StableHlo.unary main_cst_3 main_v22 (broadcastInDim S1024 ![] bcast_S_S1024 : (⟨S_, .f32⟩ : BufTy).Contents (Elt F) → (⟨S1024, .f32⟩ : BufTy).Contents (Elt F)),
    StableHlo.binary main_v21 main_v22 main_v23 (Host.divf : (⟨S1024, .f32⟩ : BufTy).Contents (Elt F) → (⟨S1024, .f32⟩ : BufTy).Contents (Elt F) → (⟨S1024, .f32⟩ : BufTy).Contents (Elt F)),
    StableHlo.nullary main_c_4 (constantI S_ 32 0#32),
    StableHlo.TRef.nullary main_call1.cst (constant S_ .f32 0x00000000#32),
    StableHlo.TRef.binary (.of main_v3) main_call1.cst main_call1.v0 (fun x v => Host.reduceAdd x v reducesTo_S32768x1024_S1024_d0 h_S_),
    StableHlo.TRef.unary main_call1.v0 main_call1.v1 (broadcastInDim S1x1024 ![1] bcast_S1024_S1x1024_1),
    StableHlo.TRef.nullary main_call1.cst_0 (constant S_ .f32 0x47000000#32),
    StableHlo.TRef.unary main_call1.cst_0 main_call1.v2 (broadcastInDim S1x1024 ![] bcast_S_S1x1024),
    StableHlo.TRef.binary main_call1.v1 main_call1.v2 main_call1.v3 Host.divf,
    StableHlo.TRef.unary main_call1.v3 main_call1.v4 (broadcastInDim S32768x1024 ![0, 1] bcast_S1x1024_S32768x1024_0_1),
    StableHlo.TRef.binary (.of main_v3) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x47000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S32768x1024_S1024_d0 h_S_),
    StableHlo.TRef.unary main_call1.v8 main_call1.v10 (broadcastInDim S1024 ![] bcast_S_S1024),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1024 ![] bcast_S_S1024),
    StableHlo.TRef.ternary main_call1.v12 main_call1.v11 main_call1.call0.v1 main_call1.call0.v2 (fun p a b => select (broadcastInDim S1024 ![] bcast_S_S1024 p) a b),
    StableHlo.unary main_v23 main_v25 (broadcastInDim S1x1024 ![1] bcast_S1024_S1x1024_1 : (⟨S1024, .f32⟩ : BufTy).Contents (Elt F) → (⟨S1x1024, .f32⟩ : BufTy).Contents (Elt F)),
    StableHlo.unary main_v25 main_v26 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v3 main_v26 main_v27 (subf : (⟨S32768x1024, .f32⟩ : BufTy).Contents (Elt F) → (⟨S32768x1024, .f32⟩ : BufTy).Contents (Elt F) → (⟨S32768x1024, .f32⟩ : BufTy).Contents (Elt F)),
    StableHlo.nullary main_cst_5 (constant S_ .f32 0x3727C5AC#32),
    StableHlo.unary main_cst_5 main_v28 (broadcastInDim S1024 ![] bcast_S_S1024 : (⟨S_, .f32⟩ : BufTy).Contents (Elt F) → (⟨S1024, .f32⟩ : BufTy).Contents (Elt F)),
    StableHlo.binary main_v24 main_v28 main_v29 (addf : (⟨S1024, .f32⟩ : BufTy).Contents (Elt F) → (⟨S1024, .f32⟩ : BufTy).Contents (Elt F) → (⟨S1024, .f32⟩ : BufTy).Contents (Elt F)),
    StableHlo.unary main_v29 main_v30 (Host.sqrt : (⟨S1024, .f32⟩ : BufTy).Contents (Elt F) → (⟨S1024, .f32⟩ : BufTy).Contents (Elt F)),
    StableHlo.binary main_arg8 main_v30 main_v31 (Host.divf : (⟨S1024, .f32⟩ : BufTy).Contents (Elt F) → (⟨S1024, .f32⟩ : BufTy).Contents (Elt F) → (⟨S1024, .f32⟩ : BufTy).Contents (Elt F)),
    StableHlo.unary main_v31 main_v32 (broadcastInDim S1x1024 ![1] bcast_S1024_S1x1024_1 : (⟨S1024, .f32⟩ : BufTy).Contents (Elt F) → (⟨S1x1024, .f32⟩ : BufTy).Contents (Elt F)),
    StableHlo.unary main_v32 main_v33 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v27 main_v33 main_v34 (mulf : (⟨S32768x1024, .f32⟩ : BufTy).Contents (Elt F) → (⟨S32768x1024, .f32⟩ : BufTy).Contents (Elt F) → (⟨S32768x1024, .f32⟩ : BufTy).Contents (Elt F)),
    StableHlo.unary main_arg9 main_v35 (broadcastInDim S1x1024 ![1] bcast_S1024_S1x1024_1 : (⟨S1024, .f32⟩ : BufTy).Contents (Elt F) → (⟨S1x1024, .f32⟩ : BufTy).Contents (Elt F)),
    StableHlo.unary main_v35 main_v36 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v34 main_v36 main_v37 (addf : (⟨S32768x1024, .f32⟩ : BufTy).Contents (Elt F) → (⟨S32768x1024, .f32⟩ : BufTy).Contents (Elt F) → (⟨S32768x1024, .f32⟩ : BufTy).Contents (Elt F)),
    StableHlo.binary main_v20 main_v37 main_v38 (addf : (⟨S32768x1024, .f32⟩ : BufTy).Contents (Elt F) → (⟨S32768x1024, .f32⟩ : BufTy).Contents (Elt F) → (⟨S32768x1024, .f32⟩ : BufTy).Contents (Elt F)),
    StableHlo.unary main_arg5 main_v39 (broadcastInDim S1x1024 ![1] bcast_S1024_S1x1024_1 : (⟨S1024, .f32⟩ : BufTy).Contents (Elt F) → (⟨S1x1024, .f32⟩ : BufTy).Contents (Elt F)),
    StableHlo.unary main_v39 main_v40 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v38 main_v40 main_v41 (addf : (⟨S32768x1024, .f32⟩ : BufTy).Contents (Elt F) → (⟨S32768x1024, .f32⟩ : BufTy).Contents (Elt F) → (⟨S32768x1024, .f32⟩ : BufTy).Contents (Elt F)),
    StableHlo.unary main_v41 main_v42 ((extractStridedSlice S32768x256 ![0, 0] · slices_S32768x1024_S32768x256_0_0) : (⟨S32768x1024, .f32⟩ : BufTy).Contents (Elt F) → (⟨S32768x256, .f32⟩ : BufTy).Contents (Elt F)),
    StableHlo.unary main_v41 main_v43 ((extractStridedSlice S32768x256 ![0, 256] · slices_S32768x1024_S32768x256_0_256) : (⟨S32768x1024, .f32⟩ : BufTy).Contents (Elt F) → (⟨S32768x256, .f32⟩ : BufTy).Contents (Elt F)),
    StableHlo.unary main_v41 main_v44 ((extractStridedSlice S32768x256 ![0, 512] · slices_S32768x1024_S32768x256_0_512) : (⟨S32768x1024, .f32⟩ : BufTy).Contents (Elt F) → (⟨S32768x256, .f32⟩ : BufTy).Contents (Elt F)),
    StableHlo.unary main_v41 main_v45 ((extractStridedSlice S32768x256 ![0, 768] · slices_S32768x1024_S32768x256_0_768) : (⟨S32768x1024, .f32⟩ : BufTy).Contents (Elt F) → (⟨S32768x256, .f32⟩ : BufTy).Contents (Elt F)),
    StableHlo.unary main_v42 main_v46 (Host.negf : (⟨S32768x256, .f32⟩ : BufTy).Contents (Elt F) → (⟨S32768x256, .f32⟩ : BufTy).Contents (Elt F)),
    StableHlo.unary main_v46 main_v47 (Host.exp : (⟨S32768x256, .f32⟩ : BufTy).Contents (Elt F) → (⟨S32768x256, .f32⟩ : BufTy).Contents (Elt F)),
    StableHlo.nullary main_cst_6 (constant S_ .f32 0x3F800000#32),
    StableHlo.unary main_cst_6 main_v48 (broadcastInDim S32768x256 ![] bcast_S_S32768x256 : (⟨S_, .f32⟩ : BufTy).Contents (Elt F) → (⟨S32768x256, .f32⟩ : BufTy).Contents (Elt F)),
    StableHlo.binary main_v48 main_v47 main_v49 (addf : (⟨S32768x256, .f32⟩ : BufTy).Contents (Elt F) → (⟨S32768x256, .f32⟩ : BufTy).Contents (Elt F) → (⟨S32768x256, .f32⟩ : BufTy).Contents (Elt F)),
    StableHlo.nullary main_cst_7 (constant S_ .f32 0x3F800000#32) ]

/-- The remaining statements of @main, likewise. -/
abbrev ops1 : List (HloOp τ sig (Elt F)) :=
  [ StableHlo.unary main_cst_7 main_v50 (broadcastInDim S32768x256 ![] bcast_S_S32768x256 : (⟨S_, .f32⟩ : BufTy).Contents (Elt F) → (⟨S32768x256, .f32⟩ : BufTy).Contents (Elt F)),
    StableHlo.binary main_v50 main_v49 main_v51 (Host.divf : (⟨S32768x256, .f32⟩ : BufTy).Contents (Elt F) → (⟨S32768x256, .f32⟩ : BufTy).Contents (Elt F) → (⟨S32768x256, .f32⟩ : BufTy).Contents (Elt F)),
    StableHlo.unary main_v43 main_v52 (Host.negf : (⟨S32768x256, .f32⟩ : BufTy).Contents (Elt F) → (⟨S32768x256, .f32⟩ : BufTy).Contents (Elt F)),
    StableHlo.unary main_v52 main_v53 (Host.exp : (⟨S32768x256, .f32⟩ : BufTy).Contents (Elt F) → (⟨S32768x256, .f32⟩ : BufTy).Contents (Elt F)),
    StableHlo.nullary main_cst_8 (constant S_ .f32 0x3F800000#32),
    StableHlo.unary main_cst_8 main_v54 (broadcastInDim S32768x256 ![] bcast_S_S32768x256 : (⟨S_, .f32⟩ : BufTy).Contents (Elt F) → (⟨S32768x256, .f32⟩ : BufTy).Contents (Elt F)),
    StableHlo.binary main_v54 main_v53 main_v55 (addf : (⟨S32768x256, .f32⟩ : BufTy).Contents (Elt F) → (⟨S32768x256, .f32⟩ : BufTy).Contents (Elt F) → (⟨S32768x256, .f32⟩ : BufTy).Contents (Elt F)),
    StableHlo.nullary main_cst_9 (constant S_ .f32 0x3F800000#32),
    StableHlo.unary main_cst_9 main_v56 (broadcastInDim S32768x256 ![] bcast_S_S32768x256 : (⟨S_, .f32⟩ : BufTy).Contents (Elt F) → (⟨S32768x256, .f32⟩ : BufTy).Contents (Elt F)),
    StableHlo.binary main_v56 main_v55 main_v57 (Host.divf : (⟨S32768x256, .f32⟩ : BufTy).Contents (Elt F) → (⟨S32768x256, .f32⟩ : BufTy).Contents (Elt F) → (⟨S32768x256, .f32⟩ : BufTy).Contents (Elt F)),
    StableHlo.unary main_v44 main_v58 (Host.negf : (⟨S32768x256, .f32⟩ : BufTy).Contents (Elt F) → (⟨S32768x256, .f32⟩ : BufTy).Contents (Elt F)),
    StableHlo.unary main_v58 main_v59 (Host.exp : (⟨S32768x256, .f32⟩ : BufTy).Contents (Elt F) → (⟨S32768x256, .f32⟩ : BufTy).Contents (Elt F)),
    StableHlo.nullary main_cst_10 (constant S_ .f32 0x3F800000#32),
    StableHlo.unary main_cst_10 main_v60 (broadcastInDim S32768x256 ![] bcast_S_S32768x256 : (⟨S_, .f32⟩ : BufTy).Contents (Elt F) → (⟨S32768x256, .f32⟩ : BufTy).Contents (Elt F)),
    StableHlo.binary main_v60 main_v59 main_v61 (addf : (⟨S32768x256, .f32⟩ : BufTy).Contents (Elt F) → (⟨S32768x256, .f32⟩ : BufTy).Contents (Elt F) → (⟨S32768x256, .f32⟩ : BufTy).Contents (Elt F)),
    StableHlo.nullary main_cst_11 (constant S_ .f32 0x3F800000#32),
    StableHlo.unary main_cst_11 main_v62 (broadcastInDim S32768x256 ![] bcast_S_S32768x256 : (⟨S_, .f32⟩ : BufTy).Contents (Elt F) → (⟨S32768x256, .f32⟩ : BufTy).Contents (Elt F)),
    StableHlo.binary main_v62 main_v61 main_v63 (Host.divf : (⟨S32768x256, .f32⟩ : BufTy).Contents (Elt F) → (⟨S32768x256, .f32⟩ : BufTy).Contents (Elt F) → (⟨S32768x256, .f32⟩ : BufTy).Contents (Elt F)),
    StableHlo.unary main_v45 main_v64 (Host.tanh : (⟨S32768x256, .f32⟩ : BufTy).Contents (Elt F) → (⟨S32768x256, .f32⟩ : BufTy).Contents (Elt F)),
    StableHlo.binary main_v51 main_arg1 main_v65 (mulf : (⟨S32768x256, .f32⟩ : BufTy).Contents (Elt F) → (⟨S32768x256, .f32⟩ : BufTy).Contents (Elt F) → (⟨S32768x256, .f32⟩ : BufTy).Contents (Elt F)),
    StableHlo.binary main_v57 main_v64 main_v66 (mulf : (⟨S32768x256, .f32⟩ : BufTy).Contents (Elt F) → (⟨S32768x256, .f32⟩ : BufTy).Contents (Elt F) → (⟨S32768x256, .f32⟩ : BufTy).Contents (Elt F)),
    StableHlo.binary main_v65 main_v66 main_v67 (addf : (⟨S32768x256, .f32⟩ : BufTy).Contents (Elt F) → (⟨S32768x256, .f32⟩ : BufTy).Contents (Elt F) → (⟨S32768x256, .f32⟩ : BufTy).Contents (Elt F)),
    StableHlo.nullary main_cst_12 (constant S_ .f32 0x00000000#32),
    StableHlo.binary main_v67 main_cst_12 main_v68 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)),
    StableHlo.nullary main_cst_13 (constant S_ .f32 0x47000000#32),
    StableHlo.unary main_cst_13 main_v69 (broadcastInDim S256 ![] bcast_S_S256 : (⟨S_, .f32⟩ : BufTy).Contents (Elt F) → (⟨S256, .f32⟩ : BufTy).Contents (Elt F)),
    StableHlo.binary main_v68 main_v69 main_v70 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary main_call2.cst (constant S_ .f32 0x00000000#32),
    StableHlo.TRef.binary (.of main_v67) main_call2.cst main_call2.v0 (fun x v => Host.reduceAdd x v reducesTo_S32768x256_S256_d0 h_S_),
    StableHlo.TRef.unary main_call2.v0 main_call2.v1 (broadcastInDim S1x256 ![1] bcast_S256_S1x256_1),
    StableHlo.TRef.nullary main_call2.cst_0 (constant S_ .f32 0x47000000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S32768x256 ![0, 1] bcast_S1x256_S32768x256_0_1),
    StableHlo.TRef.binary (.of main_v67) main_call2.v4 main_call2.v5 subf,
    StableHlo.TRef.binary main_call2.v5 main_call2.v5 main_call2.v6 mulf,
    StableHlo.TRef.unary (.of main_c_14) main_call2.v7 (sitofp .f32),
    StableHlo.TRef.nullary main_call2.cst_1 (constant S_ .f32 0x47000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32768x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v70 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S32768x256 ![0, 1] bcast_S1x256_S32768x256_0_1 : (⟨S1x256, .f32⟩ : BufTy).Contents (Elt F) → (⟨S32768x256, .f32⟩ : BufTy).Contents (Elt F)),
    StableHlo.binary main_v67 main_v73 main_v74 (subf : (⟨S32768x256, .f32⟩ : BufTy).Contents (Elt F) → (⟨S32768x256, .f32⟩ : BufTy).Contents (Elt F) → (⟨S32768x256, .f32⟩ : BufTy).Contents (Elt F)),
    StableHlo.nullary main_cst_15 (constant S_ .f32 0x3727C5AC#32),
    StableHlo.unary main_cst_15 main_v75 (broadcastInDim S256 ![] bcast_S_S256 : (⟨S_, .f32⟩ : BufTy).Contents (Elt F) → (⟨S256, .f32⟩ : BufTy).Contents (Elt F)),
    StableHlo.binary main_v71 main_v75 main_v76 (addf : (⟨S256, .f32⟩ : BufTy).Contents (Elt F) → (⟨S256, .f32⟩ : BufTy).Contents (Elt F) → (⟨S256, .f32⟩ : BufTy).Contents (Elt F)),
    StableHlo.unary main_v76 main_v77 (Host.sqrt : (⟨S256, .f32⟩ : BufTy).Contents (Elt F) → (⟨S256, .f32⟩ : BufTy).Contents (Elt F)),
    StableHlo.binary main_arg10 main_v77 main_v78 (Host.divf : (⟨S256, .f32⟩ : BufTy).Contents (Elt F) → (⟨S256, .f32⟩ : BufTy).Contents (Elt F) → (⟨S256, .f32⟩ : BufTy).Contents (Elt F)),
    StableHlo.unary main_v78 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S32768x256 ![0, 1] bcast_S1x256_S32768x256_0_1 : (⟨S1x256, .f32⟩ : BufTy).Contents (Elt F) → (⟨S32768x256, .f32⟩ : BufTy).Contents (Elt F)),
    StableHlo.binary main_v74 main_v80 main_v81 (mulf : (⟨S32768x256, .f32⟩ : BufTy).Contents (Elt F) → (⟨S32768x256, .f32⟩ : BufTy).Contents (Elt F) → (⟨S32768x256, .f32⟩ : BufTy).Contents (Elt F)),
    StableHlo.unary main_arg11 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S32768x256 ![0, 1] bcast_S1x256_S32768x256_0_1 : (⟨S1x256, .f32⟩ : BufTy).Contents (Elt F) → (⟨S32768x256, .f32⟩ : BufTy).Contents (Elt F)),
    StableHlo.binary main_v81 main_v83 main_v84 (addf : (⟨S32768x256, .f32⟩ : BufTy).Contents (Elt F) → (⟨S32768x256, .f32⟩ : BufTy).Contents (Elt F) → (⟨S32768x256, .f32⟩ : BufTy).Contents (Elt F)),
    StableHlo.unary main_v84 main_v85 (Host.tanh : (⟨S32768x256, .f32⟩ : BufTy).Contents (Elt F) → (⟨S32768x256, .f32⟩ : BufTy).Contents (Elt F)),
    StableHlo.binary main_v63 main_v85 main_v86 (mulf : (⟨S32768x256, .f32⟩ : BufTy).Contents (Elt F) → (⟨S32768x256, .f32⟩ : BufTy).Contents (Elt F) → (⟨S32768x256, .f32⟩ : BufTy).Contents (Elt F)) ]

/-! ## The program as a line of operations -/

-- one hundred and two binds re-associated: the rewrite under the chain recurses once per statement
set_option maxRecDepth 8192 in
/-- The first window of @main is its line of operations: the callees' definitions unfolded at their calls, both sides
    are one chain of steps once sequencing is re-associated. -/
theorem main_part0_eq (c : Dev nD) : main_part0 (F := F) c = seq ops0 := by
  simp only [main_part0, fn_var.body, fn_where.body, seq, bind_assoc, pure_bind]
  rfl

set_option maxRecDepth 8192 in
/-- The second window of @main is its line of operations. -/
theorem main_part1_eq (c : Dev nD) : main_part1 (F := F) c = seq ops1 := by
  simp only [main_part1, fn_var_0.body, fn_where_1.body, seq, bind_assoc, pure_bind]

/-- Running two lines in turn is running their concatenation. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- @main is the two windows' operations in order. -/
theorem main_eq (c : Dev nD) : main (F := F) c = seq (ops0 ++ ops1) := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., binary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., binary_bufs_sub .., unary_bufs_sub .., unary_bufs_sub .., unary_bufs_sub .., unary_bufs_sub ..,
    unary_bufs_sub .., unary_bufs_sub .., nullary_bufs_sub .., unary_bufs_sub .., binary_bufs_sub .., nullary_bufs_sub ..⟩

theorem ops1_sub : (ops1 : List (HloOp τ sig (Elt F))).Forall fun op => op.bufs ⊆ tcRefs τ sig :=
  ⟨unary_bufs_sub .., binary_bufs_sub .., unary_bufs_sub .., unary_bufs_sub .., nullary_bufs_sub .., unary_bufs_sub ..,
    binary_bufs_sub .., nullary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., binary_bufs_sub .., binary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., unary_bufs_sub .., binary_bufs_sub ..⟩

theorem ops_sub : (ops0 ++ ops1 : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops_fresh : ∀ op ∈ (ops0 ++ ops1 : List (HloOp τ sig (Elt F))), op.fresh = ∅ :=
  fun op h => (List.mem_append.mp h).elim (ops0_fresh op) (ops1_fresh op)

/-! ## What the line leaves in the result and argument buffers -/

set_option maxRecDepth 8192 in
set_option maxHeartbeats 4000000 in
/-- The first result buffer after the line, from any contents: the next cell state of the arguments' contents. -/
theorem res_c (V : Valuation τ sig (Elt F)) :
    after (ops0 ++ ops1) V (main_v84 : DevRef τ sig) = cNext (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_concat]
  simp only [cNext, hNext, norm1, colVar1, centred1, colMean1, rows1, cellPre, gCand, oGate, iGate, fGate, logistic, ones, gates, norm4, colVar4, centred4, varCount, colMean4, rows4, matT]
  after_results_simp
  rfl

set_option maxRecDepth 8192 in
set_option maxHeartbeats 4000000 in
/-- The second result buffer after the line, from any contents: the next hidden state of the arguments' contents. -/
theorem res_h (V : Valuation τ sig (Elt F)) :
    after (ops0 ++ ops1) V (main_v86 : DevRef τ sig) = hNext (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_concat]
  simp only [cNext, hNext, norm1, colVar1, centred1, colMean1, rows1, cellPre, gCand, oGate, iGate, fGate, logistic, ones, gates, norm4, colVar4, centred4, varCount, colMean4, rows4, matT]
  after_results_simp
  rfl

/-! No operation of the line writes an argument's buffer: each keeps its contents. -/

theorem arg0_keep (V : Valuation τ sig (Elt F)) :
    after (ops0 ++ ops1) V (main_arg0 : DevRef τ sig) = V (main_arg0 : DevRef τ sig) := by
  rw [after_concat]; after_results_simp

theorem arg1_keep (V : Valuation τ sig (Elt F)) :
    after (ops0 ++ ops1) V (main_arg1 : DevRef τ sig) = V (main_arg1 : DevRef τ sig) := by
  rw [after_concat]; after_results_simp

theorem arg2_keep (V : Valuation τ sig (Elt F)) :
    after (ops0 ++ ops1) V (main_arg2 : DevRef τ sig) = V (main_arg2 : DevRef τ sig) := by
  rw [after_concat]; after_results_simp

theorem arg3_keep (V : Valuation τ sig (Elt F)) :
    after (ops0 ++ ops1) V (main_arg3 : DevRef τ sig) = V (main_arg3 : DevRef τ sig) := by
  rw [after_concat]; after_results_simp

theorem arg4_keep (V : Valuation τ sig (Elt F)) :
    after (ops0 ++ ops1) V (main_arg4 : DevRef τ sig) = V (main_arg4 : DevRef τ sig) := by
  rw [after_concat]; after_results_simp

theorem arg5_keep (V : Valuation τ sig (Elt F)) :
    after (ops0 ++ ops1) V (main_arg5 : DevRef τ sig) = V (main_arg5 : DevRef τ sig) := by
  rw [after_concat]; after_results_simp

theorem arg6_keep (V : Valuation τ sig (Elt F)) :
    after (ops0 ++ ops1) V (main_arg6 : DevRef τ sig) = V (main_arg6 : DevRef τ sig) := by
  rw [after_concat]; after_results_simp

theorem arg7_keep (V : Valuation τ sig (Elt F)) :
    after (ops0 ++ ops1) V (main_arg7 : DevRef τ sig) = V (main_arg7 : DevRef τ sig) := by
  rw [after_concat]; after_results_simp

theorem arg8_keep (V : Valuation τ sig (Elt F)) :
    after (ops0 ++ ops1) V (main_arg8 : DevRef τ sig) = V (main_arg8 : DevRef τ sig) := by
  rw [after_concat]; after_results_simp

theorem arg9_keep (V : Valuation τ sig (Elt F)) :
    after (ops0 ++ ops1) V (main_arg9 : DevRef τ sig) = V (main_arg9 : DevRef τ sig) := by
  rw [after_concat]; after_results_simp

theorem arg10_keep (V : Valuation τ sig (Elt F)) :
    after (ops0 ++ ops1) V (main_arg10 : DevRef τ sig) = V (main_arg10 : DevRef τ sig) := by
  rw [after_concat]; after_results_simp

theorem arg11_keep (V : Valuation τ sig (Elt F)) :
    after (ops0 ++ ops1) V (main_arg11 : DevRef τ sig) = V (main_arg11 : DevRef τ sig) := by
  rw [after_concat]; after_results_simp

/-! ## The run -/

/-- On every device, for any float values, from any memory with zero counters: every weakly fair execution of @main
    terminates with the first result at the next cell state and the second at the next hidden state of the arguments'
    launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v84) = cNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v86) = hNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v84).trans (res_c _), (h c main_v86).trans (res_h _),
      (h c main_arg0).trans (arg0_keep _),
      (h c main_arg1).trans (arg1_keep _),
      (h c main_arg2).trans (arg2_keep _),
      (h c main_arg3).trans (arg3_keep _),
      (h c main_arg4).trans (arg4_keep _),
      (h c main_arg5).trans (arg5_keep _),
      (h c main_arg6).trans (arg6_keep _),
      (h c main_arg7).trans (arg7_keep _),
      (h c main_arg8).trans (arg8_keep _),
      (h c main_arg9).trans (arg9_keep _),
      (h c main_arg10).trans (arg10_keep _),
      (h c main_arg11).trans (arg11_keep _)⟩)
    (run_seq scopedRefs_eq scopedSems_eq defs main (fun _ => ops0 ++ ops1) main_eq (fun _ => ops_sub) m ρ (fun _ => ops_fresh))

end Cert.ReferenceIdeal.RefRun

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Algebra.Consts.lean ====
/-
  The two float literals of the batch normalisation as real numbers: the row count 32768 = 2¹⁵ and a
  positive ε.
-/
import proofs.«101494_j46059229282552_2_alg».proof.Proof.Spec
import Mathlib

namespace Cert.LstmBn

open Idealize.ShloMosaic

/-- The word 0x47000000 has biased exponent 142 and a zero fraction: 2²³ · 2^(142 − 127 − 23) = 2¹⁵. -/
theorem nB_eq : nB = ((32768 : ℝ) : EReal) := by
  unfold nB
  simp [Ideal.ofBits, Ideal.ieee, -EReal.coe_mul]
  norm_num

/-- The word 0x3727C5AC has biased exponent 110 and fraction 2606508: the positive real
    (2²³ + 2606508) · 2^(110 − 127 − 23). -/
theorem eps_eq : eps = (((8388608 + 2606508 : ℕ) : ℝ) * (2 : ℝ) ^ (-40 : ℤ) : ℝ) := by
  unfold eps
  simp [Ideal.ofBits, Ideal.ieee, -EReal.coe_mul]

/-- ε is a positive real. -/
theorem eps_pos : ∃ e : ℝ, 0 < e ∧ eps = (e : EReal) :=
  ⟨_, by positivity, eps_eq⟩

end Cert.LstmBn
-- ==== Proof.RefReadLemmas.lean ====
/-
  The reference's host operations read at an index, at the ideal values (floats are extended reals, operations
  exact).  Each lemma takes an operation the reference applies — the product with a transposed weight, a column
  sum, a broadcast of a scalar or of a row, a block of columns — over arrays of the reference's literal shapes and
  says what the result is at a row and a column.  Also the scalar facts: the words of the constants one and 32768,
  the variance's divisor, the comparison that guards it, and the logistic function spelt through the exponential.
-/
import proofs.«101494_j46059229282552_2_alg».proof.Proof.Gen.ReferenceIdeal
import proofs.«101494_j46059229282552_2_alg».proof.Proof.Spec
import proofs.«101494_j46059229282552_2_alg».proof.Proof.LibPlainDot
import proofs.«101494_j46059229282552_2_alg».proof.Proof.LibFirstAxisSum
import proofs.«101494_j46059229282552_2_alg».proof.Proof.LibUnitAxes
import proofs.«101494_j46059229282552_2_alg».proof.Proof.Algebra.Consts
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefRead

open Idealize.ShloMosaic Idealize.ShloMosaic.ValueIdx Cert.LstmBn

/-! ## The product with a transposed weight -/

section Dot
variable [Cert.ReferenceIdeal.Facts₀]

/-- The product's dimension numbers contract one axis … -/
theorem dot_rank : (dot_S32768x256_S256x1024_S32768x1024_1_0_0_1_n_n).contr.rank = 1 := rfl

/-- … of 256 coordinates. -/
theorem dot_size : (dot_S32768x256_S256x1024_S32768x1024_1_0_0_1_n_n).contr.size ⟨0, by rw [dot_rank]; exact Nat.one_pos⟩ = 256 := rfl

/-- The left operand's row is the result's row. -/
theorem dot_lhs0 (j : S32768x1024.Idx) (k : (dot_S32768x256_S256x1024_S32768x1024_1_0_0_1_n_n).contr.Idx) :
    ((dot_S32768x256_S256x1024_S32768x1024_1_0_0_1_n_n).lhsIdx j k 0).val = (j 0).val := by
  simp [DotDims.lhsIdx, dot_S32768x256_S256x1024_S32768x1024_1_0_0_1_n_n]; rfl

/-- The right operand's column is the result's column. -/
theorem dot_rhs1 (j : S32768x1024.Idx) (k : (dot_S32768x256_S256x1024_S32768x1024_1_0_0_1_n_n).contr.Idx) :
    ((dot_S32768x256_S256x1024_S32768x1024_1_0_0_1_n_n).rhsIdx j k 1).val = (j 1).val := by
  simp [DotDims.rhsIdx, dot_S32768x256_S256x1024_S32768x1024_1_0_0_1_n_n]; rfl

/-- x · wᵀ at (r, j): the inner product of row r of x with row j of w. -/
theorem dot_transpose_apply (x : FVec Ideal (⟨2, ![32768, 256]⟩ : Shape) .f32) (w : FVec Ideal (⟨2, ![1024, 256]⟩ : Shape) .f32)
    (ht : (⟨2, ![1024, 256]⟩ : Shape).Transposes [1, 0] ⟨2, ![256, 1024]⟩) (r : Fin 32768) (j : Fin 1024) :
    Host.dotGeneral dot_S32768x256_S256x1024_S32768x1024_1_0_0_1_n_n none x
        (transpose (⟨2, ![256, 1024]⟩ : Shape) [1, 0] w ht) (ix2 r j)
      = ∑ k : Fin 256, x (ix2 r k) * w (ix2 j k) :=
  (Cert.LibPlainDot.dotGeneral_apply dot_S32768x256_S256x1024_S32768x1024_1_0_0_1_n_n dot_rank dot_size rfl rfl
      dot_lhs0 dot_rhs1 none .single x _ r j).trans
    (Finset.sum_congr rfl fun k _ => by rw [transpose_ix2_apply])

end Dot

/-! ## Column sums -/

section Sums
variable {a b : ℕ}

/-- The host's sum of an [a, b] array over its rows, started from the zero word, at column j: the sum over the
    rows r of the array at (r, j). -/
theorem reduceAdd_rows_apply (x : FVec Ideal (⟨2, ![a, b]⟩ : Shape) .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (j : Fin b) :
    Host.reduceAdd x (constant (⟨0, ![]⟩ : Shape) .f32 0x00000000#32) h' hu (ix1 j) = ∑ r : Fin a, x (ix2 r j) := by
  show Ideal.hostReduceAdd h' x (Ideal.ofBits .f32 0x00000000#32) (ix1 j) = _
  rw [Ideal.hostReduceAdd_single h' h, Ideal.ofBits_zero_f32, zero_add]
  exact Finset.sum_congr rfl fun k _ => congrArg x (Cert.AxisSums.lift_first h j k)

end Sums

/-- The 1024 columns: removing the rows of a [32768, 1024] array leaves [1024]. -/
theorem reduces4 : (⟨2, ![32768, 1024]⟩ : Shape).Reduces [0] ⟨1, ![1024]⟩ := by decide
/-- The 256 columns. -/
theorem reduces1 : (⟨2, ![32768, 256]⟩ : Shape).Reduces [0] ⟨1, ![256]⟩ := by decide

/-! ## Broadcasts -/

section Bcast
variable {α : Type} {a b : ℕ}

/-- A scalar spread over any shape reads the scalar. -/
theorem bcast_scalar_apply {t : Shape} (v : (⟨0, ![]⟩ : Shape).Idx → α)
    (h : (⟨0, ![]⟩ : Shape).BroadcastsInDim t ![]) (j : t.Idx) : broadcastInDim t ![] h v j = v ix0 :=
  Cert.LibUnitAxes.broadcastInDim_scalar_apply v h j

/-- A [b] array placed as the one row of [1, b] reads, at (0, p), the array at p. -/
theorem bcast_b_1b_apply (x : (⟨1, ![b]⟩ : Shape).Idx → α)
    (hb : (⟨1, ![b]⟩ : Shape).BroadcastsInDim ⟨2, ![1, b]⟩ ![1]) (u : Fin 1) (p : Fin b) :
    broadcastInDim (⟨2, ![1, b]⟩ : Shape) ![1] hb x (ix2 u p) = x (ix1 p) :=
  broadcastInDim_apply ![1] hb x (ix2 u p) (ix1 p) (fun ax => match ax with
    | ⟨0, _⟩ => by
      show p.val = if b = 1 then 0 else p.val
      split
      · have := p.isLt; omega
      · rfl)

/-- A [b] array repeated down a rows: first as the one row of [1, b], then spread over [a, b]; at (r, j) it reads
    the array at j. -/
theorem rows_apply (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (r : Fin a) (j : Fin b) :
    broadcastInDim (⟨2, ![a, b]⟩ : Shape) ![0, 1] h2 (broadcastInDim (⟨2, ![1, b]⟩ : Shape) ![1] h1 x) (ix2 r j) = x (ix1 j) := by
  rw [Cert.LibUnitAxes.broadcastInDim_1b_ab_apply, bcast_b_1b_apply]

/-- A [1, b] row spread over [a, b] reads, at (r, j), the row at (0, j). -/
theorem bcast_row_apply (v : (⟨2, ![1, b]⟩ : Shape).Idx → α)
    (h : (⟨2, ![1, b]⟩ : Shape).BroadcastsInDim ⟨2, ![a, b]⟩ ![0, 1]) (r : Fin a) (j : Fin b) :
    broadcastInDim (⟨2, ![a, b]⟩ : Shape) ![0, 1] h v (ix2 r j) = v (ix2 (0 : Fin 1) j) :=
  Cert.LibUnitAxes.broadcastInDim_1b_ab_apply v h r j

end Bcast

/-! ## Blocks of columns -/

section Blocks
variable {α : Type}

/-- Columns 0 … 255 of a [32768, 1024] array, at (r, j): the array at (r, j) of block 0. -/
theorem slice0_apply (X : (⟨2, ![32768, 1024]⟩ : Shape).Idx → α)
    (h : (⟨2, ![32768, 1024]⟩ : Shape).Slices ![0, 0] ⟨2, ![32768, 256]⟩) (r : Fin 32768) (j : Fin 256) :
    extractStridedSlice (⟨2, ![32768, 256]⟩ : Shape) ![0, 0] X h (ix2 r j) = X (ix2 r (blockCol 0 j)) :=
  slice2_axis1_apply 0 X h r j (blockCol 0 j) (by show 0 * 256 + j.val = 0 + j.val; omega)

/-- Columns 256 … 511: block 1. -/
theorem slice1_apply (X : (⟨2, ![32768, 1024]⟩ : Shape).Idx → α)
    (h : (⟨2, ![32768, 1024]⟩ : Shape).Slices ![0, 256] ⟨2, ![32768, 256]⟩) (r : Fin 32768) (j : Fin 256) :
    extractStridedSlice (⟨2, ![32768, 256]⟩ : Shape) ![0, 256] X h (ix2 r j) = X (ix2 r (blockCol 1 j)) :=
  slice2_axis1_apply 256 X h r j (blockCol 1 j) (by show 1 * 256 + j.val = 256 + j.val; omega)

/-- Columns 512 … 767: block 2. -/
theorem slice2_apply (X : (⟨2, ![32768, 1024]⟩ : Shape).Idx → α)
    (h : (⟨2, ![32768, 1024]⟩ : Shape).Slices ![0, 512] ⟨2, ![32768, 256]⟩) (r : Fin 32768) (j : Fin 256) :
    extractStridedSlice (⟨2, ![32768, 256]⟩ : Shape) ![0, 512] X h (ix2 r j) = X (ix2 r (blockCol 2 j)) :=
  slice2_axis1_apply 512 X h r j (blockCol 2 j) (by show 2 * 256 + j.val = 512 + j.val; omega)

/-- Columns 768 … 1023: block 3. -/
theorem slice3_apply (X : (⟨2, ![32768, 1024]⟩ : Shape).Idx → α)
    (h : (⟨2, ![32768, 1024]⟩ : Shape).Slices ![0, 768] ⟨2, ![32768, 256]⟩) (r : Fin 32768) (j : Fin 256) :
    extractStridedSlice (⟨2, ![32768, 256]⟩ : Shape) ![0, 768] X h (ix2 r j) = X (ix2 r (blockCol 3 j)) :=
  slice2_axis1_apply 768 X h r j (blockCol 3 j) (by show 3 * 256 + j.val = 768 + j.val; omega)

end Blocks

/-! ## The scalars -/

/-- The word 0x3F800000 is the number one. -/
theorem ofBits_one : Ideal.ofBits .f32 0x3F800000#32 = (1 : EReal) := by
  simp [Ideal.ofBits, Ideal.ieee, -EReal.coe_mul]; norm_num

/-- The variance's divisor: the row count less the integer zero converted, which is the row count. -/
theorem nB_sub_zero : Ideal.ofBits .f32 0x47000000#32 - FloatOps.sitofp (F := Ideal) .f32 (0#32) = nB := by
  show Ideal.ofBits .f32 0x47000000#32 - (((0#32 : BitVec 32).toInt : ℝ) : EReal) = nB
  have h0 : ((0#32 : BitVec 32).toInt : ℝ) = 0 := by norm_num
  rw [h0, EReal.coe_zero, sub_zero]; rfl

/-- The row count is positive: the comparison that guards the variance is true. -/
theorem cmp_nB_pos : Ideal.cmp .ogt nB (Ideal.ofBits .f32 0x00000000#32) = 1#1 := by
  rw [Ideal.ofBits_zero_f32, nB_eq]
  unfold Ideal.cmp
  have h : (0 : EReal) < ((32768 : ℝ) : EReal) := by exact_mod_cast (by norm_num : (0 : ℝ) < 32768)
  simp [h]

/-- A selection on the true word takes its first operand. -/
theorem select_one {α : Type} (x y : α) : Scalar.select 1#1 x y = x := rfl

/-- The logistic function spelt through the exponential. -/
theorem logistic_spelt (z : EReal) : Ideal.div 1 (1 + Ideal.exp (-z)) = Ideal.logistic z := rfl

end Cert.ReferenceIdeal.RefRead

end
-- ==== Proof.RefRead.lean ====
/-
  The reference's result terms read at an index.  Stage by stage — the two products, the column mean and variance,
  the normalisation, the gates' sum, the four column blocks with their activations, the cell update and its
  normalisation, the hidden state — each stage of the reference, at a row r and a column j, is the corresponding
  formula on the extended reals; composed, the two results are the reference formulas for the next cell state and
  the next hidden state.
-/
import proofs.«101494_j46059229282552_2_alg».proof.Proof.RefStages
import proofs.«101494_j46059229282552_2_alg».proof.Proof.RefReadLemmas

set_option maxRecDepth 16384

noncomputable section

namespace Cert.ReferenceIdeal.RefRead

open Idealize.ShloMosaic Idealize.ShloMosaic.ValueIdx Cert.LstmBn Cert.ReferenceIdeal Cert.ReferenceIdeal.RefRun

/-! ## The products -/

/-- a · wᵀ at (r, j). -/
theorem matT_apply (a : FVec Ideal S32768x256 .f32) (w : FVec Ideal S1024x256 .f32) (r : Fin 32768) (j : Fin 1024) :
    matT (F := Ideal) a w (ix2 r j) = proj (curry2 a) (curry2 w) r j :=
  dot_transpose_apply a w _ r j

/-- The same as an equation of functions of the row and the column. -/
theorem curry2_matT (a : FVec Ideal S32768x256 .f32) (w : FVec Ideal S1024x256 .f32) :
    curry2 (matT (F := Ideal) a w) = proj (curry2 a) (curry2 w) :=
  funext fun r => funext fun j => matT_apply a w r j

/-! ## The variance's divisor -/

/-- The divisor is the row count. -/
theorem varCount_apply (i : S_.Idx) : varCount (F := Ideal) i = nB := nB_sub_zero

/-- The divisor is positive. -/
theorem varCount_gt : cmpf .ogt (varCount (F := Ideal)) (constant (F := Ideal) S_ .f32 0x00000000#32) ix0 = 1#1 := by
  show Ideal.cmp .ogt (varCount (F := Ideal) ix0) (Ideal.ofBits .f32 0x00000000#32) = 1#1
  rw [varCount_apply]; exact cmp_nB_pos

/-! ## Mean, variance, normalisation -/

/-! ### 1024 columns -/

/-- A row of 1024 repeated down the rows reads, at (r, j), the row at j. -/
theorem rows4_apply (u : FVec Ideal S1024 .f32) (r : Fin 32768) (j : Fin 1024) :
    rows4 (F := Ideal) u (ix2 r j) = u (ix1 j) :=
  rows_apply u _ _ r j

/-- The column mean. -/
private theorem colMean4_apply (v : FVec Ideal S32768x1024 .f32) (j : Fin 1024) :
    colMean4 (F := Ideal) v (ix1 j) = mean (curry2 v) j := by
  unfold colMean4 Host.divf
  rw [reduceAdd_rows_apply v _ reduces4, bcast_scalar_apply]; rfl

/-- An entry less its column's mean; the mean, formed on a unit leading axis, is the same value. -/
private theorem centred4_apply (v : FVec Ideal S32768x1024 .f32) (r : Fin 32768) (j : Fin 1024) :
    centred4 (F := Ideal) v (ix2 r j) = curry2 v r j - mean (curry2 v) j := by
  unfold centred4 subf Host.divf
  rw [bcast_row_apply, bcast_b_1b_apply, bcast_scalar_apply, reduceAdd_rows_apply v _ reduces4]; rfl

/-- The column variance: the guard is true, the divisor is the row count. -/
private theorem colVar4_apply (v : FVec Ideal S32768x1024 .f32) (j : Fin 1024) :
    colVar4 (F := Ideal) v (ix1 j) = var (curry2 v) j := by
  unfold colVar4 select Host.divf
  rw [bcast_scalar_apply, bcast_scalar_apply, bcast_scalar_apply, varCount_gt, select_one, varCount_apply,
    reduceAdd_rows_apply _ _ reduces4]
  refine congrArg (fun s => Ideal.div s nB) (Finset.sum_congr rfl fun r _ => ?_)
  show centred4 (F := Ideal) v (ix2 r j) * centred4 (F := Ideal) v (ix2 r j) = _
  rw [centred4_apply]

/-- The normalisation, at (r, j). -/
theorem norm4_apply (v : FVec Ideal S32768x1024 .f32) (γ β : FVec Ideal S1024 .f32) (r : Fin 32768) (j : Fin 1024) :
    norm4 (F := Ideal) v γ β (ix2 r j) = bn (curry2 v) (vec1 γ) (vec1 β) r j := by
  unfold norm4 addf mulf subf Host.divf Host.sqrt
  rw [rows4_apply, rows4_apply, rows4_apply, colMean4_apply]
  dsimp only
  rw [colVar4_apply, bcast_scalar_apply]; rfl

/-! ### 256 columns -/

/-- A row of 256 repeated down the rows reads, at (r, j), the row at j. -/
theorem rows1_apply (u : FVec Ideal S256 .f32) (r : Fin 32768) (j : Fin 256) :
    rows1 (F := Ideal) u (ix2 r j) = u (ix1 j) :=
  rows_apply u _ _ r j

/-- The column mean. -/
private theorem colMean1_apply (v : FVec Ideal S32768x256 .f32) (j : Fin 256) :
    colMean1 (F := Ideal) v (ix1 j) = mean (curry2 v) j := by
  unfold colMean1 Host.divf
  rw [reduceAdd_rows_apply v _ reduces1, bcast_scalar_apply]; rfl

/-- An entry less its column's mean; the mean, formed on a unit leading axis, is the same value. -/
private theorem centred1_apply (v : FVec Ideal S32768x256 .f32) (r : Fin 32768) (j : Fin 256) :
    centred1 (F := Ideal) v (ix2 r j) = curry2 v r j - mean (curry2 v) j := by
  unfold centred1 subf Host.divf
  rw [bcast_row_apply, bcast_b_1b_apply, bcast_scalar_apply, reduceAdd_rows_apply v _ reduces1]; rfl

/-- The column variance: the guard is true, the divisor is the row count. -/
private theorem colVar1_apply (v : FVec Ideal S32768x256 .f32) (j : Fin 256) :
    colVar1 (F := Ideal) v (ix1 j) = var (curry2 v) j := by
  unfold colVar1 select Host.divf
  rw [bcast_scalar_apply, bcast_scalar_apply, bcast_scalar_apply, varCount_gt, select_one, varCount_apply,
    reduceAdd_rows_apply _ _ reduces1]
  refine congrArg (fun s => Ideal.div s nB) (Finset.sum_congr rfl fun r _ => ?_)
  show centred1 (F := Ideal) v (ix2 r j) * centred1 (F := Ideal) v (ix2 r j) = _
  rw [centred1_apply]

/-- The normalisation, at (r, j). -/
theorem norm1_apply (v : FVec Ideal S32768x256 .f32) (γ β : FVec Ideal S256 .f32) (r : Fin 32768) (j : Fin 256) :
    norm1 (F := Ideal) v γ β (ix2 r j) = bn (curry2 v) (vec1 γ) (vec1 β) r j := by
  unfold norm1 addf mulf subf Host.divf Host.sqrt
  rw [rows1_apply, rows1_apply, rows1_apply, colMean1_apply]
  dsimp only
  rw [colVar1_apply, bcast_scalar_apply]; rfl

/-! ## The gates -/

/-- The gates before activation, at (r, j). -/
theorem gates_apply (x h : FVec Ideal S32768x256 .f32) (wih whh : FVec Ideal S1024x256 .f32) (b gih bih ghh bhh : FVec Ideal S1024 .f32) (r : Fin 32768) (j : Fin 1024) :
    gates (F := Ideal) x h wih whh b gih bih ghh bhh (ix2 r j) = gatesRef (curry2 x) (curry2 h) (curry2 wih) (curry2 whh) (vec1 b) (vec1 gih) (vec1 bih) (vec1 ghh) (vec1 bhh) r j := by
  unfold gates addf
  rw [norm4_apply, norm4_apply, rows4_apply, curry2_matT, curry2_matT]; rfl

/-- The same as an equation of functions. -/
theorem curry2_gates (x h : FVec Ideal S32768x256 .f32) (wih whh : FVec Ideal S1024x256 .f32) (b gih bih ghh bhh : FVec Ideal S1024 .f32) :
    curry2 (gates (F := Ideal) x h wih whh b gih bih ghh bhh) = gatesRef (curry2 x) (curry2 h) (curry2 wih) (curry2 whh) (vec1 b) (vec1 gih) (vec1 bih) (vec1 ghh) (vec1 bhh) :=
  funext fun r => funext fun j => gates_apply x h wih whh b gih bih ghh bhh r j

/-! ## The activations -/

/-- The constant one. -/
theorem ones_apply (i : S32768x256.Idx) : ones (F := Ideal) i = (1 : EReal) := by
  unfold ones; rw [bcast_scalar_apply]; exact ofBits_one

/-- 1 / (1 + exp (−u)) is the logistic function. -/
theorem logistic_apply (u : FVec Ideal S32768x256 .f32) (i : S32768x256.Idx) :
    RefRun.logistic (F := Ideal) u i = Ideal.logistic (u i) := by
  unfold RefRun.logistic Host.divf addf Host.exp Host.negf
  rw [ones_apply]; rfl

/-- The forget gate: block 0 through the logistic. -/
theorem fGate_apply (g : FVec Ideal S32768x1024 .f32) (r : Fin 32768) (j : Fin 256) :
    fGate (F := Ideal) g (ix2 r j) = Ideal.logistic (curry2 g r (blockCol 0 j)) := by
  unfold fGate; rw [logistic_apply, slice0_apply]; rfl

/-- The input gate: block 1 through the logistic. -/
theorem iGate_apply (g : FVec Ideal S32768x1024 .f32) (r : Fin 32768) (j : Fin 256) :
    iGate (F := Ideal) g (ix2 r j) = Ideal.logistic (curry2 g r (blockCol 1 j)) := by
  unfold iGate; rw [logistic_apply, slice1_apply]; rfl

/-- The output gate: block 2 through the logistic. -/
theorem oGate_apply (g : FVec Ideal S32768x1024 .f32) (r : Fin 32768) (j : Fin 256) :
    oGate (F := Ideal) g (ix2 r j) = outGate (curry2 g) r j := by
  unfold oGate; rw [logistic_apply, slice2_apply]; rfl

/-- The candidate: block 3 through the hyperbolic tangent. -/
theorem gCand_apply (g : FVec Ideal S32768x1024 .f32) (r : Fin 32768) (j : Fin 256) :
    gCand (F := Ideal) g (ix2 r j) = Ideal.tanh (curry2 g r (blockCol 3 j)) := by
  unfold gCand Host.tanh; rw [slice3_apply]; rfl

/-! ## The cell -/

/-- The cell update f · c + i · g, at (r, j). -/
theorem cellPre_apply (g : FVec Ideal S32768x1024 .f32) (c : FVec Ideal S32768x256 .f32) (r : Fin 32768) (j : Fin 256) :
    cellPre (F := Ideal) g c (ix2 r j) = cellRaw (curry2 g) (curry2 c) r j := by
  unfold cellPre addf mulf
  rw [fGate_apply, iGate_apply, gCand_apply]; rfl

/-- The same as an equation of functions. -/
theorem curry2_cellPre (g : FVec Ideal S32768x1024 .f32) (c : FVec Ideal S32768x256 .f32) :
    curry2 (cellPre (F := Ideal) g c) = cellRaw (curry2 g) (curry2 c) :=
  funext fun r => funext fun j => cellPre_apply g c r j

/-! ## The results -/

section Results
variable (x c h : S32768x256.Idx → EReal) (wih whh : S1024x256.Idx → EReal)
  (b gih bih ghh bhh : S1024.Idx → EReal) (gc bc : S256.Idx → EReal) (r : Fin 32768) (j : Fin 256)

/-- The next cell state, at (r, j), is the reference formula. -/
theorem cNext_apply :
    RefRun.cNext (F := Ideal) x c h wih whh b gih bih ghh bhh gc bc (ValueIdx.ix2 r j) = cNextRef (curry2 x) (curry2 c) (curry2 h) (curry2 wih) (curry2 whh) (vec1 b) (vec1 gih) (vec1 bih) (vec1 ghh) (vec1 bhh) (vec1 gc) (vec1 bc) r j := by
  unfold RefRun.cNext
  rw [norm1_apply, curry2_cellPre, curry2_gates]; rfl

/-- The next hidden state, at (r, j), is the reference formula. -/
theorem hNext_apply :
    RefRun.hNext (F := Ideal) x c h wih whh b gih bih ghh bhh gc bc (ValueIdx.ix2 r j) = hNextRef (curry2 x) (curry2 c) (curry2 h) (curry2 wih) (curry2 whh) (vec1 b) (vec1 gih) (vec1 bih) (vec1 ghh) (vec1 bhh) (vec1 gc) (vec1 bc) r j := by
  unfold RefRun.hNext mulf Host.tanh
  rw [oGate_apply, cNext_apply, curry2_gates]; rfl

end Results

end Cert.ReferenceIdeal.RefRead

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.Finite.lean ====
/-
  Finiteness of the inputs, read back from the precondition.

  The precondition evaluates, for each of the twelve argument arrays `x`, the conjunction over all
  indices of the comparison `|x i| < +∞` (the absolute value is `max (x i) (-(x i))`, the bound is
  the extended real the pattern `0x7F800000` denotes, which is `⊤`), and states that the conjunction
  of the twelve results is 1. Hence every entry of every array is the image of a real number.
-/
import proofs.«101494_j46059229282552_2_alg».proof.Defs
import proofs.«101494_j46059229282552_2_alg».proof.Proof.Gen.Pre_finite_inputs
import proofs.«101494_j46059229282552_2_alg».proof.Proof.Gen.KernelIdeal
import proofs.«101494_j46059229282552_2_alg».proof.Proof.LibERealStats
import Idealize.ShloMosaic.Lib.ReduceAll
import Idealize.ShloMosaic.Lib.ValueIdx

noncomputable section

namespace Cert.Finite

open Idealize.ShloMosaic Idealize.SL.Sem Cert.LibERealStats Cert.Pre_finite_inputs

/-- The rank-0 shape has one index. -/
instance subsingleton_S_ : Subsingleton S_.Idx := ⟨fun a b => funext fun d => d.elim0⟩

/-- The pattern `0x7F800000` of the 32-bit format denotes `⊤`. -/
theorem ofBits_inf : Ideal.ofBits .f32 0x7F800000#32 = (⊤ : EReal) := by
  simp [Ideal.ofBits, Ideal.ieee]

/-- A boolean read as a one-bit word is 1 exactly when it is true. -/
theorem ofBool_eq_one (b : Bool) : BitVec.ofBool b = 1#1 ↔ b = true := by cases b <;> decide

/-- One array: if the conjunction over all indices of `|x i| < +∞` is 1, every entry is finite. -/
theorem all_isReal {s : Shape} {axes : List (Fin s.rank)} (h : s.ReducesTo axes S_) (hu : 0 < S_.numel)
    (hb : S_.BroadcastsInDim s (![] : Fin 0 → Fin s.rank)) (x : FVec Ideal s .f32)
    (e : Host.reduce IntOp.andi
          (cmpf .olt (Host.absf x) (broadcastInDim s ![] hb (constant S_ .f32 0x7F800000#32)))
          (constantI S_ 1 1#1) h hu ValueIdx.ix0 = 1#1) :
    ∀ i, IsReal (x i) := by
  intro i
  have hi := Host.reduce_andi_all _ _ h hu _ e i
  simp only [cmpf, Host.absf, broadcastInDim, constant] at hi
  have h2 : Ideal.cmp .olt (max (x i) (-(x i))) (Ideal.ofBits .f32 0x7F800000#32) = 1#1 := hi
  rw [ofBits_inf] at h2
  unfold Ideal.cmp at h2
  rw [ofBool_eq_one] at h2
  exact isReal_of_abs_lt_top (of_decide_eq_true h2)

/-- The predicate decoded: if it evaluates to the all-ones array, every entry of each of the twelve
    arrays is finite. -/
theorem fn_all_ones [Cert.Pre_finite_inputs.Facts]
    (a0 a1 a2 : FVec Ideal S32768x256 .f32) (a3 a4 : FVec Ideal S1024x256 .f32)
    (a5 a6 a7 a8 a9 : FVec Ideal S1024 .f32) (a10 a11 : FVec Ideal S256 .f32)
    (h1 : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) := by
  have e := congrFun h1 ValueIdx.ix0
  dsimp only [fn, fn_part1, fn_part2, fn_part3] at e
  simp only [andi, IntOp.andi_eq_one] at e
  obtain ⟨⟨⟨⟨⟨⟨⟨⟨⟨⟨⟨e0, e1⟩, e2⟩, e3⟩, e4⟩, e5⟩, e6⟩, e7⟩, e8⟩, e9⟩, e10⟩, e11⟩ := e
  exact ⟨all_isReal _ _ _ a0 e0, all_isReal _ _ _ a1 e1, all_isReal _ _ _ a2 e2, all_isReal _ _ _ a3 e3, all_isReal _ _ _ a4 e4, all_isReal _ _ _ a5 e5, all_isReal _ _ _ a6 e6, all_isReal _ _ _ a7 e7, all_isReal _ _ _ a8 e8, all_isReal _ _ _ a9 e9, all_isReal _ _ _ a10 e10, all_isReal _ _ _ a11 e11⟩

/-- The claim's precondition gives, on every device, that every entry of each of the twelve argument
    arrays the launch memory holds is finite. -/
theorem finite_of_pre
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i))
    ∧ (∀ i, IsReal (m ((c.tc : Thread Cert.KernelIdeal.nD Cert.KernelIdeal.τ).loc Cert.KernelIdeal.main_arg11) i)) :=
  fn_all_ones _ _ _ _ _ _ _ _ _ _ _ _ (hpre c)

end Cert.Finite

end
-- ==== Proof.Algebra.Bn.lean ====
/-
  The two spellings of one batch normalisation agree on real entries.

  The tiled spelling gathers the column sums of v and of v² over two halves of 16 tiles of 1024 rows;
  regrouping the 32768 rows shows these are the plain column sums.  The variance as the mean of the
  squares minus the square of the mean is the mean of the squared deviations (the variance identity,
  for real entries).  The variance is a nonnegative real and ε is positive, so the scale
  s = γ/√(var + ε) is real, and v·s + (β − μ·s) = (v − μ)·s + β is an identity of real numbers.
-/
import proofs.«101494_j46059229282552_2_alg».proof.Proof.Spec
import proofs.«101494_j46059229282552_2_alg».proof.Proof.LibERealStats
import proofs.«101494_j46059229282552_2_alg».proof.Proof.Algebra.Consts
import Mathlib

namespace Cert.LstmBn

open Idealize.ShloMosaic
open Cert.LibERealStats

section
variable {n : ℕ}

/-! ## Regrouping the rows -/

/-- The sums over the two halves (each 16 tiles of 1024 consecutive rows) add up to the sum over all
    32768 rows: row (q·16 + i)·1024 + p is position p of tile q·16 + i of the 32 tiles. -/
theorem halfSum_two (V : Fin 32768 → Fin n → EReal) (j : Fin n) :
    halfSum V 0 j + halfSum V 1 j = ∑ r : Fin 32768, V r j := by
  let f : ℕ → EReal := fun m => if h : m < 32768 then V ⟨m, h⟩ j else 0
  have hf : ∀ r : Fin 32768, f r.val = V r j := fun r => by
    show (if h : r.val < 32768 then V ⟨r.val, h⟩ j else 0) = V r j
    rw [dif_pos r.isLt]
  have hhalf : ∀ q : Fin 2, halfSum V q j
      = ∑ i : Fin 16, ∑ p : Fin 1024, f ((q.val * 16 + i.val) * 1024 + p.val) := by
    intro q
    unfold halfSum
    refine Finset.sum_congr rfl fun i _ => Finset.sum_congr rfl fun p _ => ?_
    exact (hf (tileRow q i p)).symm
  have h1 := sum_tiles_of_eq 2 16 32 rfl (fun t => ∑ p : Fin 1024, f (t * 1024 + p.val))
  have h2 := sum_tiles_of_eq 32 1024 32768 rfl f
  rw [Fin.sum_univ_two] at h1
  rw [hhalf 0, hhalf 1]
  exact h1.trans (h2.trans (Finset.sum_congr rfl fun r _ => hf r))

/-- The mean from the two halves' sums is the column mean. -/
theorem meanT_eq (V : Fin 32768 → Fin n → EReal) (j : Fin n) : meanT V j = mean V j := by
  unfold meanT mean
  rw [halfSum_two]

/-! ## The variance -/

/-- The number of rows is a nonzero real. -/
theorem nB_ne : (32768 : ℝ) ≠ 0 := by norm_num

/-- The column mean of real entries is real. -/
theorem isReal_meanCol (V : Fin 32768 → Fin n → EReal) (j : Fin n) (hV : ∀ r, IsReal (V r j)) :
    IsReal (mean V j) := by
  unfold mean
  rw [nB_eq]
  exact isReal_mean (fun r => V r j) hV 32768 nB_ne

/-- For real entries, the mean of the squares minus the square of the mean is the mean of the squared
    deviations from the mean. -/
theorem varT_eq (V : Fin 32768 → Fin n → EReal) (j : Fin n) (hV : ∀ r, IsReal (V r j)) :
    varT V j = var V j := by
  unfold varT var
  rw [meanT_eq, halfSum_two (fun r j => V r j * V r j) j]
  unfold mean
  rw [nB_eq]
  exact (variance_eq (fun r => V r j) hV 32768 nB_ne (by rw [Fintype.card_fin]; norm_num)).symm

/-- The column variance of real entries is a nonnegative real: a mean of squares of reals. -/
theorem var_nonneg (V : Fin 32768 → Fin n → EReal) (j : Fin n) (hV : ∀ r, IsReal (V r j)) :
    ∃ x : ℝ, 0 ≤ x ∧ var V j = (x : EReal) := by
  obtain ⟨m, hm⟩ := isReal_meanCol V j hV
  choose a ha using hV
  refine ⟨(∑ r : Fin 32768, (a r - m) * (a r - m)) / 32768,
    div_nonneg (Finset.sum_nonneg fun r _ => mul_self_nonneg _) (by norm_num), ?_⟩
  have hsum : ∑ r : Fin 32768, (V r j - (m : EReal)) * (V r j - (m : EReal))
      = ((∑ r : Fin 32768, (a r - m) * (a r - m) : ℝ) : EReal) := by
    rw [coe_sum]
    exact Finset.sum_congr rfl fun r _ => by rw [ha r, EReal.coe_mul, EReal.coe_sub]
  unfold var
  rw [hm, nB_eq, hsum, div_coe_coe _ nB_ne]

/-- The scale γ/√(var + ε) is real: var + ε is a positive real, its square root a nonzero real. -/
theorem isReal_scale (V : Fin 32768 → Fin n → EReal) (γ : Fin n → EReal) (j : Fin n)
    (hV : ∀ r, IsReal (V r j)) (hγ : IsReal (γ j)) :
    IsReal (Ideal.div (γ j) (Ideal.sqrt (var V j + eps))) := by
  obtain ⟨x, hx0, hx⟩ := var_nonneg V j hV
  obtain ⟨e, he0, he⟩ := eps_pos
  have hpos : 0 < x + e := add_pos_of_nonneg_of_pos hx0 he0
  rw [hx, he, ← EReal.coe_add, Ideal.sqrt_coe, if_neg (not_lt.mpr hpos.le)]
  exact hγ.div (Real.sqrt_pos.mpr hpos).ne'

/-! ## The normalisation -/

/-- v·s + (β − μ·s) = (v − μ)·s + β for real v, μ, s, β. -/
theorem affine_eq {v μ s β : EReal} (hv : IsReal v) (hμ : IsReal μ) (hs : IsReal s) (hβ : IsReal β) :
    v * s + (β - μ * s) = (v - μ) * s + β := by
  obtain ⟨v, rfl⟩ := hv
  obtain ⟨μ, rfl⟩ := hμ
  obtain ⟨s, rfl⟩ := hs
  obtain ⟨β, rfl⟩ := hβ
  rw [← EReal.coe_mul, ← EReal.coe_mul, ← EReal.coe_sub, ← EReal.coe_add, ← EReal.coe_sub,
    ← EReal.coe_mul, ← EReal.coe_add]
  exact congrArg Real.toEReal (by ring)

/-- The tiled batch normalisation is the reference's, on real entries and real parameters. -/
theorem bnT_eq (V : Fin 32768 → Fin n → EReal) (γ β : Fin n → EReal)
    (hV : ∀ r j, IsReal (V r j)) (hγ : ∀ j, IsReal (γ j)) (hβ : ∀ j, IsReal (β j)) :
    bnT V γ β = bn V γ β := by
  funext r j
  unfold bnT bn shiftT scaleT
  rw [varT_eq V j fun r => hV r j, meanT_eq]
  exact affine_eq (hV r j) (isReal_meanCol V j fun r => hV r j)
    (isReal_scale V γ j (fun r => hV r j) (hγ j)) (hβ j)

/-- The batch normalisation of real entries with real parameters is real. -/
theorem isReal_bn (V : Fin 32768 → Fin n → EReal) (γ β : Fin n → EReal)
    (hV : ∀ r j, IsReal (V r j)) (hγ : ∀ j, IsReal (γ j)) (hβ : ∀ j, IsReal (β j)) :
    ∀ r j, IsReal (bn V γ β r j) := by
  intro r j
  unfold bn
  exact (((hV r j).sub (isReal_meanCol V j fun r => hV r j)).mul
    (isReal_scale V γ j (fun r => hV r j) (hγ j))).add (hβ j)

end

end Cert.LstmBn
-- ==== Proof.Algebra.Cell.lean ====
/-
  The cell: the two programmes' gate pre-activations, new cell state and new hidden state agree on
  real inputs.

  Every intermediate array is real when the inputs are: a projection is a finite sum of products of
  reals; a batch normalisation of reals with real parameters is real; the logistic of a real z is
  1/(1 + e^(−z)) with 1 + e^(−z) > 0, and the hyperbolic tangent of a real is real.  So each of the
  three batch normalisations meets real entries, where the tiled spelling is the reference's.
-/
import proofs.«101494_j46059229282552_2_alg».proof.Proof.Spec
import proofs.«101494_j46059229282552_2_alg».proof.Proof.LibERealStats
import proofs.«101494_j46059229282552_2_alg».proof.Proof.Algebra.Bn
import Mathlib

namespace Cert.LstmBn

open Idealize.ShloMosaic
open Cert.LibERealStats

/-! ## Real intermediates -/

/-- A projection of real rows onto real weight rows is real. -/
theorem isReal_proj {X : Fin 32768 → Fin 256 → EReal} {W : Fin 1024 → Fin 256 → EReal}
    (hX : ∀ r k, IsReal (X r k)) (hW : ∀ j k, IsReal (W j k)) : ∀ r j, IsReal (proj X W r j) := by
  intro r j
  unfold proj
  exact IsReal.sum_univ fun k => (hX r k).mul (hW j k)

/-- The logistic of a real is real. -/
theorem isReal_logistic {z : EReal} (hz : IsReal z) : IsReal (Ideal.logistic z) := by
  obtain ⟨r, rfl⟩ := hz
  exact ⟨_, Ideal.logistic_coe r⟩

/-- The hyperbolic tangent of a real is real. -/
theorem isReal_tanh {z : EReal} (hz : IsReal z) : IsReal (Ideal.tanh z) := by
  obtain ⟨r, rfl⟩ := hz
  exact ⟨_, Ideal.tanh_coe r⟩

/-- The unnormalised new cell state of real gate pre-activations and a real old cell state is real. -/
theorem isReal_cellRaw {G : Fin 32768 → Fin 1024 → EReal} {C : Fin 32768 → Fin 256 → EReal}
    (hG : ∀ r j, IsReal (G r j)) (hC : ∀ r j, IsReal (C r j)) : ∀ r j, IsReal (cellRaw G C r j) := by
  intro r j
  unfold cellRaw
  exact ((isReal_logistic (hG r _)).mul (hC r j)).add
    ((isReal_logistic (hG r _)).mul (isReal_tanh (hG r _)))

section
variable {X C H : Fin 32768 → Fin 256 → EReal} {Wih Whh : Fin 1024 → Fin 256 → EReal}
  {b gih bih ghh bhh : Fin 1024 → EReal} {gc bc : Fin 256 → EReal}

/-- The reference's gate pre-activations are real on real inputs. -/
theorem isReal_gatesRef (hX : ∀ r k, IsReal (X r k)) (hH : ∀ r k, IsReal (H r k))
    (hWih : ∀ j k, IsReal (Wih j k)) (hWhh : ∀ j k, IsReal (Whh j k)) (hb : ∀ j, IsReal (b j))
    (hgih : ∀ j, IsReal (gih j)) (hbih : ∀ j, IsReal (bih j))
    (hghh : ∀ j, IsReal (ghh j)) (hbhh : ∀ j, IsReal (bhh j)) :
    ∀ r j, IsReal (gatesRef X H Wih Whh b gih bih ghh bhh r j) := by
  intro r j
  unfold gatesRef
  exact ((isReal_bn _ _ _ (isReal_proj hX hWih) hgih hbih r j).add
    (isReal_bn _ _ _ (isReal_proj hH hWhh) hghh hbhh r j)).add (hb j)

/-! ## The two programmes agree -/

/-- The gate pre-activations agree: both batch normalisations meet real projections. -/
theorem gatesT_eq (hX : ∀ r k, IsReal (X r k)) (hH : ∀ r k, IsReal (H r k))
    (hWih : ∀ j k, IsReal (Wih j k)) (hWhh : ∀ j k, IsReal (Whh j k))
    (hgih : ∀ j, IsReal (gih j)) (hbih : ∀ j, IsReal (bih j))
    (hghh : ∀ j, IsReal (ghh j)) (hbhh : ∀ j, IsReal (bhh j)) :
    gatesT X H Wih Whh b gih bih ghh bhh = gatesRef X H Wih Whh b gih bih ghh bhh := by
  funext r j
  unfold gatesT gatesRef
  rw [bnT_eq _ _ _ (isReal_proj hX hWih) hgih hbih, bnT_eq _ _ _ (isReal_proj hH hWhh) hghh hbhh]

/-- The new cell states agree: the third batch normalisation meets a real unnormalised cell state. -/
theorem cNext_eq (hX : ∀ r k, IsReal (X r k)) (hC : ∀ r k, IsReal (C r k)) (hH : ∀ r k, IsReal (H r k))
    (hWih : ∀ j k, IsReal (Wih j k)) (hWhh : ∀ j k, IsReal (Whh j k)) (hb : ∀ j, IsReal (b j))
    (hgih : ∀ j, IsReal (gih j)) (hbih : ∀ j, IsReal (bih j))
    (hghh : ∀ j, IsReal (ghh j)) (hbhh : ∀ j, IsReal (bhh j))
    (hgc : ∀ j, IsReal (gc j)) (hbc : ∀ j, IsReal (bc j)) :
    cNextT X C H Wih Whh b gih bih ghh bhh gc bc = cNextRef X C H Wih Whh b gih bih ghh bhh gc bc := by
  unfold cNextT cNextRef
  rw [gatesT_eq hX hH hWih hWhh hgih hbih hghh hbhh]
  exact bnT_eq _ _ _
    (isReal_cellRaw (isReal_gatesRef hX hH hWih hWhh hb hgih hbih hghh hbhh) hC) hgc hbc

/-- The new hidden states agree. -/
theorem hNext_eq (hX : ∀ r k, IsReal (X r k)) (hC : ∀ r k, IsReal (C r k)) (hH : ∀ r k, IsReal (H r k))
    (hWih : ∀ j k, IsReal (Wih j k)) (hWhh : ∀ j k, IsReal (Whh j k)) (hb : ∀ j, IsReal (b j))
    (hgih : ∀ j, IsReal (gih j)) (hbih : ∀ j, IsReal (bih j))
    (hghh : ∀ j, IsReal (ghh j)) (hbhh : ∀ j, IsReal (bhh j))
    (hgc : ∀ j, IsReal (gc j)) (hbc : ∀ j, IsReal (bc j)) :
    hNextT X C H Wih Whh b gih bih ghh bhh gc bc = hNextRef X C H Wih Whh b gih bih ghh bhh gc bc := by
  funext r j
  unfold hNextT hNextRef
  rw [gatesT_eq hX hH hWih hWhh hgih hbih hghh hbhh,
    cNext_eq hX hC hH hWih hWhh hb hgih hbih hghh hbhh hgc hbc]

end

end Cert.LstmBn
-- ==== Proof.Algebra.lean ====
/-
  The algebra of the batch-normalised LSTM cell on the extended reals: the constants, the agreement of
  the two spellings of the batch normalisation on real entries, and the agreement of the two
  programmes' new cell and hidden states on real inputs.
-/
import proofs.«101494_j46059229282552_2_alg».proof.Proof.Algebra.Consts
import proofs.«101494_j46059229282552_2_alg».proof.Proof.Algebra.Bn
import proofs.«101494_j46059229282552_2_alg».proof.Proof.Algebra.Cell
-- ==== Proof.lean ====
/-
  An LSTM cell with three batch normalisations: the tiled three-pass programme against the plain reference.

  Both programmes compute, for a batch of 32768 rows, the gate pre-activations bn(x·W_ihᵀ) + bn(h·W_hhᵀ) + b, the new
  cell state bn(σ(f)·c + σ(i)·tanh(g)) and the new hidden state σ(o)·tanh(c′), where bn normalises every column by its
  mean and biased variance over the batch.  The reference spells the variance as the mean of the squared deviations
  and applies (v − μ)·(γ/√(var + ε)) + β.  The tiled programme gathers, tile by tile and in two halves, the column
  sums of v and of v², takes the variance as E v² − (E v)², and applies v·s + (β − μ·s) with s = γ/√(var + ε); its
  matrix products take operands rounded to a narrower format, which on the extended reals is no change, and its
  weights are transposed beforehand, so that its products are the reference's.

  On the extended reals the two spellings agree when every input entry is finite: regrouping the sums needs no
  finiteness, but E v² − (E v)² = E (v − E v)² and (v − μ)·s + β = v·s + (β − μ·s) are laws of the reals (they fail at
  ±∞), and every intermediate quantity is real because the inputs are: sums and products of reals, a variance that is
  a nonnegative real plus a positive ε under the square root, the logistic and hyperbolic tangent of reals.

  The pieces: the reference's run and its results read entry by entry (the reference's mathematics); the tiled
  programme's run with its results named, the three passes read off their runs at arbitrary entry contents, the host
  stretches between them read entry by entry, and the chain of buffers from the launch to the results (the tiled
  mathematics); the algebra joining the two; finiteness from the precondition.  Below they are assembled: both result
  arrays agree entry by entry.
-/
import proofs.«101494_j46059229282552_2_alg».proof.Defs
import proofs.«101494_j46059229282552_2_alg».proof.Proof.Gen.Kernel
import proofs.«101494_j46059229282552_2_alg».proof.Proof.Gen.Kernel.Frame
import proofs.«101494_j46059229282552_2_alg».proof.Proof.Gen.KernelIdeal
import proofs.«101494_j46059229282552_2_alg».proof.Proof.Gen.KernelIdeal.Frame
import proofs.«101494_j46059229282552_2_alg».proof.Proof.Gen.ReferenceIdeal
import proofs.«101494_j46059229282552_2_alg».proof.Proof.Gen.Pre_finite_inputs
import proofs.«101494_j46059229282552_2_alg».proof.Proof.KRun
import proofs.«101494_j46059229282552_2_alg».proof.Proof.KValue2
import proofs.«101494_j46059229282552_2_alg».proof.Proof.RefRun
import proofs.«101494_j46059229282552_2_alg».proof.Proof.RefRead
import proofs.«101494_j46059229282552_2_alg».proof.Proof.Finite
import proofs.«101494_j46059229282552_2_alg».proof.Proof.Algebra
import proofs.«101494_j46059229282552_2_alg».proof.Proof.Spec
import Idealize.ShloMosaic.Adequacy
import Idealize.ShloMosaic.Init

noncomputable section

namespace Cert.Proof

open Idealize.ShloMosaic Idealize.SL.Sem Idealize.ShloMosaic.ValueIdx Cert.LstmBn Cert.LibERealStats

/-- The word-level programme runs and leaves its arguments unchanged. -/
theorem frame_k : @Cert.frame_Kernel Cert.Kernel.Gen.facts Cert.Pre_finite_inputs.Gen.facts :=
  fun m ρ _ => Cert.Kernel.Gen.frame m ρ

/-- So does its reading on the extended reals. -/
theorem frame_ki : @Cert.frame_KernelIdeal Cert.KernelIdeal.Gen.facts Cert.Pre_finite_inputs.Gen.facts :=
  fun m ρ _ => Cert.KernelIdeal.Gen.frame m ρ

/-- And the reference: its run with the results dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2) (Cert.ReferenceIdeal.RefRun.run (F := Ideal) m ρ)

/-- From memories that agree on finite arguments both programmes end with the same two result arrays: each entry of
    the reference's is the reference spelling of the cell, each entry of the tiled programme's the tiled spelling,
    and the two spellings agree on real inputs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W6 m ρ c (Proc.devRef .tc Cert.KernelIdeal.main_v67_0),
    fun c => Cert.KernelIdeal.Gen.W6 m ρ c (Proc.devRef .tc Cert.KernelIdeal.main_v67_1),
    Cert.KernelIdeal.Run.run_named (F := Ideal) m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  all_goals
    obtain ⟨f0, f1, f2, f3, f4, f5, f6, f7, f8, f9, f10, f11⟩ := Cert.Finite.finite_of_pre m hpre c
    obtain ⟨e0, e1, e2, e3, e4, e5, e6, e7, e8, e9, e10, e11⟩ := hagree c
    rw [e0, e1, e2, e3, e4, e5, e6, e7, e8, e9, e10, e11]
    funext i
    obtain ⟨r, j, rfl⟩ : ∃ (r : Fin 32768) (j : Fin 256), i = ix2 r j := ⟨i 0, i 1, eq_ix2 i⟩
    dsimp only
  · rw [Cert.ReferenceIdeal.RefRead.cNext_apply, Cert.KernelIdeal.KValue.cnext_apply]
    exact (congrFun (congrFun (cNext_eq (fun r k => f0 _) (fun r k => f1 _) (fun r k => f2 _) (fun r k => f3 _) (fun r k => f4 _)
      (fun j => f5 _) (fun j => f6 _) (fun j => f7 _) (fun j => f8 _) (fun j => f9 _) (fun j => f10 _) (fun j => f11 _)) r) j).symm
  · rw [Cert.ReferenceIdeal.RefRead.hNext_apply, Cert.KernelIdeal.KValue.hnext_apply]
    exact (congrFun (congrFun (hNext_eq (fun r k => f0 _) (fun r k => f1 _) (fun r k => f2 _) (fun r k => f3 _) (fun r k => f4 _)
      (fun j => f5 _) (fun j => f6 _) (fun j => f7 _) (fun j => f8 _) (fun j => f9 _) (fun j => f10 _) (fun j => f11 _)) r) j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
